-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64x32 : Shape := ⟨2, ![64, 32]⟩
abbrev S32x64 : Shape := ⟨2, ![32, 64]⟩
abbrev S64x128 : Shape := ⟨2, ![64, 128]⟩
abbrev S128x256 : Shape := ⟨2, ![128, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x128 : S_.BroadcastsInDim S64x128 (![] : Fin 0 → Fin S64x128.rank)
  reducesTo_S64x128_S_d0_1 : S64x128.ReducesTo [0, 1] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S64x128 .f32) (main_arg8 : FVec F S128x256 .f32) (main_arg9 : FVec F S256x256 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg4 : FVec F S128x64 .f32) (main_arg5 : FVec F S64x32 .f32) (main_arg6 : FVec F S32x64 .f32) (main_arg7 : FVec F S64x128 .f32) (main_arg8 : FVec F S128x256 .f32) (main_arg9 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S10000x10000 .f32) (main_arg2 : FVec F S256x256 .f32) (main_arg3 : FVec F S256x128 .f32) (main_arg4 : FVec F S128x64 .f32) (main_arg5 : FVec F S64x32 .f32) (main_arg6 : FVec F S32x64 .f32) (main_arg7 : FVec F S64x128 .f32) (main_arg8 : FVec F S128x256 .f32) (main_arg9 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64x32 : Shape := ⟨2, ![64, 32]⟩
abbrev S32x64 : Shape := ⟨2, ![32, 64]⟩
abbrev S64x128 : Shape := ⟨2, ![64, 128]⟩
abbrev S128x256 : Shape := ⟨2, ![128, 256]⟩
abbrev S1000x256 : Shape := ⟨2, ![1000, 256]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩
abbrev S10000x64 : Shape := ⟨2, ![10000, 64]⟩
abbrev S1000x10000 : Shape := ⟨2, ![1000, 10000]⟩
abbrev S1000x64 : Shape := ⟨2, ![1000, 64]⟩
abbrev S1000x128 : Shape := ⟨2, ![1000, 128]⟩
abbrev S10000x32 : Shape := ⟨2, ![10000, 32]⟩
abbrev S1000x32 : Shape := ⟨2, ![1000, 32]⟩
abbrev S400x32 : Shape := ⟨2, ![400, 32]⟩

abbrev nBuf : Space → Nat
  | .hbm => 23
  | .vmem => 64
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x64, .f32⟩
  | .hbm, ⟨5, _⟩ => ⟨S64x32, .f32⟩
  | .hbm, ⟨6, _⟩ => ⟨S32x64, .f32⟩
  | .hbm, ⟨7, _⟩ => ⟨S64x128, .f32⟩
  | .hbm, ⟨8, _⟩ => ⟨S128x256, .f32⟩
  | .hbm, ⟨9, _⟩ => ⟨S256x256, .f32⟩
  | .hbm, ⟨10, _⟩ => ⟨S10000x256, .bf16⟩
  | .hbm, ⟨11, _⟩ => ⟨S10000x10000, .bf16⟩
  | .hbm, ⟨12, _⟩ => ⟨S10000x128, .bf16⟩
  | .hbm, ⟨13, _⟩ => ⟨S10000x64, .bf16⟩
  | .hbm, ⟨14, _⟩ => ⟨S10000x32, .bf16⟩
  | .hbm, ⟨15, _⟩ => ⟨S10000x32, .f32⟩
  | .hbm, ⟨16, _⟩ => ⟨S10000x64, .bf16⟩
  | .hbm, ⟨17, _⟩ => ⟨S10000x128, .bf16⟩
  | .hbm, ⟨18, _⟩ => ⟨S10000x256, .bf16⟩
  | .hbm, ⟨19, _⟩ => ⟨S10000x256, .bf16⟩
  | .hbm, ⟨20, _⟩ => ⟨S10000x256, .f32⟩
  | .hbm, ⟨21, _⟩ => ⟨S10000x256, .bf16⟩
  | .hbm, ⟨22, _⟩ => ⟨S10000x10000, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .bf16⟩
  | .local _ .vmem, ⟨4, _⟩ => ⟨S1000x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S256x128, .f32⟩
  | .local _ .vmem, ⟨9, _⟩ => ⟨S400x10000, .bf16⟩
  | .local _ .vmem, ⟨10, _⟩ => ⟨S400x10000, .bf16⟩
  | .local _ .vmem, ⟨11, _⟩ => ⟨S400x128, .bf16⟩
  | .local _ .vmem, ⟨12, _⟩ => ⟨S400x128, .bf16⟩
  | .local _ .vmem, ⟨13, _⟩ => ⟨S1000x10000, .bf16⟩
  | .local _ .vmem, ⟨14, _⟩ => ⟨S1000x10000, .bf16⟩
  | .local _ .vmem, ⟨15, _⟩ => ⟨S10000x128, .bf16⟩
  | .local _ .vmem, ⟨16, _⟩ => ⟨S128x64, .f32⟩
  | .local _ .vmem, ⟨17, _⟩ => ⟨S1000x64, .bf16⟩
  | .local _ .vmem, ⟨18, _⟩ => ⟨S1000x64, .bf16⟩
  | .local _ .vmem, ⟨19, _⟩ => ⟨S1000x10000, .bf16⟩
  | .local _ .vmem, ⟨20, _⟩ => ⟨S1000x10000, .bf16⟩
  | .local _ .vmem, ⟨21, _⟩ => ⟨S10000x64, .bf16⟩
  | .local _ .vmem, ⟨22, _⟩ => ⟨S64x32, .f32⟩
  | .local _ .vmem, ⟨23, _⟩ => ⟨S1000x32, .bf16⟩
  | .local _ .vmem, ⟨24, _⟩ => ⟨S1000x32, .bf16⟩
  | .local _ .vmem, ⟨25, _⟩ => ⟨S1000x10000, .bf16⟩
  | .local _ .vmem, ⟨26, _⟩ => ⟨S1000x10000, .bf16⟩
  | .local _ .vmem, ⟨27, _⟩ => ⟨S10000x32, .bf16⟩
  | .local _ .vmem, ⟨28, _⟩ => ⟨S32x64, .f32⟩
  | .local _ .vmem, ⟨29, _⟩ => ⟨S1000x32, .f32⟩
  | .local _ .vmem, ⟨30, _⟩ => ⟨S1000x32, .f32⟩
  | .local _ .vmem, ⟨31, _⟩ => ⟨S1000x64, .bf16⟩
  | .local _ .vmem, ⟨32, _⟩ => ⟨S1000x64, .bf16⟩
  | .local _ .vmem, ⟨33, _⟩ => ⟨S1000x10000, .bf16⟩
  | .local _ .vmem, ⟨34, _⟩ => ⟨S1000x10000, .bf16⟩
  | .local _ .vmem, ⟨35, _⟩ => ⟨S10000x64, .bf16⟩
  | .local _ .vmem, ⟨36, _⟩ => ⟨S64x128, .f32⟩
  | .local _ .vmem, ⟨37, _⟩ => ⟨S1000x128, .bf16⟩
  | .local _ .vmem, ⟨38, _⟩ => ⟨S1000x128, .bf16⟩
  | .local _ .vmem, ⟨39, _⟩ => ⟨S1000x10000, .bf16⟩
  | .local _ .vmem, ⟨40, _⟩ => ⟨S1000x10000, .bf16⟩
  | .local _ .vmem, ⟨41, _⟩ => ⟨S10000x128, .bf16⟩
  | .local _ .vmem, ⟨42, _⟩ => ⟨S128x256, .f32⟩
  | .local _ .vmem, ⟨43, _⟩ => ⟨S1000x256, .bf16⟩
  | .local _ .vmem, ⟨44, _⟩ => ⟨S1000x256, .bf16⟩
  | .local _ .vmem, ⟨45, _⟩ => ⟨S1000x10000, .bf16⟩
  | .local _ .vmem, ⟨46, _⟩ => ⟨S1000x10000, .bf16⟩
  | .local _ .vmem, ⟨47, _⟩ => ⟨S10000x256, .bf16⟩
  | .local _ .vmem, ⟨48, _⟩ => ⟨S256x256, .f32⟩
  | .local _ .vmem, ⟨49, _⟩ => ⟨S1000x256, .bf16⟩
  | .local _ .vmem, ⟨50, _⟩ => ⟨S1000x256, .bf16⟩
  | .local _ .vmem, ⟨51, _⟩ => ⟨S1000x10000, .bf16⟩
  | .local _ .vmem, ⟨52, _⟩ => ⟨S1000x10000, .bf16⟩
  | .local _ .vmem, ⟨53, _⟩ => ⟨S10000x256, .bf16⟩
  | .local _ .vmem, ⟨54, _⟩ => ⟨S1000x256, .f32⟩
  | .local _ .vmem, ⟨55, _⟩ => ⟨S1000x256, .f32⟩
  | .local _ .vmem, ⟨56, _⟩ => ⟨S400x32, .f32⟩
  | .local _ .vmem, ⟨57, _⟩ => ⟨S400x32, .f32⟩
  | .local _ .vmem, ⟨58, _⟩ => ⟨S400x256, .bf16⟩
  | .local _ .vmem, ⟨59, _⟩ => ⟨S400x256, .bf16⟩
  | .local _ .vmem, ⟨60, _⟩ => ⟨S10000x32, .f32⟩
  | .local _ .vmem, ⟨61, _⟩ => ⟨S10000x256, .bf16⟩
  | .local _ .vmem, ⟨62, _⟩ => ⟨S400x10000, .f32⟩
  | .local _ .vmem, ⟨63, _⟩ => ⟨S400x10000, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc4_stg4_0 : Ref sig .tc := ⟨.vmem, 31, rfl⟩
abbrev cc4_stg4_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg2_0 : Ref sig .tc := ⟨.vmem, 48, rfl⟩
abbrev cc7_stg3_0 : Ref sig .tc := ⟨.vmem, 49, rfl⟩
abbrev cc7_stg3_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg2_0 : Ref sig .tc := ⟨.vmem, 54, rfl⟩
abbrev cc8_stg2_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg1_1 : Ref sig .tc := ⟨.vmem, 59, rfl⟩
abbrev cc9_stg2_0 : Ref sig .tc := ⟨.vmem, 60, rfl⟩
abbrev cc9_stg3_0 : Ref sig .tc := ⟨.vmem, 61, rfl⟩
abbrev cc9_stg4_0 : Ref sig .tc := ⟨.vmem, 62, rfl⟩
abbrev cc9_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem3_0 : DmaSem sig := 43
abbrev cc6_sem3_1 : DmaSem sig := 44
abbrev cc7_sem0_0 : DmaSem sig := 45
abbrev cc7_sem0_1 : DmaSem sig := 46
abbrev cc7_sem1_0 : DmaSem sig := 47
abbrev cc7_sem2_0 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem2_1 : DmaSem sig := 55
abbrev cc9_sem0_0 : DmaSem sig := 56
abbrev cc9_sem0_1 : DmaSem sig := 57
abbrev cc9_sem1_0 : DmaSem sig := 58
abbrev cc9_sem1_1 : DmaSem sig := 59
abbrev cc9_sem2_0 : DmaSem sig := 60
abbrev cc9_sem3_0 : DmaSem sig := 61
abbrev cc9_sem4_0 : DmaSem sig := 62
abbrev cc9_sem4_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x32 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1000x256 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x256 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1000x256 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1000x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1000x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S400x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S400x256 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S10000x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S10000x256 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S400x10000 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S1000x256_S1000x256_0_0 : (Rect.unit (s := S1000x256) ![0, 0] S1000x256.size inb_S1000x256_S1000x256_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  packedbf16_S1000x64_S1000x64_0_0 : (Rect.unit (s := S1000x64) ![0, 0] S1000x64.size inb_S1000x64_S1000x64_0_0).PackedRows (EltTy.packing .bf16)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1000x32_S1000x32_0_0 : ∀ a, (![0, 0] : Fin 2 → Nat) a + S1000x32.size a ≤ S1000x32.size a
  h_S1000x32 : 0 < S1000x32.numel
  packedbf16_S1000x32_S1000x32_0_0 : (Rect.unit (s := S1000x32) ![0, 0] S1000x32.size inb_S1000x32_S1000x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S64x128_S64x128_0_0 : ∀ a, (![0, 0] : Fin 2 → Nat) a + S64x128.size a ≤ S64x128.size a
  h_S64x128 : 0 < S64x128.numel
  inb_S1000x128_S1000x128_0_0 : ∀ a, (![0, 0] : Fin 2 → Nat) a + S1000x128.size a ≤ S1000x128.size a
  h_S1000x128 : 0 < S1000x128.numel
  packedbf16_S1000x128_S1000x128_0_0 : (Rect.unit (s := S1000x128) ![0, 0] S1000x128.size inb_S1000x128_S1000x128_0_0).PackedRows (EltTy.packing .bf16)
  inb_S128x256_S128x256_0_0 : ∀ a, (![0, 0] : Fin 2 → Nat) a + S128x256.size a ≤ S128x256.size a
  h_S128x256 : 0 < S128x256.numel
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S400x256_S400x256_0_0 : ∀ a, (![0, 0] : Fin 2 → Nat) a + S400x256.size a ≤ S400x256.size a
  h_S400x256 : 0 < S400x256.numel
  shapeCasts_S400x256_S400x256 : S400x256.ShapeCasts S400x256
  dot_S1000x256_S256x256_S1000x256_1_0_0_1_n_n_wf : DotDims.WF S1000x256 S256x256 S1000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S1000x10000_S10000x128_S1000x128_1_0_0_1_n_n_wf : DotDims.WF S1000x10000 S10000x128 S1000x128 [1] [0] [0] [1] [] []
  dot_S1000x128_S128x64_S1000x64_1_0_0_1_n_n_wf : DotDims.WF S1000x128 S128x64 S1000x64 [1] [0] [0] [1] [] []
  dot_S1000x10000_S10000x64_S1000x64_1_0_0_1_n_n_wf : DotDims.WF S1000x10000 S10000x64 S1000x64 [1] [0] [0] [1] [] []
  dot_S1000x64_S64x32_S1000x32_1_0_0_1_n_n_wf : DotDims.WF S1000x64 S64x32 S1000x32 [1] [0] [0] [1] [] []
  dot_S1000x10000_S10000x32_S1000x32_1_0_0_1_n_n_wf : DotDims.WF S1000x10000 S10000x32 S1000x32 [1] [0] [0] [1] [] []
  dot_S1000x32_S32x64_S1000x64_1_0_0_1_n_n_wf : DotDims.WF S1000x32 S32x64 S1000x64 [1] [0] [0] [1] [] []
  dot_S1000x64_S64x128_S1000x128_1_0_0_1_n_n_wf : DotDims.WF S1000x64 S64x128 S1000x128 [1] [0] [0] [1] [] []
  dot_S1000x128_S128x256_S1000x256_1_0_0_1_n_n_wf : DotDims.WF S1000x128 S128x256 S1000x256 [1] [0] [0] [1] [] []
  dot_S1000x10000_S10000x256_S1000x256_1_0_0_1_n_n_wf : DotDims.WF S1000x10000 S10000x256 S1000x256 [1] [0] [0] [1] [] []
  dot_S400x32_S10000x32_S400x10000_1_1_0_0_n_n_wf : DotDims.WF S400x32 S10000x32 S400x10000 [1] [1] [0] [0] [] []
  dot_S400x256_S10000x256_S400x10000_1_1_0_0_n_n_wf : DotDims.WF S400x256 S10000x256 S400x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .bf16 = 32 ∨ (Rect.block (s := S10000x256) S1000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S10000x64.size a
  hwx2_3 : ∀ i : grid2.Coords, EltTy.bits .bf16 = 32 ∨ (Rect.block (s := S10000x64) S1000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x32.size a ≤ S10000x32.size a
  hwx3_3 : ∀ i : grid3.Coords, EltTy.bits .bf16 = 32 ∨ (Rect.block (s := S10000x32) S1000x32.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S10000x32.size a
  hwx4_1 : ∀ i : grid4.Coords, EltTy.bits .bf16 = 32 ∨ (Rect.block (s := S10000x32) S10000x32.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x64.size a ≤ S32x64.size a
  hwx4_2 : ∀ i : grid4.Coords, EltTy.bits .f32 = 32 ∨ (Rect.block (s := S32x64) S32x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x32.size a ≤ S10000x32.size a
  hwx4_3 : ∀ i : grid4.Coords, EltTy.bits .f32 = 32 ∨ (Rect.block (s := S10000x32) S1000x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1000x64.size a ≤ S10000x64.size a
  hwx4_4 : ∀ i : grid4.Coords, EltTy.bits .bf16 = 32 ∨ (Rect.block (s := S10000x64) S1000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x10000.size a ≤ S10000x10000.size a
  hwx5_0 : ∀ i : grid5.Coords, EltTy.bits .bf16 = 32 ∨ (Rect.block (s := S10000x10000) S1000x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .bf16 = 32 ∨ (Rect.block (s := S10000x64) S10000x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x128.size a ≤ S10000x128.size a
  hwx5_3 : ∀ i : grid5.Coords, EltTy.bits .bf16 = 32 ∨ (Rect.block (s := S10000x128) S1000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x10000.size a ≤ S10000x10000.size a
  hwx6_0 : ∀ i : grid6.Coords, EltTy.bits .bf16 = 32 ∨ (Rect.block (s := S10000x10000) S1000x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S10000x128.size a
  hwx6_1 : ∀ i : grid6.Coords, EltTy.bits .bf16 = 32 ∨ (Rect.block (s := S10000x128) S10000x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x256.size a ≤ S128x256.size a
  hwx6_2 : ∀ i : grid6.Coords, EltTy.bits .f32 = 32 ∨ (Rect.block (s := S128x256) S128x256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1000x256.size a ≤ S10000x256.size a
  hwx6_3 : ∀ i : grid6.Coords, EltTy.bits .bf16 = 32 ∨ (Rect.block (s := S10000x256) S1000x256.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x10000.size a ≤ S10000x10000.size a
  hwx7_0 : ∀ i : grid7.Coords, EltTy.bits .bf16 = 32 ∨ (Rect.block (s := S10000x10000) S1000x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x256.size a ≤ S10000x256.size a
  hwx7_1 : ∀ i : grid7.Coords, EltTy.bits .bf16 = 32 ∨ (Rect.block (s := S10000x256) S10000x256.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1000x256.size a ≤ S10000x256.size a
  hwx7_3 : ∀ i : grid7.Coords, EltTy.bits .bf16 = 32 ∨ (Rect.block (s := S10000x256) S1000x256.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1000x10000.size a ≤ S10000x10000.size a
  hwx8_0 : ∀ i : grid8.Coords, EltTy.bits .bf16 = 32 ∨ (Rect.block (s := S10000x10000) S1000x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x256.size a ≤ S10000x256.size a
  hwx8_1 : ∀ i : grid8.Coords, EltTy.bits .bf16 = 32 ∨ (Rect.block (s := S10000x256) S10000x256.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1000x256.size a ≤ S10000x256.size a
  hwx8_2 : ∀ i : grid8.Coords, EltTy.bits .f32 = 32 ∨ (Rect.block (s := S10000x256) S1000x256.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S400x32.size a ≤ S10000x32.size a
  hwx9_0 : ∀ i : grid9.Coords, EltTy.bits .f32 = 32 ∨ (Rect.block (s := S10000x32) S400x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S400x256.size a ≤ S10000x256.size a
  hwx9_1 : ∀ i : grid9.Coords, EltTy.bits .bf16 = 32 ∨ (Rect.block (s := S10000x256) S400x256.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S10000x32.size a ≤ S10000x32.size a
  hwx9_2 : ∀ i : grid9.Coords, EltTy.bits .f32 = 32 ∨ (Rect.block (s := S10000x32) S10000x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S10000x256.size a ≤ S10000x256.size a
  hwx9_3 : ∀ i : grid9.Coords, EltTy.bits .bf16 = 32 ∨ (Rect.block (s := S10000x256) S10000x256.size (cc9_transform_3 i) (hinb9_3 i)).WholeWords (EltTy.packing .bf16)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S400x10000.size a ≤ S10000x10000.size a
  hwx9_4 : ∀ i : grid9.Coords, EltTy.bits .f32 = 32 ∨ (Rect.block (s := S10000x10000) S400x10000.size (cc9_transform_4 i) (hinb9_4 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def dot_S1000x10000_S10000x32_S1000x32_1_0_0_1_n_n : DotDims S1000x10000 S10000x32 S1000x32 where
  lhsContracting := [1]
  rhsContracting := [0]
  lhsNonContracting := [0]
  rhsNonContracting := [1]
  lhsBatch := []
  rhsBatch := []
  wf := dot_S1000x10000_S10000x32_S1000x32_1_0_0_1_n_n_wf
def dot_S1000x32_S32x64_S1000x64_1_0_0_1_n_n : DotDims S1000x32 S32x64 S1000x64 where
  lhsContracting := [1]
  rhsContracting := [0]
  lhsNonContracting := [0]
  rhsNonContracting := [1]
  lhsBatch := []
  rhsBatch := []
  wf := dot_S1000x32_S32x64_S1000x64_1_0_0_1_n_n_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S1000x10000_S10000x256_S1000x256_1_0_0_1_n_n : DotDims S1000x10000 S10000x256 S1000x256 where
  lhsContracting := [1]
  rhsContracting := [0]
  lhsNonContracting := [0]
  rhsNonContracting := [1]
  lhsBatch := []
  rhsBatch := []
  wf := dot_S1000x10000_S10000x256_S1000x256_1_0_0_1_n_n_wf
def dot_S400x32_S10000x32_S400x10000_1_1_0_0_n_n : DotDims S400x32 S10000x32 S400x10000 where
  lhsContracting := [1]
  rhsContracting := [1]
  lhsNonContracting := [0]
  rhsNonContracting := [0]
  lhsBatch := []
  rhsBatch := []
  wf := dot_S400x32_S10000x32_S400x10000_1_1_0_0_n_n_wf
def dot_S400x256_S10000x256_S400x10000_1_1_0_0_n_n : DotDims S400x256 S10000x256 S400x10000 where
  lhsContracting := [1]
  rhsContracting := [1]
  lhsNonContracting := [0]
  rhsNonContracting := [0]
  lhsBatch := []
  rhsBatch := []
  wf := dot_S400x256_S10000x256_S400x10000_1_1_0_0_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1_0) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1_0) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S32x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4_0) S1000x32.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v4_1) S1000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v1_0) S1000x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4_1) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v5) S1000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v1_0) S1000x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S10000x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S128x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v6) S1000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v1_0) S1000x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S10000x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg9) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v7) S1000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v1_0) S1000x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v7) S10000x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v8) S1000x256.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v4_0) S400x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v9) S400x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v4_0) S10000x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v9) S10000x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v10) S400x10000.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x64 : Shape := ⟨2, ![128, 64]⟩
abbrev S64x32 : Shape := ⟨2, ![64, 32]⟩
abbrev S32x64 : Shape := ⟨2, ![32, 64]⟩
abbrev S64x128 : Shape := ⟨2, ![64, 128]⟩
abbrev S128x256 : Shape := ⟨2, ![128, 256]⟩
abbrev S_ : Shape := ⟨0, ![]⟩
abbrev S10000x128 : Shape := ⟨2, ![10000, 128]⟩
abbrev S10000x64 : Shape := ⟨2, ![10000, 64]⟩
abbrev S10000x32 : Shape := ⟨2, ![10000, 32]⟩
abbrev S32x10000 : Shape := ⟨2, ![32, 10000]⟩
abbrev S256x10000 : Shape := ⟨2, ![256, 10000]⟩

abbrev nBuf : Space → Nat
  | .hbm => 68
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x64, .f32⟩
  | .hbm, ⟨5, _⟩ => ⟨S64x32, .f32⟩
  | .hbm, ⟨6, _⟩ => ⟨S32x64, .f32⟩
  | .hbm, ⟨7, _⟩ => ⟨S64x128, .f32⟩
  | .hbm, ⟨8, _⟩ => ⟨S128x256, .f32⟩
  | .hbm, ⟨9, _⟩ => ⟨S256x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000x256, .f32⟩
  | .hbm, ⟨14, _⟩ => ⟨S10000x256, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x64, .f32⟩
  | .hbm, ⟨21, _⟩ => ⟨S10000x64, .f32⟩
  | .hbm, ⟨22, _⟩ => ⟨S_, .f32⟩
  | .hbm, ⟨23, _⟩ => ⟨S10000x64, .f32⟩
  | .hbm, ⟨24, _⟩ => ⟨S10000x64, .f32⟩
  | .hbm, ⟨25, _⟩ => ⟨S10000x32, .f32⟩
  | .hbm, ⟨26, _⟩ => ⟨S10000x32, .f32⟩
  | .hbm, ⟨27, _⟩ => ⟨S32x10000, .f32⟩
  | .hbm, ⟨28, _⟩ => ⟨S10000x10000, .f32⟩
  | .hbm, ⟨29, _⟩ => ⟨S10000x10000, .f32⟩
  | .hbm, ⟨30, _⟩ => ⟨S10000x10000, .f32⟩
  | .hbm, ⟨31, _⟩ => ⟨S_, .f32⟩
  | .hbm, ⟨32, _⟩ => ⟨S10000x10000, .f32⟩
  | .hbm, ⟨33, _⟩ => ⟨S10000x10000, .f32⟩
  | .hbm, ⟨34, _⟩ => ⟨S_, .f32⟩
  | .hbm, ⟨35, _⟩ => ⟨S10000x10000, .f32⟩
  | .hbm, ⟨36, _⟩ => ⟨S10000x10000, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S10000x256, .f32⟩
  | .hbm, ⟨48, _⟩ => ⟨S10000x256, .f32⟩
  | .hbm, ⟨49, _⟩ => ⟨S_, .f32⟩
  | .hbm, ⟨50, _⟩ => ⟨S10000x256, .f32⟩
  | .hbm, ⟨51, _⟩ => ⟨S10000x256, .f32⟩
  | .hbm, ⟨52, _⟩ => ⟨S10000x256, .f32⟩
  | .hbm, ⟨53, _⟩ => ⟨S10000x256, .f32⟩
  | .hbm, ⟨54, _⟩ => ⟨S_, .f32⟩
  | .hbm, ⟨55, _⟩ => ⟨S10000x256, .f32⟩
  | .hbm, ⟨56, _⟩ => ⟨S10000x256, .f32⟩
  | .hbm, ⟨57, _⟩ => ⟨S256x10000, .f32⟩
  | .hbm, ⟨58, _⟩ => ⟨S10000x10000, .f32⟩
  | .hbm, ⟨59, _⟩ => ⟨S10000x10000, .f32⟩
  | .hbm, ⟨60, _⟩ => ⟨S10000x10000, .f32⟩
  | .hbm, ⟨61, _⟩ => ⟨S_, .f32⟩
  | .hbm, ⟨62, _⟩ => ⟨S10000x10000, .f32⟩
  | .hbm, ⟨63, _⟩ => ⟨S10000x10000, .f32⟩
  | .hbm, ⟨64, _⟩ => ⟨S_, .f32⟩
  | .hbm, ⟨65, _⟩ => ⟨S10000x10000, .f32⟩
  | .hbm, ⟨66, _⟩ => ⟨S10000x10000, .f32⟩
  | .hbm, ⟨67, _⟩ => ⟨S10000x10000, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call2_cst : Ref sig .tc := ⟨.hbm, 22, rfl⟩
abbrev main_call2_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call3_cst : Ref sig .tc := ⟨.hbm, 39, rfl⟩
abbrev main_call3_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call4_cst : Ref sig .tc := ⟨.hbm, 44, rfl⟩
abbrev main_call4_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call5_cst : Ref sig .tc := ⟨.hbm, 49, rfl⟩
abbrev main_call5_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call6_cst : Ref sig .tc := ⟨.hbm, 54, rfl⟩
abbrev main_call6_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_1 : Ref sig .tc := ⟨.hbm, 61, rfl⟩
abbrev main_v35 : Ref sig .tc := ⟨.hbm, 62, rfl⟩
abbrev main_v36 : Ref sig .tc := ⟨.hbm, 63, rfl⟩
abbrev main_cst_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S_S10000x128 : S_.BroadcastsInDim S10000x128 (![] : Fin 0 → Fin S10000x128.rank)
  bcast_S_S10000x64 : S_.BroadcastsInDim S10000x64 (![] : Fin 0 → Fin S10000x64.rank)
  transposes_S10000x32_S32x10000_1_0 : S10000x32.Transposes [1, 0] S32x10000
  bcast_S_S10000x10000 : S_.BroadcastsInDim S10000x10000 (![] : Fin 0 → Fin S10000x10000.rank)
  transposes_S10000x256_S256x10000_1_0 : S10000x256.Transposes [1, 0] S256x10000
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []
  dot_S10000x32_S32x64_S10000x64_1_0_0_1_n_n_wf : DotDims.WF S10000x32 S32x64 S10000x64 [1] [0] [0] [1] [] []
  dot_S10000x64_S64x128_S10000x128_1_0_0_1_n_n_wf : DotDims.WF S10000x64 S64x128 S10000x128 [1] [0] [0] [1] [] []
  dot_S10000x128_S128x256_S10000x256_1_0_0_1_n_n_wf : DotDims.WF S10000x128 S128x256 S10000x256 [1] [0] [0] [1] [] []
  dot_S10000x256_S256x10000_S10000x10000_1_0_0_1_n_n_wf : DotDims.WF S10000x256 S256x10000 S10000x10000 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x10000_S10000x10000_1_0_0_1_n_n : DotDims S10000x256 S256x10000 S10000x10000 where
  lhsContracting := [1]
  rhsContracting := [0]
  lhsNonContracting := [0]
  rhsNonContracting := [1]
  lhsBatch := []
  rhsBatch := []
  wf := dot_S10000x256_S256x10000_S10000x10000_1_0_0_1_n_n_wf

class Facts : Prop extends Facts₀ where

variable [Facts]
-- ==== Proof.LibRegionRecord.lean ====
/-
  A kernel region of a program of several regions, as a segment record, for the plainest class of kernels.

  A region of @main launches one pipelined kernel: at every grid point each window's block is fetched into a
  staging buffer, the body runs, and each output window's buffer is written back. The library's rule for a program of
  several regions takes, per region, a record saying how the thread's resources are sorted before the region (the
  windows' arrays out of everything the core holds, the rest set aside), what the body's invariant is made of, and how
  everything is put back afterwards with the arrays at what the write-backs left.

  For a kernel whose body uses nothing but its staging buffers (no scratch carried between points, no semaphore of
  its own, no prefetched table, nothing owed to another core) the sorting is always the same, whatever the kernel
  computes:
    before   every unscoped buffer of the core at contents `W`, the generator register at some state, nothing owed;
    entry    the windows' arrays are distinct whole buffers among the unscoped ones, so they split off at the
             contents `W` gives them and the others ride past the region untouched;
    inside   the invariant is the core's scoped non-staging buffers and the generator register, the same at every point;
    exit     the arrays, at what the proof data says the write-backs left, rejoin the others: that is every unscoped
             buffer at any contents `W'` that has the arrays there (`hF`) and agrees with `W` elsewhere (`hrest`).
  `classA` builds that record from the layout facts of the region's windows, the body obligation, and `W`, `W'`.
  What the kernel computes enters only through the proof data's `after` (hence `arrAt`), which the caller relates to
  `W'` by `hF`; so the value of each output array after the region is available to a value claim by name.
-/
import Idealize.ShloMosaic.Lib.Pipeline.Frame
import Idealize.ShloMosaic.Lib.Pipeline.Regions
import Idealize.ShloMosaic.Lib.Pipeline.RegionsLoop

noncomputable section

namespace LibRegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Idealize.SL.Sem.Labels} {P : Type} [Fintype P]

local notation "𝕄" => MT nD τ sig Unit Val ℕ U ℕ

/-- What rides beside the buffers through every segment: the core's generator register at some state, and the core
    owing nothing. -/
abbrev Rest (c : Dev nD) : sProp 𝕄 :=
  iprop((∃ r, prngReg c r) ∗ ∃ S, owes (c : Thread nD τ) (0 : CellTallies nD τ sig Unit) S)

-- the library's lemmas are stated over the pinned configuration `pin pcs a p`; a record's fields over `pcs p`
set_option backward.isDefEq.respectTransparency.types false in
/-- The segment record of a region whose kernel uses only its staging buffers: entered from every unscoped buffer at
    `W`, left at `W'`. -/
def classA (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts (pin pcs a p).spec)
    (hpos : ∀ w : Fin (pin pcs a p).W, 0 < ((pin pcs a p).spec w).block.numel)
    (harr : ∀ w, ((pin pcs a p).spec w).arr.IsWhole)
    (hstage : ∀ (w : Fin (pin pcs a p).W) (s : Fin ((pin pcs a p).spec w).nbuf), (((pin pcs a p).spec w).stage s).IsWhole)
    (hK : IsEmpty (Fin (pcs p).pre.K))
    (hΦ : ∀ c t, (pdats p c).Φ t = ΦA (pin pcs a p).spec c)
    (hq : ∀ c w, (pdats p c).q w = fullShare)
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hA : ∀ c w, (pdats p c).A w = W c (arrRef (pin pcs a p).spec w))
    (hF : ∀ c w, (pdats p c).arrAt w (pin pcs a p).N = W' c (arrRef (pin pcs a p).spec w))
    (hrest : ∀ c (b : Ref sig .tc), b ∉ Finset.univ.image (arrRef (pin pcs a p).spec) → W' c b = W c b) :
    RegionSeg pcs a pdats () defs₀ 𝒱₀ L lv p where
  win := hw.to₀
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    -- the arrays split off the unscoped buffers; no table, so nothing is held for one; the core owes nothing
    haveI := hK
    have hsplit := arrays_of_unscopedBufs pcs a pdats hw harr c ((pdats p c).share_full (hq c)) (fun b => W c b) (hA c)
    rw [unscopedBufs_held] at hsplit
    have hnotable : (prefHeld (pcs p).pre c (fun _ => fullShare) (a p).1 : sProp 𝕄) = BI.emp := by
      unfold prefHeld; rw [Finset.univ_eq_empty, BI.bigSep_empty]
    rw [hnotable, ownSems0_none]
    iintro ⟨⟨Hheld, Hreg, Howes⟩, -, -⟩
    ihave Hsp := hsplit $$ Hheld
    icases Hsp with ⟨Harr, Hoth⟩
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    -- the arrays, at what the write-backs left, rejoin the buffers that rode past: every unscoped buffer at `W'`
    have hjoin := unscopedBufs_of_arrays pcs a hw harr c pdats ((pdats p c).share_full (hq c))
      (fun b => W c b) (fun b => W' c b) ((pdats p c).arrAt · (pin pcs a p).N) (hF c) (hrest c)
    rw [unscopedBufs_held] at hjoin
    iintro ⟨Harr, Howes, Hreg, Hoth⟩
    imodintro
    isplitl [Harr Hoth]
    · iapply hjoin; isplitl [Harr] <;> iassumption
    isplitl [Hreg]; · iexact Hreg
    unfold Dat.owesAt owesWithin
    rw [howed c (Fin.last _)]
    icases Howes with ⟨%S, -, Howes⟩
    iexists S; iexact Howes

-- the library's lemmas are stated over the pinned configuration `pin pcs a p`; a record's fields over `pcs p`
set_option backward.isDefEq.respectTransparency.types false in
/-- The same record when several INPUT windows of the kernel may read one and the same array, so that the windows' arrays
    are not pairwise distinct. The buffers behind the arrays still split off the unscoped buffers (distinct buffers, each
    whole); how each buffer's full share is dealt among the windows on it, and gathered again after the region, depends on
    the kernel and is asked of the caller: `hsplit` (from every array buffer whole at `W` to every window's array at that
    window's share, at the entry contents) and `hjoin` (back, from the exit contents, to every array buffer whole at
    `W'`). Everything else is as in `classA`. -/
def classShared (pcs : P → PCfg sig Λ₀ Val) (a : (p : P) → (pcs p).Adm)
    (pdats : (p : P) → (c : Dev nD) → Dat τ Val Unit ℕ U ℕ (pin pcs a p) c)
    (defs₀ : Defs nD τ sig Val Λ₀) (𝒱₀ : Variants)
    (L : GSem nD τ sig → Finset Unit) (lv : GSem nD τ sig → Unit → ℕ) (p : P)
    (hw : WinFacts₀ (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : IsEmpty (Fin (pcs p).pre.K))
    (hΦ : ∀ c t, (pdats p c).Φ t = ΦA (pin pcs a p).spec c)
    (howed : ∀ c t, (pdats p c).owed t = 0)
    (hrec : ∀ c t, (pdats p c).recorded t = Set.univ)
    (hbody : ∀ c, BodyObligation (pdats p c) defs₀ 𝒱₀ () Set.univ)
    (W W' : Dev nD → Valuation τ sig Val)
    (hsplit : ∀ c, (arrBufs (pin pcs a p).spec c (fun b => W c b) : sProp 𝕄) ⊢ (pdats p c).arrays ((pdats p c).arrAt · 0))
    (hjoin : ∀ c, (pdats p c).arrays ((pdats p c).arrAt · (pin pcs a p).N)
      ⊢ (arrBufs (pin pcs a p).spec c (fun b => W' c b) : sProp 𝕄))
    (hrest : ∀ c (b : Ref sig .tc), b ∉ Finset.univ.image (arrRef (pin pcs a p).spec) → W' c b = W c b) :
    RegionSeg pcs a pdats () defs₀ 𝒱₀ L lv p where
  win := hw
  block_pos := hpos
  stage_whole := hstage
  K := PEmpty
  osem k := k.elim
  ho := OwnSemFacts.none _
  hbody c := (hbody c).loose
  hwaits := hwaits_of_owed_zero pcs a pdats () L lv p howed
  pre c := iprop(StableHlo.held (c : Thread nD τ) (ucRefs τ sig) (W c) ∗ Rest c)
  post c := iprop(StableHlo.held (c : Thread nD τ) (ucRefs τ sig) (W' c) ∗ Rest c)
  X c := iprop(∃ r, prngReg c r)
  Y c := iprop(∃ r, prngReg c r)
  Z c := unscopedRest (pin pcs a p).spec c (fun b => W c b)
  hentry c := by
    haveI := hK
    have hub : StableHlo.held (c : Thread nD τ) (ucRefs τ sig) (W c)
        = iprop((arrBufs (pin pcs a p).spec c (fun b => W c b) : sProp 𝕄) ∗ unscopedRest (pin pcs a p).spec c (fun b => W c b)) := by
      rw [← unscopedBufs_held]; exact unscopedBufs_split₀ (pin pcs a) p hw.arr_unscoped c (fun b => W c b)
    have hnotable : (prefHeld (pcs p).pre c (fun _ => fullShare) (a p).1 : sProp 𝕄) = BI.emp := by
      unfold prefHeld; rw [Finset.univ_eq_empty, BI.bigSep_empty]
    rw [hnotable, ownSems0_none, hub]
    iintro ⟨⟨⟨Hbufs, Hoth⟩, Hreg, Howes⟩, -, -⟩
    ihave Harr := (hsplit c) $$ Hbufs
    imodintro
    isplitl [Harr]; · iexact Harr
    isplitr; · iempintro
    isplitl [Howes]
    · unfold Dat.owesAt owesWithin
      rw [howed c 0]
      icases Howes with ⟨%S, Howes⟩
      iexists S
      isplitr
      · ipureintro; intro x _; exact Or.inl (by rw [hrec c 0]; trivial)
      iexact Howes
    isplitl [Hreg]; · iexact Hreg
    iexact Hoth
  hin c := by
    rw [hΦ c 0]; unfold ΦA
    iintro ⟨Hreg, -, Hsc⟩
    isplitl [Hsc]; · iexact Hsc
    iexact Hreg
  hout c := by
    rw [hΦ c (Fin.last _), ownSems0_none]; unfold ΦA
    iintro ⟨Hsc, Hreg⟩
    isplitl [Hreg]; · iexact Hreg
    isplitr; · iempintro
    iexact Hsc
  hexit c := by
    have hub : StableHlo.held (c : Thread nD τ) (ucRefs τ sig) (W' c)
        = iprop((arrBufs (pin pcs a p).spec c (fun b => W' c b) : sProp 𝕄) ∗ unscopedRest (pin pcs a p).spec c (fun b => W' c b)) := by
      rw [← unscopedBufs_held]; exact unscopedBufs_split₀ (pin pcs a) p hw.arr_unscoped c (fun b => W' c b)
    have hoth : (unscopedRest (pin pcs a p).spec c (fun b => W c b) : sProp 𝕄)
        = unscopedRest (pin pcs a p).spec c (fun b => W' c b) := by
      unfold unscopedRest
      exact bigSep_congr fun b hb => by dsimp only; rw [hrest c b (Finset.mem_sdiff.mp hb).2]
    rw [hub, ← hoth]
    iintro ⟨Harr, Howes, Hreg, Hoth⟩
    ihave Hbufs := (hjoin c) $$ Harr
    imodintro
    isplitl [Hbufs Hoth]
    · isplitl [Hbufs]; · iexact Hbufs
      iexact Hoth
    isplitl [Hreg]; · iexact Hreg
    unfold Dat.owesAt owesWithin
    rw [howed c (Fin.last _)]
    icases Howes with ⟨%S, -, Howes⟩
    iexists S; iexact Howes

end LibRegionRecord

end
-- ==== Proof.Kernel.Region0.lean ====
/-
  Region 0 of the kernel program: one 1000-row block of the product  x · W₁  per grid point.

  The grid has 10 points; at point t the pipeline fetches rows 1000·t … 1000·t + 999 of x (window 0) and, once, the
  whole 256 × 256 weight matrix (window 1); the body multiplies the two blocks into a zero accumulator and stores the
  product, re-formatted, as the whole of the output window's buffer (window 2), which is written back as rows
  1000·t … of the result. Stated here, at any float instance: what the body leaves in the output buffer as a function
  of the two input blocks (`out`), the body's run on any whole staging buffers (`sound_kernel`), the pipeline's proof
  data at the contents `V` the region is entered with (`dat`: inputs left in place, the output buffer at `out` of the
  blocks, nothing else touched), and the body obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of a 1000 × 256 buffer and of a 256 × 256 buffer, as the body's loads and its store address them. -/
abbrev rX : Rect S1000x256 := Rect.unit (s := S1000x256) ![0, 0] S1000x256.size inb_S1000x256_S1000x256_0_0
abbrev rW : Rect S256x256 := Rect.unit (s := S256x256) ![0, 0] S256x256.size inb_S256x256_S256x256_0_0

/-- What the body leaves in the output window's buffer: the product of the row block with the weights. -/
def out (x : Vec F S1000x256 .f32) (w : Vec F S256x256 .f32) : Vec F S1000x256 .bf16 :=
  View.canon [⟨rX, k0_pay1 (View.ld x rX) (View.ld w rW)⟩]

theorem cover (p : Vec F S1000x256 .bf16) (y : S1000x256.Idx) :
    ∃ pc ∈ ([⟨rX, p⟩] : List (View.Piece (Elt F) S1000x256 .bf16)), y ∈ pc.1.set :=
  View.cover_of_tiled [⟨rX, p⟩] S1000x256.size (by rfl) y

set_option maxHeartbeats 1000000 in
theorem sound_kernel (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1000x256 .bf16) (harg3 : arg3.IsWhole)
    (x : Vec F S1000x256 .f32) (w : Vec F S256x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out x w)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the region finds them; after the body at point `t` each input's buffer still at its block and the
    output's at the product of the two blocks; the invariant the plain one; full shares; nothing owed. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => out (blk V c 0 t) (blk V c 1 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_out (c : Dev nD) (t : Fin cfg0.N) : (dat V c).after 2 t = out (blk V c 0 t) (blk V c 1 t) := by dsimp only [dat]

/-- An input window's current buffer holds its block at every point, fetched there or not: the body leaves it in place. -/
theorem before_x (c : Dev nD) (t : Fin cfg0.N) (d) : (dat V c).before 0 t d = blk V c 0 t :=
  ((dat V c).before_in_eq_fetched 0 rfl (fun _ => rfl) (fun _ _ _ => rfl)
    (fun t => by rw [after_x]; unfold Dat.blockOf blk; rw [dat_A]; try rfl) t d).trans
    (by unfold Dat.fetched Dat.blockOf blk; rw [dat_A]; try rfl)
theorem before_w (c : Dev nD) (t : Fin cfg0.N) (d) : (dat V c).before 1 t d = blk V c 1 t :=
  ((dat V c).before_in_eq_fetched 1 rfl (fun _ => rfl) (fun _ _ _ => rfl)
    (fun t => by rw [after_w]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl, after_x, after_w, after_out]
  iintro ⟨HΦ, Ho, ⟨%d0, H0⟩, ⟨%d1, H1⟩, ⟨%d2, H2⟩⟩
  iapply (sound_kernel c Set.univ (grid0.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Region0

end
-- ==== Proof.Kernel.Region1.lean ====
/-
  Region 1 of the kernel program: the first aggregation pass, 400 rows of the adjacency matrix per grid point.

  The grid has 25 points; at point t the pipeline fetches rows 400·t … 400·t + 399 of the adjacency matrix (window 0, f32)
  and, once each, the whole support matrix x·W₁ (window 1) and the whole 256 × 128 weights (window 2). The body stores the
  adjacency block, re-formatted, as the whole of window 3's buffer (the copy later passes read), and stores
  max(A_blk · support, 0) · W₂, re-formatted, as the whole of window 4's buffer. Stated at any float instance: what the
  body leaves in each output buffer as a function of the input blocks, the body's run on any whole staging buffers, the
  proof data at the region-entry contents, and the body obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and stores address it. -/
abbrev rA : Rect S400x10000 := Rect.unit (s := S400x10000) ![0, 0] S400x10000.size inb_S400x10000_S400x10000_0_0
abbrev rS : Rect S10000x256 := Rect.unit (s := S10000x256) ![0, 0] S10000x256.size inb_S10000x256_S10000x256_0_0
abbrev rW : Rect S256x128 := Rect.unit (s := S256x128) ![0, 0] S256x128.size inb_S256x128_S256x128_0_0
abbrev rO : Rect S400x128 := Rect.unit (s := S400x128) ![0, 0] S400x128.size inb_S400x128_S400x128_0_0

/-- The adjacency block's re-formatted copy. -/
def outCopy (a : Vec F S400x10000 .f32) : Vec F S400x10000 .bf16 :=
  View.canon [⟨rA, k1_pay1 (View.ld a rA)⟩]

/-- The next layer's support block: max(A_blk · support, 0) · W. -/
def outSup (a : Vec F S400x10000 .f32) (s : Vec F S10000x256 .bf16) (w : Vec F S256x128 .f32) : Vec F S400x128 .bf16 :=
  View.canon [⟨rO, k1_pay2 (View.ld a rA) (View.ld s rS) (View.ld w rW)⟩]

theorem coverCopy (p : Vec F S400x10000 .bf16) (y : S400x10000.Idx) :
    ∃ pc ∈ ([⟨rA, p⟩] : List (View.Piece (Elt F) S400x10000 .bf16)), y ∈ pc.1.set :=
  View.cover_of_tiled [⟨rA, p⟩] S400x10000.size (by rfl) y

theorem coverSup (p : Vec F S400x128 .bf16) (y : S400x128.Idx) :
    ∃ pc ∈ ([⟨rO, p⟩] : List (View.Piece (Elt F) S400x128 .bf16)), y ∈ pc.1.set :=
  View.cover_of_tiled [⟨rO, p⟩] S400x128.size (by rfl) y

set_option maxHeartbeats 2000000 in
theorem sound_kernel (c : Dev nD) (E : Set ℕ) (i : grid1.Coords)
    (arg1 : Memref sig .tc .vmem S400x10000 .f32) (harg1 : arg1.IsWhole)
    (arg2 : Memref sig .tc .vmem S10000x256 .bf16) (harg2 : arg2.IsWhole)
    (arg3 : Memref sig .tc .vmem S256x128 .f32) (harg3 : arg3.IsWhole)
    (arg4 : Memref sig .tc .vmem S400x10000 .bf16) (harg4 : arg4.IsWhole)
    (arg5 : Memref sig .tc .vmem S400x128 .bf16) (harg5 : arg5.IsWhole)
    (a : Vec F S400x10000 .f32) (s : Vec F S10000x256 .bf16) (w : Vec F S256x128 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare a ∗ owns (c : Thread nD τ) arg2 fullShare s ∗ owns (c : Thread nD τ) arg3 fullShare w
            ∗ owns (c : Thread nD τ) arg4 fullShare (outCopy a) ∗ owns (c : Thread nD τ) arg5 fullShare (outSup a s w)) -∗ K ⟨⟩))
      ⊢ wp frame (wpE (defs₀ (F := F)) Variants.none c none) E (cc1__agg_body_first i arg1 harg1 arg2 harg2 arg3 harg3 arg4 harg4 arg5 harg5) K := by
  simp only [cc1__agg_body_first_eq_skeleton]; unfold cc1__agg_body_first_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverCopy _)
  iexists _; isplitr
  swap; · iexact H4
  ipureintro
  exact View.read_writes_eq_canon _ _ _ (coverSup _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outCopy (blk V c 0 t)
    | ⟨4, _⟩ => outSup (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outCopy (blk V c 0 t) := by dsimp only [dat]
theorem after_4 (c : Dev nD) (t : Fin cfg1.N) : (dat V c).after 4 t = outSup (blk V c 0 t) (blk V c 1 t) (blk V c 2 t) := by dsimp only [dat]

/-- An input window's current buffer holds its block at every point, fetched there or not: the body leaves it in place. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.Kernel.Region1

end
-- ==== Proof.Kernel.Region2.lean ====
/-
  Region 2 of the kernel program: an aggregation pass, 1000 rows of the adjacency copy per grid point.

  The grid has 10 points; at point t the pipeline fetches rows 1000·t … 1000·t + 999 of the adjacency copy (window 0) and,
  once each, the whole 10000 × 128 support matrix (window 1) and the whole 128 × 64 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x128 := Rect.unit (s := S10000x128) ![0, 0] S10000x128.size inb_S10000x128_S10000x128_0_0
abbrev rW : Rect S128x64 := Rect.unit (s := S128x64) ![0, 0] S128x64.size inb_S128x64_S128x64_0_0
abbrev rO : Rect S1000x64 := Rect.unit (s := S1000x64) ![0, 0] S1000x64.size inb_S1000x64_S1000x64_0_0

/-- The next layer's support block: max(A_blk · support, 0) · W. -/
def out (a : Vec F S1000x10000 .bf16) (s : Vec F S10000x128 .bf16) (w : Vec F S128x64 .f32) : Vec F S1000x64 .bf16 :=
  View.canon [⟨rO, k2_pay1 (View.ld a rA) (View.ld s rS) (View.ld w rW)⟩]

theorem cover (p : Vec F S1000x64 .bf16) (y : S1000x64.Idx) :
    ∃ pc ∈ ([⟨rO, p⟩] : List (View.Piece (Elt F) S1000x64 .bf16)), y ∈ pc.1.set :=
  View.cover_of_tiled [⟨rO, p⟩] S1000x64.size (by rfl) y

set_option maxHeartbeats 2000000 in
theorem sound_kernel (c : Dev nD) (E : Set ℕ) (i : grid2.Coords)
    (arg1 : Memref sig .tc .vmem S1000x10000 .bf16) (harg1 : arg1.IsWhole)
    (arg2 : Memref sig .tc .vmem S10000x128 .bf16) (harg2 : arg2.IsWhole)
    (arg3 : Memref sig .tc .vmem S128x64 .f32) (harg3 : arg3.IsWhole)
    (arg4 : Memref sig .tc .vmem S1000x64 .bf16) (harg4 : arg4.IsWhole)
    (a : Vec F S1000x10000 .bf16) (s : Vec F S10000x128 .bf16) (w : Vec F S128x64 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc2__agg_body_sup i arg1 harg1 arg2 harg2 arg3 harg3 arg4 harg4) K := by
  simp only [cc2__agg_body_sup_eq_skeleton]; unfold cc2__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec2 c
  q _ := fullShare
  owed _ := 0

theorem dat_A (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = out (blk V c 0 t) (blk V c 1 t) (blk V c 2 t) := by dsimp only [dat]

/-- An input window's current buffer holds its block at every point, fetched there or not: the body leaves it in place. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W2, bigSep_W2]
  exact sound_body V c t

end Cert.Kernel.Region2

end
-- ==== Proof.Kernel.Region3.lean ====
/-
  Region 3 of the kernel program: an aggregation pass, 1000 rows of the adjacency copy per grid point.

  The grid has 10 points; at point t the pipeline fetches rows 1000·t … 1000·t + 999 of the adjacency copy (window 0) and,
  once each, the whole 10000 × 64 support matrix (window 1) and the whole 64 × 32 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x64 := Rect.unit (s := S10000x64) ![0, 0] S10000x64.size inb_S10000x64_S10000x64_0_0
abbrev rW : Rect S64x32 := Rect.unit (s := S64x32) ![0, 0] S64x32.size inb_S64x32_S64x32_0_0
abbrev rO : Rect S1000x32 := Rect.unit (s := S1000x32) ![0, 0] S1000x32.size inb_S1000x32_S1000x32_0_0

/-- The next layer's support block: max(A_blk · support, 0) · W. -/
def out (a : Vec F S1000x10000 .bf16) (s : Vec F S10000x64 .bf16) (w : Vec F S64x32 .f32) : Vec F S1000x32 .bf16 :=
  View.canon [⟨rO, k3_pay1 (View.ld a rA) (View.ld s rS) (View.ld w rW)⟩]

theorem cover (p : Vec F S1000x32 .bf16) (y : S1000x32.Idx) :
    ∃ pc ∈ ([⟨rO, p⟩] : List (View.Piece (Elt F) S1000x32 .bf16)), y ∈ pc.1.set :=
  View.cover_of_tiled [⟨rO, p⟩] S1000x32.size (by rfl) y

set_option maxHeartbeats 2000000 in
theorem sound_kernel (c : Dev nD) (E : Set ℕ) (i : grid3.Coords)
    (arg1 : Memref sig .tc .vmem S1000x10000 .bf16) (harg1 : arg1.IsWhole)
    (arg2 : Memref sig .tc .vmem S10000x64 .bf16) (harg2 : arg2.IsWhole)
    (arg3 : Memref sig .tc .vmem S64x32 .f32) (harg3 : arg3.IsWhole)
    (arg4 : Memref sig .tc .vmem S1000x32 .bf16) (harg4 : arg4.IsWhole)
    (a : Vec F S1000x10000 .bf16) (s : Vec F S10000x64 .bf16) (w : Vec F S64x32 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc3__agg_body_sup i arg1 harg1 arg2 harg2 arg3 harg3 arg4 harg4) K := by
  simp only [cc3__agg_body_sup_eq_skeleton]; unfold cc3__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec3 c
  q _ := fullShare
  owed _ := 0

theorem dat_A (c : Dev nD) (w : Fin cfg3.W) : (dat V c).A w = V c (Pipeline.arrRef spec3 w) := by dsimp only [dat]
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = out (blk V c 0 t) (blk V c 1 t) (blk V c 2 t) := by dsimp only [dat]

/-- An input window's current buffer holds its block at every point, fetched there or not: the body leaves it in place. -/
theorem before_0 (c : Dev nD) (t : Fin cfg3.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg3.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg3.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid3.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W3, bigSep_W3]
  exact sound_body V c t

end Cert.Kernel.Region3

end
-- ==== Proof.Kernel.Region4.lean ====
/-
  Region 4 of the kernel program: the aggregation pass that emits the embedding, 1000 rows per grid point.

  The grid has 10 points; at point t the pipeline fetches rows 1000·t … 1000·t + 999 of the adjacency copy (window 0) and,
  once each, the whole 10000 × 32 support matrix (window 1) and the whole 32 × 64 weights (window 2). This layer has no
  rectifier: the body stores Z = A_blk · support as the whole of window 3's buffer (rows of the embedding, a result of the
  program) and Z · W, re-formatted, as the whole of window 4's buffer (rows of the next support matrix). Stated at any
  float instance: what the body leaves in each output buffer as a function of the input blocks, the body's run on any whole
  staging buffers, the proof data at the region-entry contents, and the body obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and stores address it. -/
abbrev rA : Rect S1000x10000 := Rect.unit (s := S1000x10000) ![0, 0] S1000x10000.size inb_S1000x10000_S1000x10000_0_0
abbrev rS : Rect S10000x32 := Rect.unit (s := S10000x32) ![0, 0] S10000x32.size inb_S10000x32_S10000x32_0_0
abbrev rW : Rect S32x64 := Rect.unit (s := S32x64) ![0, 0] S32x64.size inb_S32x64_S32x64_0_0
abbrev rZ : Rect S1000x32 := Rect.unit (s := S1000x32) ![0, 0] S1000x32.size inb_S1000x32_S1000x32_0_0
abbrev rO : Rect S1000x64 := Rect.unit (s := S1000x64) ![0, 0] S1000x64.size inb_S1000x64_S1000x64_0_0

/-- The embedding's rows: A_blk · support. -/
def outZ (a : Vec F S1000x10000 .bf16) (s : Vec F S10000x32 .bf16) : Vec F S1000x32 .f32 :=
  View.canon [⟨rZ, k4_pay1 (View.ld a rA) (View.ld s rS)⟩]

/-- The next layer's support block: (A_blk · support) · W. -/
def outSup (a : Vec F S1000x10000 .bf16) (s : Vec F S10000x32 .bf16) (w : Vec F S32x64 .f32) : Vec F S1000x64 .bf16 :=
  View.canon [⟨rO, k4_pay2 (View.ld a rA) (View.ld s rS) (View.ld w rW)⟩]

theorem coverZ (p : Vec F S1000x32 .f32) (y : S1000x32.Idx) :
    ∃ pc ∈ ([⟨rZ, p⟩] : List (View.Piece (Elt F) S1000x32 .f32)), y ∈ pc.1.set :=
  View.cover_of_tiled [⟨rZ, p⟩] S1000x32.size (by rfl) y

theorem coverSup (p : Vec F S1000x64 .bf16) (y : S1000x64.Idx) :
    ∃ pc ∈ ([⟨rO, p⟩] : List (View.Piece (Elt F) S1000x64 .bf16)), y ∈ pc.1.set :=
  View.cover_of_tiled [⟨rO, p⟩] S1000x64.size (by rfl) y

set_option maxHeartbeats 2000000 in
theorem sound_kernel (c : Dev nD) (E : Set ℕ) (i : grid4.Coords)
    (arg1 : Memref sig .tc .vmem S1000x10000 .bf16) (harg1 : arg1.IsWhole)
    (arg2 : Memref sig .tc .vmem S10000x32 .bf16) (harg2 : arg2.IsWhole)
    (arg3 : Memref sig .tc .vmem S32x64 .f32) (harg3 : arg3.IsWhole)
    (arg4 : Memref sig .tc .vmem S1000x32 .f32) (harg4 : arg4.IsWhole)
    (arg5 : Memref sig .tc .vmem S1000x64 .bf16) (harg5 : arg5.IsWhole)
    (a : Vec F S1000x10000 .bf16) (s : Vec F S10000x32 .bf16) (w : Vec F S32x64 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare a ∗ owns (c : Thread nD τ) arg2 fullShare s ∗ owns (c : Thread nD τ) arg3 fullShare w
            ∗ owns (c : Thread nD τ) arg4 fullShare (outZ a s) ∗ owns (c : Thread nD τ) arg5 fullShare (outSup a s w)) -∗ K ⟨⟩))
      ⊢ wp frame (wpE (defs₀ (F := F)) Variants.none c none) E (cc4__agg_body_both i arg1 harg1 arg2 harg2 arg3 harg3 arg4 harg4 arg5 harg5) K := by
  simp only [cc4__agg_body_both_eq_skeleton]; unfold cc4__agg_body_both_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverZ _)
  iexists _; isplitr
  swap; · iexact H4
  ipureintro
  exact View.read_writes_eq_canon _ _ _ (coverSup _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => outZ (blk V c 0 t) (blk V c 1 t)
    | ⟨4, _⟩ => outSup (blk V c 0 t) (blk V c 1 t) (blk V c 2 t)
  Φ _ := Pipeline.ΦA spec4 c
  q _ := fullShare
  owed _ := 0

theorem dat_A (c : Dev nD) (w : Fin cfg4.W) : (dat V c).A w = V c (Pipeline.arrRef spec4 w) := by dsimp only [dat]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = outZ (blk V c 0 t) (blk V c 1 t) := by dsimp only [dat]
theorem after_4 (c : Dev nD) (t : Fin cfg4.N) : (dat V c).after 4 t = outSup (blk V c 0 t) (blk V c 1 t) (blk V c 2 t) := by dsimp only [dat]

/-- An input window's current buffer holds its block at every point, fetched there or not: the body leaves it in place. -/
theorem before_0 (c : Dev nD) (t : Fin cfg4.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg4.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg4.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t))

theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid4.coords t) _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W4, bigSep_W4]
  exact sound_body V c t

end Cert.Kernel.Region4

end
-- ==== Proof.Kernel.Region5.lean ====
/-
  Region 5 of the kernel program: an aggregation pass, 1000 rows of the adjacency copy per grid point.

  The grid has 10 points; at point t the pipeline fetches rows 1000·t … 1000·t + 999 of the adjacency copy (window 0) and,
  once each, the whole 10000 × 64 support matrix (window 1) and the whole 64 × 128 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x64 := Rect.unit (s := S10000x64) ![0, 0] S10000x64.size inb_S10000x64_S10000x64_0_0
abbrev rW : Rect S64x128 := Rect.unit (s := S64x128) ![0, 0] S64x128.size inb_S64x128_S64x128_0_0
abbrev rO : Rect S1000x128 := Rect.unit (s := S1000x128) ![0, 0] S1000x128.size inb_S1000x128_S1000x128_0_0

/-- The next layer's support block: max(A_blk · support, 0) · W. -/
def out (a : Vec F S1000x10000 .bf16) (s : Vec F S10000x64 .bf16) (w : Vec F S64x128 .f32) : Vec F S1000x128 .bf16 :=
  View.canon [⟨rO, k5_pay1 (View.ld a rA) (View.ld s rS) (View.ld w rW)⟩]

theorem cover (p : Vec F S1000x128 .bf16) (y : S1000x128.Idx) :
    ∃ pc ∈ ([⟨rO, p⟩] : List (View.Piece (Elt F) S1000x128 .bf16)), y ∈ pc.1.set :=
  View.cover_of_tiled [⟨rO, p⟩] S1000x128.size (by rfl) y

set_option maxHeartbeats 2000000 in
theorem sound_kernel (c : Dev nD) (E : Set ℕ) (i : grid5.Coords)
    (arg1 : Memref sig .tc .vmem S1000x10000 .bf16) (harg1 : arg1.IsWhole)
    (arg2 : Memref sig .tc .vmem S10000x64 .bf16) (harg2 : arg2.IsWhole)
    (arg3 : Memref sig .tc .vmem S64x128 .f32) (harg3 : arg3.IsWhole)
    (arg4 : Memref sig .tc .vmem S1000x128 .bf16) (harg4 : arg4.IsWhole)
    (a : Vec F S1000x10000 .bf16) (s : Vec F S10000x64 .bf16) (w : Vec F S64x128 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc5__agg_body_sup i arg1 harg1 arg2 harg2 arg3 harg3 arg4 harg4) K := by
  simp only [cc5__agg_body_sup_eq_skeleton]; unfold cc5__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec5 c
  q _ := fullShare
  owed _ := 0

theorem dat_A (c : Dev nD) (w : Fin cfg5.W) : (dat V c).A w = V c (Pipeline.arrRef spec5 w) := by dsimp only [dat]
theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = out (blk V c 0 t) (blk V c 1 t) (blk V c 2 t) := by dsimp only [dat]

/-- An input window's current buffer holds its block at every point, fetched there or not: the body leaves it in place. -/
theorem before_0 (c : Dev nD) (t : Fin cfg5.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg5.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg5.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid5.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W5, bigSep_W5]
  exact sound_body V c t

end Cert.Kernel.Region5

end
-- ==== Proof.Kernel.Region6.lean ====
/-
  Region 6 of the kernel program: an aggregation pass, 1000 rows of the adjacency copy per grid point.

  The grid has 10 points; at point t the pipeline fetches rows 1000·t … 1000·t + 999 of the adjacency copy (window 0) and,
  once each, the whole 10000 × 128 support matrix (window 1) and the whole 128 × 256 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x128 := Rect.unit (s := S10000x128) ![0, 0] S10000x128.size inb_S10000x128_S10000x128_0_0
abbrev rW : Rect S128x256 := Rect.unit (s := S128x256) ![0, 0] S128x256.size inb_S128x256_S128x256_0_0
abbrev rO : Rect S1000x256 := Rect.unit (s := S1000x256) ![0, 0] S1000x256.size inb_S1000x256_S1000x256_0_0

/-- The next layer's support block: max(A_blk · support, 0) · W. -/
def out (a : Vec F S1000x10000 .bf16) (s : Vec F S10000x128 .bf16) (w : Vec F S128x256 .f32) : Vec F S1000x256 .bf16 :=
  View.canon [⟨rO, k6_pay1 (View.ld a rA) (View.ld s rS) (View.ld w rW)⟩]

theorem cover (p : Vec F S1000x256 .bf16) (y : S1000x256.Idx) :
    ∃ pc ∈ ([⟨rO, p⟩] : List (View.Piece (Elt F) S1000x256 .bf16)), y ∈ pc.1.set :=
  View.cover_of_tiled [⟨rO, p⟩] S1000x256.size (by rfl) y

set_option maxHeartbeats 2000000 in
theorem sound_kernel (c : Dev nD) (E : Set ℕ) (i : grid6.Coords)
    (arg1 : Memref sig .tc .vmem S1000x10000 .bf16) (harg1 : arg1.IsWhole)
    (arg2 : Memref sig .tc .vmem S10000x128 .bf16) (harg2 : arg2.IsWhole)
    (arg3 : Memref sig .tc .vmem S128x256 .f32) (harg3 : arg3.IsWhole)
    (arg4 : Memref sig .tc .vmem S1000x256 .bf16) (harg4 : arg4.IsWhole)
    (a : Vec F S1000x10000 .bf16) (s : Vec F S10000x128 .bf16) (w : Vec F S128x256 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc6__agg_body_sup i arg1 harg1 arg2 harg2 arg3 harg3 arg4 harg4) K := by
  simp only [cc6__agg_body_sup_eq_skeleton]; unfold cc6__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec6 c
  q _ := fullShare
  owed _ := 0

theorem dat_A (c : Dev nD) (w : Fin cfg6.W) : (dat V c).A w = V c (Pipeline.arrRef spec6 w) := by dsimp only [dat]
theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = blk V c 2 t := by dsimp only [dat]
theorem after_3 (c : Dev nD) (t : Fin cfg6.N) : (dat V c).after 3 t = out (blk V c 0 t) (blk V c 1 t) (blk V c 2 t) := by dsimp only [dat]

/-- An input window's current buffer holds its block at every point, fetched there or not: the body leaves it in place. -/
theorem before_0 (c : Dev nD) (t : Fin cfg6.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg6.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg6.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d)))

def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid6.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W6, bigSep_W6]
  exact sound_body V c t

end Cert.Kernel.Region6

end
-- ==== Proof.Kernel.Region7.lean ====
/-
  Region 7 of the kernel program: an aggregation pass, 1000 rows of the adjacency copy per grid point.

  The grid has 10 points; at point t the pipeline fetches rows 1000·t … 1000·t + 999 of the adjacency copy (window 0) and,
  once each, the whole 10000 × 256 support matrix (window 1) and the whole 256 × 256 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x256 := Rect.unit (s := S10000x256) ![0, 0] S10000x256.size inb_S10000x256_S10000x256_0_0
abbrev rW : Rect S256x256 := Rect.unit (s := S256x256) ![0, 0] S256x256.size inb_S256x256_S256x256_0_0
abbrev rO : Rect S1000x256 := Rect.unit (s := S1000x256) ![0, 0] S1000x256.size inb_S1000x256_S1000x256_0_0

/-- The next layer's support block: max(A_blk · support, 0) · W. -/
def out (a : Vec F S1000x10000 .bf16) (s : Vec F S10000x256 .bf16) (w : Vec F S256x256 .f32) : Vec F S1000x256 .bf16 :=
  View.canon [⟨rO, k7_pay1 (View.ld a rA) (View.ld s rS) (View.ld w rW)⟩]

theorem cover (p : Vec F S1000x256 .bf16) (y : S1000x256.Idx) :
    ∃ pc ∈ ([⟨rO, p⟩] : List (View.Piece (Elt F) S1000x256 .bf16)), y ∈ pc.1.set :=
  View.cover_of_tiled [⟨rO, p⟩] S1000x256.size (by rfl) y

set_option maxHeartbeats 2000000 in
theorem sound_kernel (c : Dev nD) (E : Set ℕ) (i : grid7.Coords)
    (arg1 : Memref sig .tc .vmem S1000x10000 .bf16) (harg1 : arg1.IsWhole)
    (arg2 : Memref sig .tc .vmem S10000x256 .bf16) (harg2 : arg2.IsWhole)
    (arg3 : Memref sig .tc .vmem S256x256 .f32) (harg3 : arg3.IsWhole)
    (arg4 : Memref sig .tc .vmem S1000x256 .bf16) (harg4 : arg4.IsWhole)
    (a : Vec F S1000x10000 .bf16) (s : Vec F S10000x256 .bf16) (w : Vec F S256x256 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc7__agg_body_sup i arg1 harg1 arg2 harg2 arg3 harg3 arg4 harg4) K := by
  simp only [cc7__agg_body_sup_eq_skeleton]; unfold cc7__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec7 c
  q _ := fullShare
  owed _ := 0

theorem dat_A (c : Dev nD) (w : Fin cfg7.W) : (dat V c).A w = V c (Pipeline.arrRef spec7 w) := by dsimp only [dat]
theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = out (blk V c 0 t) (blk V c 1 t) (blk V c 2 t) := by dsimp only [dat]

/-- An input window's current buffer holds its block at every point, fetched there or not: the body leaves it in place. -/
theorem before_0 (c : Dev nD) (t : Fin cfg7.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg7.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg7.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d)))

def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t))

theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid7.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W7, bigSep_W7]
  exact sound_body V c t

end Cert.Kernel.Region7

end
-- ==== Proof.Kernel.Region8.lean ====
/-
  Region 8 of the kernel program: the last aggregation pass, 1000 rows of the reconstruction per grid point.

  The grid has 10 points; at point t the pipeline fetches rows 1000·t … 1000·t + 999 of the adjacency copy (window 0) and,
  once, the whole 10000 × 256 support matrix (window 1). The body stores max(A_blk · support, 0) as the whole of window 2's
  buffer, written back as those rows of the reconstruction, a result of the program. Stated at any float instance: what the
  body leaves in the output buffer as a function of the two input blocks, the body's run on any whole staging buffers, the
  proof data at the region-entry contents, and the body obligation at every grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x256 := Rect.unit (s := S10000x256) ![0, 0] S10000x256.size inb_S10000x256_S10000x256_0_0
abbrev rO : Rect S1000x256 := Rect.unit (s := S1000x256) ![0, 0] S1000x256.size inb_S1000x256_S1000x256_0_0

/-- The reconstruction's rows: max(A_blk · support, 0). -/
def out (a : Vec F S1000x10000 .bf16) (s : Vec F S10000x256 .bf16) : Vec F S1000x256 .f32 :=
  View.canon [⟨rO, k8_pay1 (View.ld a rA) (View.ld s rS)⟩]

theorem cover (p : Vec F S1000x256 .f32) (y : S1000x256.Idx) :
    ∃ pc ∈ ([⟨rO, p⟩] : List (View.Piece (Elt F) S1000x256 .f32)), y ∈ pc.1.set :=
  View.cover_of_tiled [⟨rO, p⟩] S1000x256.size (by rfl) y

set_option maxHeartbeats 2000000 in
theorem sound_kernel (c : Dev nD) (E : Set ℕ) (i : grid8.Coords)
    (arg1 : Memref sig .tc .vmem S1000x10000 .bf16) (harg1 : arg1.IsWhole)
    (arg2 : Memref sig .tc .vmem S10000x256 .bf16) (harg2 : arg2.IsWhole)
    (arg3 : Memref sig .tc .vmem S1000x256 .f32) (harg3 : arg3.IsWhole)
    (a : Vec F S1000x10000 .bf16) (s : Vec F S10000x256 .bf16) (K : PUnit → sProp 𝕄) :
    iprop(owns (c : Thread nD τ) arg1 fullShare a ∗ owns (c : Thread nD τ) arg2 fullShare s
        ∗ (∃ d, owns (c : Thread nD τ) arg3 fullShare d)
        ∗ (iprop(owns (c : Thread nD τ) arg1 fullShare a ∗ owns (c : Thread nD τ) arg2 fullShare s
            ∗ owns (c : Thread nD τ) arg3 fullShare (out a s)) -∗ K ⟨⟩))
      ⊢ wp frame (wpE (defs₀ (F := F)) Variants.none c none) E (cc8__agg_body_z i arg1 harg1 arg2 harg2 arg3 harg3) K := by
  simp only [cc8__agg_body_z_eq_skeleton]; unfold cc8__agg_body_z_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat (c : Dev nD) : Dat τ (Elt F) Unit ℕ (Pipeline.UD sig nD τ) ℕ cfg8 c where
  A w := V c (Pipeline.arrRef spec8 w)
  after w t := match w with
    | ⟨0, _⟩ => blk V c 0 t
    | ⟨1, _⟩ => blk V c 1 t
    | ⟨2, _⟩ => out (blk V c 0 t) (blk V c 1 t)
  Φ _ := Pipeline.ΦA spec8 c
  q _ := fullShare
  owed _ := 0

theorem dat_A (c : Dev nD) (w : Fin cfg8.W) : (dat V c).A w = V c (Pipeline.arrRef spec8 w) := by dsimp only [dat]
theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = out (blk V c 0 t) (blk V c 1 t) := by dsimp only [dat]

/-- An input window's current buffer holds its block at every point, fetched there or not: the body leaves it in place. -/
theorem before_0 (c : Dev nD) (t : Fin cfg8.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg8.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-! ## The body obligation -/

def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d)))

def bodyPost (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t))

theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (sound_kernel c Set.univ (grid8.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W8, bigSep_W8]
  exact sound_body V c t

end Cert.Kernel.Region8

end
-- ==== Proof.Kernel.Region9.lean ====
/-
  Region 9 of the kernel program: 400 rows of the reconstructed adjacency per grid point.

  The grid has 25 points; at point t the pipeline fetches rows 400·t … 400·t + 399 of the embedding (window 0) and of the
  re-formatted reconstruction (window 1) and, once each, the whole embedding (window 2) and the whole re-formatted
  reconstruction (window 3) — windows 0 and 2 read one array, windows 1 and 3 another. The body forms the two
  rows-against-rows products a = Zg_blk · Zgᵀ and b = Zh_blk · Zhᵀ and stores 1 + ½·(tanh(½·a) + tanh(½·b)) as the whole of
  window 4's buffer, written back as those rows of the result. Stated at any float instance: what the body leaves in the
  output buffer as a function of the four input blocks, the body's run on any whole staging buffers, the proof data at the
  region-entry contents — each shared array held half by each of its two windows —, and the body obligation at every
  grid point.
-/
import proofs.«155458_g54082228191885_cont_9to1c4b_454_29_alg».proof.Proof.Gen.Kernel.Launch
import proofs.«155458_g54082228191885_cont_9to1c4b_454_29_alg».proof.Proof.Gen.Kernel.Skeleton
import proofs.«155458_g54082228191885_cont_9to1c4b_454_29_alg».proof.Proof.Gen.Kernel.Points
import Idealize.ShloMosaic.Lib.Pipeline.FrameBody
import Idealize.ShloMosaic.Lib.Tactic

set_option maxRecDepth 16384

noncomputable section

namespace Cert.Kernel.Region9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The whole of each buffer, as the body's loads and its store address it. -/
abbrev rG : Rect S400x32 := Rect.unit (s := S400x32) ![0, 0] S400x32.size inb_S400x32_S400x32_0_0
abbrev rH : Rect S400x256 := Rect.unit (s := S400x256) ![0, 0] S400x256.size inb_S400x256_S400x256_0_0
abbrev rGw : Rect S10000x32 := Rect.unit (s := S10000x32) ![0, 0] S10000x32.size inb_S10000x32_S10000x32_0_0
abbrev rHw : Rect S10000x256 := Rect.unit (s := S10000x256) ![0, 0] S10000x256.size inb_S10000x256_S10000x256_0_0
abbrev rO : Rect S400x10000 := Rect.unit (s := S400x10000) ![0, 0] S400x10000.size inb_S400x10000_S400x10000_0_0

/-- The rows of the reconstructed adjacency: 1 + ½·(tanh(½·Zg_blk Zgᵀ) + tanh(½·Zh_blk Zhᵀ)). -/
def out (g : Vec F S400x32 .f32) (h : Vec F S400x256 .bf16) (gw : Vec F S10000x32 .f32) (hw : Vec F S10000x256 .bf16) :
    Vec F S400x10000 .f32 :=
  View.canon [⟨rO, k9_pay1 (View.ld g rG) (View.ld gw rGw) (View.ld h rH) (View.ld hw rHw)⟩]

theorem cover (p : Vec F S400x10000 .f32) (y : S400x10000.Idx) :
    ∃ pc ∈ ([⟨rO, p⟩] : List (View.Piece (Elt F) S400x10000 .f32)), y ∈ pc.1.set :=
  View.cover_of_tiled [⟨rO, p⟩] S400x10000.size (by rfl) y

set_option maxHeartbeats 2000000 in
theorem sound_kernel (c : Dev nD) (E : Set ℕ) (i : grid9.Coords)
    (arg1 : Memref sig .tc .vmem S400x32 .f32) (harg1 : arg1.IsWhole)
    (arg2 : Memref sig .tc .vmem S400x256 .bf16) (harg2 : arg2.IsWhole)
    (arg3 : Memref sig .tc .vmem S10000x32 .f32) (harg3 : arg3.IsWhole)
    (arg4 : Memref sig .tc .vmem S10000x256 .bf16) (harg4 : arg4.IsWhole)
    (arg5 : Memref sig .tc .vmem S400x10000 .f32) (harg5 : arg5.IsWhole)
    (g : Vec F S400x32 .f32) (h : Vec F S400x256 .bf16) (gw : Vec F S10000x32 .f32) (hw : Vec F S10000x256 .bf16)
    (K : PUnit → sProp 𝕄) :
    iprop(owns (c : Thread nD τ) arg1 fullShare g ∗ owns (c : Thread nD τ) arg2 fullShare h
        ∗ owns (c : Thread nD τ) arg3 fullShare gw ∗ owns (c : Thread nD τ) arg4 fullShare hw
        ∗ (∃ d, owns (c : Thread nD τ) arg5 fullShare d)
        ∗ (iprop(owns (c : Thread nD τ) arg1 fullShare g ∗ owns (c : Thread nD τ) arg2 fullShare h
            ∗ owns (c : Thread nD τ) arg3 fullShare gw ∗ owns (c : Thread nD τ) arg4 fullShare hw
            ∗ owns (c : Thread nD τ) arg5 fullShare (out g h gw hw)) -∗ K ⟨⟩))
      ⊢ wp frame (wpE (defs₀ (F := F)) Variants.none c none) E (cc9__adjhat_body i arg1 harg1 arg2 harg2 arg3 harg3 arg4 harg4 arg5 harg5) K := by
  simp only [cc9__adjhat_body_eq_skeleton]; unfold cc9__adjhat_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The arrays as the region finds them; after the body each input's buffer still at its block, the output's at the rows of
    the result; each of the two shared arrays held half by the window that reads it block by block and half by the window
    that reads it whole; nothing owed. -/
def dat (c : Dev nD) : Dat τ (Elt F) Unit ℕ (Pipeline.UD sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec9 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem dat_A (c : Dev nD) (w : Fin cfg9.W) : (dat V c).A w = V c (Pipeline.arrRef spec9 w) := by dsimp only [dat]
theorem after_0 (c : Dev nD) (t : Fin cfg9.N) : (dat V c).after 0 t = blk V c 0 t := by dsimp only [dat]
theorem after_1 (c : Dev nD) (t : Fin cfg9.N) : (dat V c).after 1 t = blk V c 1 t := by dsimp only [dat]
theorem after_2 (c : Dev nD) (t : Fin cfg9.N) : (dat V c).after 2 t = blk V c 2 t := by dsimp only [dat]
theorem after_3 (c : Dev nD) (t : Fin cfg9.N) : (dat V c).after 3 t = blk V c 3 t := by dsimp only [dat]
theorem after_4 (c : Dev nD) (t : Fin cfg9.N) :
    (dat V c).after 4 t = out (blk V c 0 t) (blk V c 1 t) (blk V c 2 t) (blk V c 3 t) := by dsimp only [dat]

/-- An input window's current buffer holds its block at every point, fetched there or not: the body leaves it in place. -/
theorem before_0 (c : Dev nD) (t : Fin cfg9.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg9.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg9.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg9.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)

/-! ## The body obligation -/

def bodyPre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d))
    ∗ (∃ d, owns (c : Thread nD τ) (st9_3 t) fullShare ((dat V c).before 3 t d))
    ∗ (∃ d, owns (c : Thread nD τ) (st9_4 t) fullShare ((dat V c).before 4 t d)))

def bodyPost (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t)
    ∗ owns (c : Thread nD τ) (st9_3 t) fullShare ((dat V c).after 3 t)
    ∗ owns (c : Thread nD τ) (st9_4 t) fullShare ((dat V c).after 4 t))

theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1, before_2, before_3]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid9.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W9, bigSep_W9]
  exact sound_body V c t

end Cert.Kernel.Region9

end
-- ==== Proof.Kernel.Run.lean ====
/-
  The kernel program's run through its eleven items — nine pipelined regions, one host conversion, the last
  pipelined region — with every buffer's contents named.

  Between two items core c holds every unscoped buffer at known contents: at launch the memory m (`U0`); after a region,
  the contents before it with each OUTPUT array of the region replaced by what its write-backs leave (the region's proof
  data's `arrAt` after the last grid point; an input array is never written) (`U1` … `U9`, `U11`); after the host stretch,
  its operations applied (`U10`). Each region is a segment record entered from the contents before it and left at the
  contents after it (the records of the plain class of kernels; for the last region, whose windows 0, 2 read one array and
  1, 3 another, the record that deals each shared array's share into halves and gathers it again). The library's rule for a
  program of several regions then gives: every weakly fair execution of @main from memory m with zero counters terminates,
  and every unscoped buffer ends at `U11` — in particular the three results at the last write-backs of regions 4, 8 and 9,
  and the ten arguments at m.
-/
import proofs.«155458_g54082228191885_cont_9to1c4b_454_29_alg».proof.Proof.LibRegionRecord
import proofs.«155458_g54082228191885_cont_9to1c4b_454_29_alg».proof.Proof.Kernel.Region0
import proofs.«155458_g54082228191885_cont_9to1c4b_454_29_alg».proof.Proof.Kernel.Region1
import proofs.«155458_g54082228191885_cont_9to1c4b_454_29_alg».proof.Proof.Kernel.Region2
import proofs.«155458_g54082228191885_cont_9to1c4b_454_29_alg».proof.Proof.Kernel.Region3
import proofs.«155458_g54082228191885_cont_9to1c4b_454_29_alg».proof.Proof.Kernel.Region4
import proofs.«155458_g54082228191885_cont_9to1c4b_454_29_alg».proof.Proof.Kernel.Region5
import proofs.«155458_g54082228191885_cont_9to1c4b_454_29_alg».proof.Proof.Kernel.Region6
import proofs.«155458_g54082228191885_cont_9to1c4b_454_29_alg».proof.Proof.Kernel.Region7
import proofs.«155458_g54082228191885_cont_9to1c4b_454_29_alg».proof.Proof.Kernel.Region8
import proofs.«155458_g54082228191885_cont_9to1c4b_454_29_alg».proof.Proof.Kernel.Region9
import proofs.«155458_g54082228191885_cont_9to1c4b_454_29_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-! ## The buffers' contents between items -/

/-- A valuation read at the TensorCore's references: what a region's proof data take. -/
abbrev rd (U : Dev nD → Valuation τ sig (Elt F)) : (c : Dev nD) → (b : Ref sig .tc) → Buf (Elt F) ((c : Thread nD τ).loc b) :=
  fun c b => U c b

def U0 (c : Dev nD) : Valuation τ sig (Elt F) := fun b => m (c, b)
def U1 (c : Dev nD) : Valuation τ sig (Elt F) :=
  Function.update (U0 m c) main_v0 ((Region0.dat (rd (U0 m)) c).arrAt 2 cfg0.N)
def U2 (c : Dev nD) : Valuation τ sig (Elt F) :=
  Function.update (Function.update (U1 m c) main_v1_0 ((Region1.dat (rd (U1 m)) c).arrAt 3 cfg1.N))
    main_v1_1 ((Region1.dat (rd (U1 m)) c).arrAt 4 cfg1.N)
def U3 (c : Dev nD) : Valuation τ sig (Elt F) :=
  Function.update (U2 m c) main_v2 ((Region2.dat (rd (U2 m)) c).arrAt 3 cfg2.N)
def U4 (c : Dev nD) : Valuation τ sig (Elt F) :=
  Function.update (U3 m c) main_v3 ((Region3.dat (rd (U3 m)) c).arrAt 3 cfg3.N)
def U5 (c : Dev nD) : Valuation τ sig (Elt F) :=
  Function.update (Function.update (U4 m c) main_v4_0 ((Region4.dat (rd (U4 m)) c).arrAt 3 cfg4.N))
    main_v4_1 ((Region4.dat (rd (U4 m)) c).arrAt 4 cfg4.N)
def U6 (c : Dev nD) : Valuation τ sig (Elt F) :=
  Function.update (U5 m c) main_v5 ((Region5.dat (rd (U5 m)) c).arrAt 3 cfg5.N)
def U7 (c : Dev nD) : Valuation τ sig (Elt F) :=
  Function.update (U6 m c) main_v6 ((Region6.dat (rd (U6 m)) c).arrAt 3 cfg6.N)
def U8 (c : Dev nD) : Valuation τ sig (Elt F) :=
  Function.update (U7 m c) main_v7 ((Region7.dat (rd (U7 m)) c).arrAt 3 cfg7.N)
def U9 (c : Dev nD) : Valuation τ sig (Elt F) :=
  Function.update (U8 m c) main_v8 ((Region8.dat (rd (U8 m)) c).arrAt 2 cfg8.N)
def U10 (c : Dev nD) : Valuation τ sig (Elt F) := StableHlo.after hostOps9 (U9 m c)
def U11 (c : Dev nD) : Valuation τ sig (Elt F) :=
  Function.update (U10 m c) main_v10 ((Region9.dat (rd (U10 m)) c).arrAt 4 cfg9.N)

/-- Every pipeline's proof data, each at its region's entry contents. -/
def pdats : (p : Fin 10) → (c : Dev nD) → Dat τ (Elt F) Unit ℕ (Pipeline.UD sig nD τ) ℕ (Pipeline.pin (pcfgs (F := F)) adm p) c
  | ⟨0, _⟩ => fun c => Region0.dat (rd (U0 m)) c
  | ⟨1, _⟩ => fun c => Region1.dat (rd (U1 m)) c
  | ⟨2, _⟩ => fun c => Region2.dat (rd (U2 m)) c
  | ⟨3, _⟩ => fun c => Region3.dat (rd (U3 m)) c
  | ⟨4, _⟩ => fun c => Region4.dat (rd (U4 m)) c
  | ⟨5, _⟩ => fun c => Region5.dat (rd (U5 m)) c
  | ⟨6, _⟩ => fun c => Region6.dat (rd (U6 m)) c
  | ⟨7, _⟩ => fun c => Region7.dat (rd (U7 m)) c
  | ⟨8, _⟩ => fun c => Region8.dat (rd (U8 m)) c
  | ⟨9, _⟩ => fun c => Region9.dat (rd (U10 m)) c

abbrev L0 : GSem nD τ sig → Finset Unit := fun _ => ∅
abbrev lv0 : GSem nD τ sig → Unit → ℕ := fun _ _ => 0

/-- A reference other than `r` keeps its contents under an update at `r`. -/
theorem upd_ne (U : Valuation τ sig (Elt F)) (r b : Ref sig .tc) (h : b ≠ r) (x) :
    Function.update U r x b = U b :=
  Function.update_of_ne (StableHlo.devRef_ne_of_ne h : (Proc.devRef .tc b : DevRef τ sig) ≠ Proc.devRef .tc r) _ _

theorem upd_self (U : Valuation τ sig (Elt F)) (r : Ref sig .tc) (x) : Function.update U r x r = x :=
  Function.update_self _ _ _

/-! ## After each region: every window's array at the next contents, every other buffer as before -/

theorem hF0 (c : Dev nD) : ∀ w : Fin 3, (Region0.dat (rd (U0 m)) c).arrAt w cfg0.N = U1 m c (Pipeline.arrRef spec0 w)
  | 0 => ((Region0.dat (rd (U0 m)) c).arrAt_in 0 rfl _).trans (by unfold U1; rw [upd_ne _ _ _ (by decide)]; rfl)
  | 1 => ((Region0.dat (rd (U0 m)) c).arrAt_in 1 rfl _).trans (by unfold U1; rw [upd_ne _ _ _ (by decide)]; rfl)
  | 2 => by unfold U1; exact (upd_self _ _ _).symm
  | ⟨_ + 3, h⟩ => absurd h (by omega)
theorem hrest0 (c : Dev nD) (b : Ref sig .tc) (hb : b ∉ Finset.univ.image (Pipeline.arrRef spec0)) : U1 m c b = U0 m c b := by
  unfold U1
  exact upd_ne _ _ _ (fun e => hb (Finset.mem_image.mpr ⟨2, Finset.mem_univ _, e.symm⟩)) _

theorem hF1 (c : Dev nD) : ∀ w : Fin 5, (Region1.dat (rd (U1 m)) c).arrAt w cfg1.N = U2 m c (Pipeline.arrRef spec1 w)
  | 0 => ((Region1.dat (rd (U1 m)) c).arrAt_in 0 rfl _).trans (by unfold U2; rw [upd_ne _ _ _ (by decide), upd_ne _ _ _ (by decide)]; rfl)
  | 1 => ((Region1.dat (rd (U1 m)) c).arrAt_in 1 rfl _).trans (by unfold U2; rw [upd_ne _ _ _ (by decide), upd_ne _ _ _ (by decide)]; rfl)
  | 2 => ((Region1.dat (rd (U1 m)) c).arrAt_in 2 rfl _).trans (by unfold U2; rw [upd_ne _ _ _ (by decide), upd_ne _ _ _ (by decide)]; rfl)
  | 3 => by unfold U2; rw [upd_ne _ _ _ (by decide)]; exact (upd_self _ _ _).symm
  | 4 => by unfold U2; exact (upd_self _ _ _).symm
  | ⟨_ + 5, h⟩ => absurd h (by omega)
theorem hrest1 (c : Dev nD) (b : Ref sig .tc) (hb : b ∉ Finset.univ.image (Pipeline.arrRef spec1)) : U2 m c b = U1 m c b := by
  unfold U2
  rw [upd_ne _ _ _ (fun e => hb (Finset.mem_image.mpr ⟨4, Finset.mem_univ _, e.symm⟩)),
    upd_ne _ _ _ (fun e => hb (Finset.mem_image.mpr ⟨3, Finset.mem_univ _, e.symm⟩))]

theorem hF2 (c : Dev nD) : ∀ w : Fin 4, (Region2.dat (rd (U2 m)) c).arrAt w cfg2.N = U3 m c (Pipeline.arrRef spec2 w)
  | 0 => ((Region2.dat (rd (U2 m)) c).arrAt_in 0 rfl _).trans (by unfold U3; rw [upd_ne _ _ _ (by decide)]; rfl)
  | 1 => ((Region2.dat (rd (U2 m)) c).arrAt_in 1 rfl _).trans (by unfold U3; rw [upd_ne _ _ _ (by decide)]; rfl)
  | 2 => ((Region2.dat (rd (U2 m)) c).arrAt_in 2 rfl _).trans (by unfold U3; rw [upd_ne _ _ _ (by decide)]; rfl)
  | 3 => by unfold U3; exact (upd_self _ _ _).symm
  | ⟨_ + 4, h⟩ => absurd h (by omega)
theorem hrest2 (c : Dev nD) (b : Ref sig .tc) (hb : b ∉ Finset.univ.image (Pipeline.arrRef spec2)) : U3 m c b = U2 m c b := by
  unfold U3
  exact upd_ne _ _ _ (fun e => hb (Finset.mem_image.mpr ⟨3, Finset.mem_univ _, e.symm⟩)) _

theorem hF3 (c : Dev nD) : ∀ w : Fin 4, (Region3.dat (rd (U3 m)) c).arrAt w cfg3.N = U4 m c (Pipeline.arrRef spec3 w)
  | 0 => ((Region3.dat (rd (U3 m)) c).arrAt_in 0 rfl _).trans (by unfold U4; rw [upd_ne _ _ _ (by decide)]; rfl)
  | 1 => ((Region3.dat (rd (U3 m)) c).arrAt_in 1 rfl _).trans (by unfold U4; rw [upd_ne _ _ _ (by decide)]; rfl)
  | 2 => ((Region3.dat (rd (U3 m)) c).arrAt_in 2 rfl _).trans (by unfold U4; rw [upd_ne _ _ _ (by decide)]; rfl)
  | 3 => by unfold U4; exact (upd_self _ _ _).symm
  | ⟨_ + 4, h⟩ => absurd h (by omega)
theorem hrest3 (c : Dev nD) (b : Ref sig .tc) (hb : b ∉ Finset.univ.image (Pipeline.arrRef spec3)) : U4 m c b = U3 m c b := by
  unfold U4
  exact upd_ne _ _ _ (fun e => hb (Finset.mem_image.mpr ⟨3, Finset.mem_univ _, e.symm⟩)) _

theorem hF4 (c : Dev nD) : ∀ w : Fin 5, (Region4.dat (rd (U4 m)) c).arrAt w cfg4.N = U5 m c (Pipeline.arrRef spec4 w)
  | 0 => ((Region4.dat (rd (U4 m)) c).arrAt_in 0 rfl _).trans (by unfold U5; rw [upd_ne _ _ _ (by decide), upd_ne _ _ _ (by decide)]; rfl)
  | 1 => ((Region4.dat (rd (U4 m)) c).arrAt_in 1 rfl _).trans (by unfold U5; rw [upd_ne _ _ _ (by decide), upd_ne _ _ _ (by decide)]; rfl)
  | 2 => ((Region4.dat (rd (U4 m)) c).arrAt_in 2 rfl _).trans (by unfold U5; rw [upd_ne _ _ _ (by decide), upd_ne _ _ _ (by decide)]; rfl)
  | 3 => by unfold U5; rw [upd_ne _ _ _ (by decide)]; exact (upd_self _ _ _).symm
  | 4 => by unfold U5; exact (upd_self _ _ _).symm
  | ⟨_ + 5, h⟩ => absurd h (by omega)
theorem hrest4 (c : Dev nD) (b : Ref sig .tc) (hb : b ∉ Finset.univ.image (Pipeline.arrRef spec4)) : U5 m c b = U4 m c b := by
  unfold U5
  rw [upd_ne _ _ _ (fun e => hb (Finset.mem_image.mpr ⟨4, Finset.mem_univ _, e.symm⟩)),
    upd_ne _ _ _ (fun e => hb (Finset.mem_image.mpr ⟨3, Finset.mem_univ _, e.symm⟩))]

theorem hF5 (c : Dev nD) : ∀ w : Fin 4, (Region5.dat (rd (U5 m)) c).arrAt w cfg5.N = U6 m c (Pipeline.arrRef spec5 w)
  | 0 => ((Region5.dat (rd (U5 m)) c).arrAt_in 0 rfl _).trans (by unfold U6; rw [upd_ne _ _ _ (by decide)]; rfl)
  | 1 => ((Region5.dat (rd (U5 m)) c).arrAt_in 1 rfl _).trans (by unfold U6; rw [upd_ne _ _ _ (by decide)]; rfl)
  | 2 => ((Region5.dat (rd (U5 m)) c).arrAt_in 2 rfl _).trans (by unfold U6; rw [upd_ne _ _ _ (by decide)]; rfl)
  | 3 => by unfold U6; exact (upd_self _ _ _).symm
  | ⟨_ + 4, h⟩ => absurd h (by omega)
theorem hrest5 (c : Dev nD) (b : Ref sig .tc) (hb : b ∉ Finset.univ.image (Pipeline.arrRef spec5)) : U6 m c b = U5 m c b := by
  unfold U6
  exact upd_ne _ _ _ (fun e => hb (Finset.mem_image.mpr ⟨3, Finset.mem_univ _, e.symm⟩)) _

theorem hF6 (c : Dev nD) : ∀ w : Fin 4, (Region6.dat (rd (U6 m)) c).arrAt w cfg6.N = U7 m c (Pipeline.arrRef spec6 w)
  | 0 => ((Region6.dat (rd (U6 m)) c).arrAt_in 0 rfl _).trans (by unfold U7; rw [upd_ne _ _ _ (by decide)]; rfl)
  | 1 => ((Region6.dat (rd (U6 m)) c).arrAt_in 1 rfl _).trans (by unfold U7; rw [upd_ne _ _ _ (by decide)]; rfl)
  | 2 => ((Region6.dat (rd (U6 m)) c).arrAt_in 2 rfl _).trans (by unfold U7; rw [upd_ne _ _ _ (by decide)]; rfl)
  | 3 => by unfold U7; exact (upd_self _ _ _).symm
  | ⟨_ + 4, h⟩ => absurd h (by omega)
theorem hrest6 (c : Dev nD) (b : Ref sig .tc) (hb : b ∉ Finset.univ.image (Pipeline.arrRef spec6)) : U7 m c b = U6 m c b := by
  unfold U7
  exact upd_ne _ _ _ (fun e => hb (Finset.mem_image.mpr ⟨3, Finset.mem_univ _, e.symm⟩)) _

theorem hF7 (c : Dev nD) : ∀ w : Fin 4, (Region7.dat (rd (U7 m)) c).arrAt w cfg7.N = U8 m c (Pipeline.arrRef spec7 w)
  | 0 => ((Region7.dat (rd (U7 m)) c).arrAt_in 0 rfl _).trans (by unfold U8; rw [upd_ne _ _ _ (by decide)]; rfl)
  | 1 => ((Region7.dat (rd (U7 m)) c).arrAt_in 1 rfl _).trans (by unfold U8; rw [upd_ne _ _ _ (by decide)]; rfl)
  | 2 => ((Region7.dat (rd (U7 m)) c).arrAt_in 2 rfl _).trans (by unfold U8; rw [upd_ne _ _ _ (by decide)]; rfl)
  | 3 => by unfold U8; exact (upd_self _ _ _).symm
  | ⟨_ + 4, h⟩ => absurd h (by omega)
theorem hrest7 (c : Dev nD) (b : Ref sig .tc) (hb : b ∉ Finset.univ.image (Pipeline.arrRef spec7)) : U8 m c b = U7 m c b := by
  unfold U8
  exact upd_ne _ _ _ (fun e => hb (Finset.mem_image.mpr ⟨3, Finset.mem_univ _, e.symm⟩)) _

theorem hF8 (c : Dev nD) : ∀ w : Fin 3, (Region8.dat (rd (U8 m)) c).arrAt w cfg8.N = U9 m c (Pipeline.arrRef spec8 w)
  | 0 => ((Region8.dat (rd (U8 m)) c).arrAt_in 0 rfl _).trans (by unfold U9; rw [upd_ne _ _ _ (by decide)]; rfl)
  | 1 => ((Region8.dat (rd (U8 m)) c).arrAt_in 1 rfl _).trans (by unfold U9; rw [upd_ne _ _ _ (by decide)]; rfl)
  | 2 => by unfold U9; exact (upd_self _ _ _).symm
  | ⟨_ + 3, h⟩ => absurd h (by omega)
theorem hrest8 (c : Dev nD) (b : Ref sig .tc) (hb : b ∉ Finset.univ.image (Pipeline.arrRef spec8)) : U9 m c b = U8 m c b := by
  unfold U9
  exact upd_ne _ _ _ (fun e => hb (Finset.mem_image.mpr ⟨2, Finset.mem_univ _, e.symm⟩)) _

theorem hrest9 (c : Dev nD) (b : Ref sig .tc) (hb : b ∉ Finset.univ.image (Pipeline.arrRef spec9)) : U11 m c b = U10 m c b := by
  unfold U11
  exact upd_ne _ _ _ (fun e => hb (Finset.mem_image.mpr ⟨4, Finset.mem_univ _, e.symm⟩)) _

/-! ## The last region: two arrays each read through two windows -/

theorem image9 : Finset.univ.image (Pipeline.arrRef spec9) = ({main_v4_0, main_v9, main_v10} : Finset (Ref sig .tc)) := by decide

/-- The buffers behind region 9's windows: the embedding, the re-formatted reconstruction, the result. -/
theorem arrBufs9 (c : Dev nD) (V : (b : Ref sig .tc) → Buf (Elt F) ((c : Thread nD τ).loc b)) :
    (Pipeline.arrBufs spec9 c V : sProp 𝕄)
      = iprop((((c : Thread nD τ).loc main_v4_0) ↦{fullShare} V main_v4_0) ∗ (((c : Thread nD τ).loc main_v9) ↦{fullShare} V main_v9)
          ∗ (((c : Thread nD τ).loc main_v10) ↦{fullShare} V main_v10)) := by
  unfold Pipeline.arrBufs
  rw [image9, bigSep_insert (by decide), bigSep_insert (by decide), bigSep_singleton]
  rfl

/-- What region 9's five windows hold of them: each shared array half by each of its two windows, the result whole. -/
theorem arrays9 (c : Dev nD) (Fx : (w : Fin cfg9.W) → Buf (Elt F) ((cfg9.win w).arr.view.loc (c.tc : Thread nD τ))) :
    (Region9.dat (rd (U10 m)) c).arrays Fx
      = iprop((((c : Thread nD τ).loc main_v4_0) ↦{fullShare.left} Fx 0) ∗ (((c : Thread nD τ).loc main_v9) ↦{fullShare.left} Fx 1)
          ∗ (((c : Thread nD τ).loc main_v4_0) ↦{fullShare.right} Fx 2) ∗ (((c : Thread nD τ).loc main_v9) ↦{fullShare.right} Fx 3)
          ∗ (((c : Thread nD τ).loc main_v10) ↦{fullShare} Fx 4)) := by
  unfold Dat.arrays
  rw [bigSep_W9, (arr_whole9 0).set_eq_univ, (arr_whole9 1).set_eq_univ, (arr_whole9 4).set_eq_univ]
  rfl

/-- Entry: each shared array's full share dealt into the two halves. -/
theorem split9 (c : Dev nD) :
    (Pipeline.arrBufs spec9 c (fun b => U10 m c b) : sProp 𝕄)
      ⊢ (Region9.dat (rd (U10 m)) c).arrays ((Region9.dat (rd (U10 m)) c).arrAt · 0) := by
  rw [arrBufs9, arrays9]
  iintro ⟨Hg, Hh, Ho⟩
  ihave Hg2 := (pointsTo_share (PosShare.mem_left_op_right fullShare)).1 $$ Hg
  ihave Hh2 := (pointsTo_share (PosShare.mem_left_op_right fullShare)).1 $$ Hh
  icases Hg2 with ⟨Hgl, Hgr⟩
  icases Hh2 with ⟨Hhl, Hhr⟩
  isplitl [Hgl]; · iexact Hgl
  isplitl [Hhl]; · iexact Hhl
  isplitl [Hgr]; · iexact Hgr
  isplitl [Hhr]; · iexact Hhr
  iexact Ho

/-- Exit: the halves, still at the entry contents (an input array is never written), gathered again; the result at its
    last write-backs. -/
theorem join9 (c : Dev nD) :
    (Region9.dat (rd (U10 m)) c).arrays ((Region9.dat (rd (U10 m)) c).arrAt · cfg9.N)
      ⊢ (Pipeline.arrBufs spec9 c (fun b => U11 m c b) : sProp 𝕄) := by
  rw [arrBufs9, arrays9]
  rw [(Region9.dat (rd (U10 m)) c).arrAt_in 0 rfl cfg9.N, (Region9.dat (rd (U10 m)) c).arrAt_in 1 rfl cfg9.N,
    (Region9.dat (rd (U10 m)) c).arrAt_in 2 rfl cfg9.N, (Region9.dat (rd (U10 m)) c).arrAt_in 3 rfl cfg9.N]
  have eg : U11 m c main_v4_0 = U10 m c main_v4_0 := by unfold U11; exact upd_ne _ _ _ (by decide) _
  have eh : U11 m c main_v9 = U10 m c main_v9 := by unfold U11; exact upd_ne _ _ _ (by decide) _
  have eo : U11 m c main_v10 = (Region9.dat (rd (U10 m)) c).arrAt 4 cfg9.N := by unfold U11; exact upd_self _ _ _
  rw [eg, eh, eo]
  iintro ⟨Hgl, Hhl, Hgr, Hhr, Ho⟩
  isplitl [Hgl Hgr]
  · iapply (pointsTo_share (PosShare.mem_left_op_right fullShare)).2
    isplitl [Hgl]; · iexact Hgl
    iexact Hgr
  isplitl [Hhl Hhr]
  · iapply (pointsTo_share (PosShare.mem_left_op_right fullShare)).2
    isplitl [Hhl]; · iexact Hhl
    iexact Hhr
  iexact Ho

/-! ## The items as segments -/

/-- No pipeline of this program has a prefetched table. -/
abbrev noTable : IsEmpty (Fin 0) := inferInstance

set_option backward.isDefEq.respectTransparency.types false in
def reg0 : RegionSeg (pcfgs (F := F)) adm (pdats m) () defs₀ Variants.none L0 lv0 0 :=
  LibRegionRecord.classA (pcfgs (F := F)) adm (pdats m) defs₀ Variants.none L0 lv0 0 winFacts0 block_pos0 arr_whole0 stage_whole0
    noTable (fun _ _ => rfl) (fun _ _ => rfl) (fun _ _ => rfl) (fun _ _ => rfl)
    (fun c => Region0.body_obligation (rd (U0 m)) c) (U0 m) (U1 m) (fun _ _ => rfl) (hF0 m) (hrest0 m)
set_option backward.isDefEq.respectTransparency.types false in
def reg1 : RegionSeg (pcfgs (F := F)) adm (pdats m) () defs₀ Variants.none L0 lv0 1 :=
  LibRegionRecord.classA (pcfgs (F := F)) adm (pdats m) defs₀ Variants.none L0 lv0 1 winFacts1 block_pos1 arr_whole1 stage_whole1
    noTable (fun _ _ => rfl) (fun _ _ => rfl) (fun _ _ => rfl) (fun _ _ => rfl)
    (fun c => Region1.body_obligation (rd (U1 m)) c) (U1 m) (U2 m) (fun _ _ => rfl) (hF1 m) (hrest1 m)
set_option backward.isDefEq.respectTransparency.types false in
def reg2 : RegionSeg (pcfgs (F := F)) adm (pdats m) () defs₀ Variants.none L0 lv0 2 :=
  LibRegionRecord.classA (pcfgs (F := F)) adm (pdats m) defs₀ Variants.none L0 lv0 2 winFacts2 block_pos2 arr_whole2 stage_whole2
    noTable (fun _ _ => rfl) (fun _ _ => rfl) (fun _ _ => rfl) (fun _ _ => rfl)
    (fun c => Region2.body_obligation (rd (U2 m)) c) (U2 m) (U3 m) (fun _ _ => rfl) (hF2 m) (hrest2 m)
set_option backward.isDefEq.respectTransparency.types false in
def reg3 : RegionSeg (pcfgs (F := F)) adm (pdats m) () defs₀ Variants.none L0 lv0 3 :=
  LibRegionRecord.classA (pcfgs (F := F)) adm (pdats m) defs₀ Variants.none L0 lv0 3 winFacts3 block_pos3 arr_whole3 stage_whole3
    noTable (fun _ _ => rfl) (fun _ _ => rfl) (fun _ _ => rfl) (fun _ _ => rfl)
    (fun c => Region3.body_obligation (rd (U3 m)) c) (U3 m) (U4 m) (fun _ _ => rfl) (hF3 m) (hrest3 m)
set_option backward.isDefEq.respectTransparency.types false in
def reg4 : RegionSeg (pcfgs (F := F)) adm (pdats m) () defs₀ Variants.none L0 lv0 4 :=
  LibRegionRecord.classA (pcfgs (F := F)) adm (pdats m) defs₀ Variants.none L0 lv0 4 winFacts4 block_pos4 arr_whole4 stage_whole4
    noTable (fun _ _ => rfl) (fun _ _ => rfl) (fun _ _ => rfl) (fun _ _ => rfl)
    (fun c => Region4.body_obligation (rd (U4 m)) c) (U4 m) (U5 m) (fun _ _ => rfl) (hF4 m) (hrest4 m)
set_option backward.isDefEq.respectTransparency.types false in
def reg5 : RegionSeg (pcfgs (F := F)) adm (pdats m) () defs₀ Variants.none L0 lv0 5 :=
  LibRegionRecord.classA (pcfgs (F := F)) adm (pdats m) defs₀ Variants.none L0 lv0 5 winFacts5 block_pos5 arr_whole5 stage_whole5
    noTable (fun _ _ => rfl) (fun _ _ => rfl) (fun _ _ => rfl) (fun _ _ => rfl)
    (fun c => Region5.body_obligation (rd (U5 m)) c) (U5 m) (U6 m) (fun _ _ => rfl) (hF5 m) (hrest5 m)
set_option backward.isDefEq.respectTransparency.types false in
def reg6 : RegionSeg (pcfgs (F := F)) adm (pdats m) () defs₀ Variants.none L0 lv0 6 :=
  LibRegionRecord.classA (pcfgs (F := F)) adm (pdats m) defs₀ Variants.none L0 lv0 6 winFacts6 block_pos6 arr_whole6 stage_whole6
    noTable (fun _ _ => rfl) (fun _ _ => rfl) (fun _ _ => rfl) (fun _ _ => rfl)
    (fun c => Region6.body_obligation (rd (U6 m)) c) (U6 m) (U7 m) (fun _ _ => rfl) (hF6 m) (hrest6 m)
set_option backward.isDefEq.respectTransparency.types false in
def reg7 : RegionSeg (pcfgs (F := F)) adm (pdats m) () defs₀ Variants.none L0 lv0 7 :=
  LibRegionRecord.classA (pcfgs (F := F)) adm (pdats m) defs₀ Variants.none L0 lv0 7 winFacts7 block_pos7 arr_whole7 stage_whole7
    noTable (fun _ _ => rfl) (fun _ _ => rfl) (fun _ _ => rfl) (fun _ _ => rfl)
    (fun c => Region7.body_obligation (rd (U7 m)) c) (U7 m) (U8 m) (fun _ _ => rfl) (hF7 m) (hrest7 m)
set_option backward.isDefEq.respectTransparency.types false in
def reg8 : RegionSeg (pcfgs (F := F)) adm (pdats m) () defs₀ Variants.none L0 lv0 8 :=
  LibRegionRecord.classA (pcfgs (F := F)) adm (pdats m) defs₀ Variants.none L0 lv0 8 winFacts8 block_pos8 arr_whole8 stage_whole8
    noTable (fun _ _ => rfl) (fun _ _ => rfl) (fun _ _ => rfl) (fun _ _ => rfl)
    (fun c => Region8.body_obligation (rd (U8 m)) c) (U8 m) (U9 m) (fun _ _ => rfl) (hF8 m) (hrest8 m)
set_option backward.isDefEq.respectTransparency.types false in
def reg9 : RegionSeg (pcfgs (F := F)) adm (pdats m) () defs₀ Variants.none L0 lv0 9 :=
  LibRegionRecord.classShared (pcfgs (F := F)) adm (pdats m) defs₀ Variants.none L0 lv0 9 winFacts₀9 block_pos9 stage_whole9
    noTable (fun _ _ => rfl) (fun _ _ => rfl) (fun _ _ => rfl)
    (fun c => Region9.body_obligation (rd (U10 m)) c) (U10 m) (U11 m) (split9 m) (join9 m) (hrest9 m)

/-- The host stretch between regions 8 and 9 (the conversion of the reconstruction), over the unscoped buffers from `U9`. -/
def host9 : HostSeg (Ix := Unit) (Name := ℕ) (U := Pipeline.UD sig nD τ) (Lvl := ℕ) (pcfgs (F := F)) defs₀ Variants.none L0 lv0 :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (U9 m) LibRegionRecord.Rest

/-- @main's eleven items in order. -/
abbrev segs : List (Seg (pcfgs (F := F)) adm (pdats m) () defs₀ Variants.none L0 lv0) :=
  [.region (reg0 m), .region (reg1 m), .region (reg2 m), .region (reg3 m), .region (reg4 m), .region (reg5 m),
    .region (reg6 m), .region (reg7 m), .region (reg8 m), .host (host9 m), .region (reg9 m)]

theorem main_run (c : Dev nD) : main (F := F) c = Seg.run (segs m) := (main_chain c).trans (by chain_rfl)

/-! ## The run -/

set_option backward.isDefEq.respectTransparency.types false in
/-- Every weakly fair execution of @main from memory `m` with zero counters terminates, nothing faulting, and every
    unscoped buffer of every core ends at `U11`. -/
theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U11 m c b) :=
  Pipeline.θ_run_regions_kit_dev (pcfgs (F := F)) adm (pdats m) () cellOf_inj embL defs₀ Variants.none L0 lv0 m ρ main
    (fun _ => segs m)
    (fun c Q => by rw [main_run m c])
    (fun c => by simp only [segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ LibRegionRecord.Rest c))
    (Tₙ := fun c => iprop(StableHlo.held (c : Thread nD τ) (Pipeline.ucRefs τ sig) (U11 m c) ∗ ∃ r, prngReg c r))
    (hch := fun c => ⟨.rfl, .rfl, .rfl, .rfl, .rfl, .rfl, .rfl, .rfl, .rfl, .rfl, .rfl,
      (show iprop(StableHlo.held (c : Thread nD τ) (Pipeline.ucRefs τ sig) (U11 m c) ∗ LibRegionRecord.Rest c)
          ⊢ (iprop((StableHlo.held (c : Thread nD τ) (Pipeline.ucRefs τ sig) (U11 m c) ∗ ∃ r, prngReg c r)
            ∗ ∃ W, owes (c : Thread nD τ) (0 : CellTallies nD τ sig Unit) W) : sProp 𝕄) from by
        iintro ⟨Hh, Hp, Ho⟩
        isplitr [Ho]
        · isplitl [Hh]; · iexact Hh
          iexact Hp
        iexact Ho)⟩)
    (hinit := by
      refine Pipeline.initEach L0 lv0 fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = U11 m c b)
    (hfin := fun c s' => by
      iintro ⟨⟨Hh, -⟩, HSI⟩
      unfold StableHlo.held
      imodintro
      iapply (pointsTo_read_all (Pipeline.ucRefs τ sig) (fun b => ((c : Thread nD τ).1, b)) (U11 m c) s')
      isplitl [Hh] <;> iassumption)
    (hQ := fun s h c => h c)

end Cert.Kernel.Run

end
-- ==== Proof.Kernel.Frame.lean ====
/-
  The frame claim of the kernel program, read off its run: the program terminates without a fault and every
  argument array ends as launched. No region writes an argument (each region changes only its output windows' arrays,
  which are intermediate arrays or results), and the one host stretch writes only the converted reconstruction, so the
  final contents of an argument's buffer walk back, item by item, to the launch memory.
-/
import proofs.«155458_g54082228191885_cont_9to1c4b_454_29_alg».proof.Proof.Kernel.Run

set_option maxRecDepth 16384

noncomputable section

namespace Cert.Kernel.Run

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The arrays some item writes. -/
abbrev written : List (Ref sig .tc) :=
  [main_v0, main_v1_0, main_v1_1, main_v2, main_v3, main_v4_0, main_v4_1, main_v5, main_v6, main_v7, main_v8, main_v9, main_v10]

/-- A buffer no item writes ends as launched. -/
theorem U11_unwritten (c : Dev nD) (r : Ref sig .tc) (h : ∀ x ∈ written, r ≠ x) : U11 m c r = m ((c : Thread nD τ).loc r) := by
  have h9 : r ∉ hostOps9_W := fun hm => h main_v9 (by simp [written]) (List.mem_singleton.mp hm)
  unfold U11; rw [upd_ne _ _ _ (h _ (by simp [written]))]
  unfold U10; rw [StableHlo.after_of_writes_sub hostOps9 _ hostOps9_writes h9]
  unfold U9; rw [upd_ne _ _ _ (h _ (by simp [written]))]
  unfold U8; rw [upd_ne _ _ _ (h _ (by simp [written]))]
  unfold U7; rw [upd_ne _ _ _ (h _ (by simp [written]))]
  unfold U6; rw [upd_ne _ _ _ (h _ (by simp [written]))]
  unfold U5; rw [upd_ne _ _ _ (h _ (by simp [written])), upd_ne _ _ _ (h _ (by simp [written]))]
  unfold U4; rw [upd_ne _ _ _ (h _ (by simp [written]))]
  unfold U3; rw [upd_ne _ _ _ (h _ (by simp [written]))]
  unfold U2; rw [upd_ne _ _ _ (h _ (by simp [written])), upd_ne _ _ _ (h _ (by simp [written]))]
  unfold U1; rw [upd_ne _ _ _ (h _ (by simp [written]))]
  rfl

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (U11_unwritten m c main_arg0 (by decide)),
     (h c _ (mem_uc main_arg1 (by decide))).trans (U11_unwritten m c main_arg1 (by decide)),
     (h c _ (mem_uc main_arg2 (by decide))).trans (U11_unwritten m c main_arg2 (by decide)),
     (h c _ (mem_uc main_arg3 (by decide))).trans (U11_unwritten m c main_arg3 (by decide)),
     (h c _ (mem_uc main_arg4 (by decide))).trans (U11_unwritten m c main_arg4 (by decide)),
     (h c _ (mem_uc main_arg5 (by decide))).trans (U11_unwritten m c main_arg5 (by decide)),
     (h c _ (mem_uc main_arg6 (by decide))).trans (U11_unwritten m c main_arg6 (by decide)),
     (h c _ (mem_uc main_arg7 (by decide))).trans (U11_unwritten m c main_arg7 (by decide)),
     (h c _ (mem_uc main_arg8 (by decide))).trans (U11_unwritten m c main_arg8 (by decide)),
     (h c _ (mem_uc main_arg9 (by decide))).trans (U11_unwritten m c main_arg9 (by decide))⟩) (run m ρ)

end Cert.Kernel.Run

end
-- ==== Proof.KernelIdeal.Region0.lean ====
/-
  Region 0 of the kernel program: one 1000-row block of the product  x · W₁  per grid point.

  The grid has 10 points; at point t the pipeline fetches rows 1000·t … 1000·t + 999 of x (window 0) and, once, the
  whole 256 × 256 weight matrix (window 1); the body multiplies the two blocks into a zero accumulator and stores the
  product, re-formatted, as the whole of the output window's buffer (window 2), which is written back as rows
  1000·t … of the result. Stated here, at any float instance: what the body leaves in the output buffer as a function
  of the two input blocks (`out`), the body's run on any whole staging buffers (`sound_kernel`), the pipeline's proof
  data at the contents `V` the region is entered with (`dat`: inputs left in place, the output buffer at `out` of the
  blocks, nothing else touched), and the body obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of a 1000 × 256 buffer and of a 256 × 256 buffer, as the body's loads and its store address them. -/
abbrev rX : Rect S1000x256 := Rect.unit (s := S1000x256) ![0, 0] S1000x256.size inb_S1000x256_S1000x256_0_0
abbrev rW : Rect S256x256 := Rect.unit (s := S256x256) ![0, 0] S256x256.size inb_S256x256_S256x256_0_0

/-- What the body leaves in the output window's buffer: the product of the row block with the weights. -/
def out (x : Vec F S1000x256 .f32) (w : Vec F S256x256 .f32) : Vec F S1000x256 .bf16 :=
  View.canon [⟨rX, k0_pay1 (View.ld x rX) (View.ld w rW)⟩]

theorem cover (p : Vec F S1000x256 .bf16) (y : S1000x256.Idx) :
    ∃ pc ∈ ([⟨rX, p⟩] : List (View.Piece (Elt F) S1000x256 .bf16)), y ∈ pc.1.set :=
  View.cover_of_tiled [⟨rX, p⟩] S1000x256.size (by rfl) y

set_option maxHeartbeats 1000000 in
theorem sound_kernel (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1000x256 .bf16) (harg3 : arg3.IsWhole)
    (x : Vec F S1000x256 .f32) (w : Vec F S256x256 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (out x w)) -∗ K ⟨⟩))
      ⊢ wp frame (wpE (defs₀ (F := F)) Variants.none c none) E (cc0__mm_body i arg1 harg1 arg2 harg2 arg3 harg3) K := by
  simp only [cc0__mm_body_eq_skeleton]; unfold cc0__mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The arrays as the region finds them; after the body at point `t` each input's buffer still at its block and the
    output's at the product of the two blocks; the invariant the plain one; full shares; nothing owed. -/
def dat (c : Dev nD) : Dat τ (Elt F) Unit ℕ (Pipeline.UD sig nD τ) ℕ cfg0 c where
  A w := V c (Pipeline.arrRef spec0 w)
  after w t := match w with
    | ⟨0, _⟩ => blk V c 0 t
    | ⟨1, _⟩ => blk V c 1 t
    | ⟨2, _⟩ => out (blk V c 0 t) (blk V c 1 t)
  Φ _ := Pipeline.ΦA spec0 c
  q _ := fullShare
  owed _ := 0

theorem dat_A (c : Dev nD) (w : Fin cfg0.W) : (dat V c).A w = V c (Pipeline.arrRef spec0 w) := by dsimp only [dat]
theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_out (c : Dev nD) (t : Fin cfg0.N) : (dat V c).after 2 t = out (blk V c 0 t) (blk V c 1 t) := by dsimp only [dat]

/-- An input window's current buffer holds its block at every point, fetched there or not: the body leaves it in place. -/
theorem before_x (c : Dev nD) (t : Fin cfg0.N) (d) : (dat V c).before 0 t d = blk V c 0 t :=
  ((dat V c).before_in_eq_fetched 0 rfl (fun _ => rfl) (fun _ _ _ => rfl)
    (fun t => by rw [after_x]; unfold Dat.blockOf blk; rw [dat_A]; try rfl) t d).trans
    (by unfold Dat.fetched Dat.blockOf blk; rw [dat_A]; try rfl)
theorem before_w (c : Dev nD) (t : Fin cfg0.N) (d) : (dat V c).before 1 t d = blk V c 1 t :=
  ((dat V c).before_in_eq_fetched 1 rfl (fun _ => rfl) (fun _ _ _ => rfl)
    (fun t => by rw [after_w]; unfold Dat.blockOf blk; rw [dat_A]; try rfl) t d).trans
    (by unfold Dat.fetched Dat.blockOf blk; rw [dat_A]; try rfl)

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_x, before_w]
  rw [show (dat V c).Φ t.succ = (dat V c).Φ t.castSucc from rfl,
    show (dat V c).owesAt () t.succ = (dat V c).owesAt () t.castSucc from rfl, after_x, after_w, after_out]
  iintro ⟨HΦ, Ho, ⟨%d0, H0⟩, ⟨%d1, H1⟩, ⟨%d2, H2⟩⟩
  iapply (sound_kernel c Set.univ (grid0.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Region0

end
-- ==== Proof.KernelIdeal.Region1.lean ====
/-
  Region 1 of the kernel program: the first aggregation pass, 400 rows of the adjacency matrix per grid point.

  The grid has 25 points; at point t the pipeline fetches rows 400·t … 400·t + 399 of the adjacency matrix (window 0, f32)
  and, once each, the whole support matrix x·W₁ (window 1) and the whole 256 × 128 weights (window 2). The body stores the
  adjacency block, re-formatted, as the whole of window 3's buffer (the copy later passes read), and stores
  max(A_blk · support, 0) · W₂, re-formatted, as the whole of window 4's buffer. Stated at any float instance: what the
  body leaves in each output buffer as a function of the input blocks, the body's run on any whole staging buffers, the
  proof data at the region-entry contents, and the body obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and stores address it. -/
abbrev rA : Rect S400x10000 := Rect.unit (s := S400x10000) ![0, 0] S400x10000.size inb_S400x10000_S400x10000_0_0
abbrev rS : Rect S10000x256 := Rect.unit (s := S10000x256) ![0, 0] S10000x256.size inb_S10000x256_S10000x256_0_0
abbrev rW : Rect S256x128 := Rect.unit (s := S256x128) ![0, 0] S256x128.size inb_S256x128_S256x128_0_0
abbrev rO : Rect S400x128 := Rect.unit (s := S400x128) ![0, 0] S400x128.size inb_S400x128_S400x128_0_0

/-- The adjacency block's re-formatted copy. -/
def outCopy (a : Vec F S400x10000 .f32) : Vec F S400x10000 .bf16 :=
  View.canon [⟨rA, k1_pay1 (View.ld a rA)⟩]

/-- The next layer's support block: max(A_blk · support, 0) · W. -/
def outSup (a : Vec F S400x10000 .f32) (s : Vec F S10000x256 .bf16) (w : Vec F S256x128 .f32) : Vec F S400x128 .bf16 :=
  View.canon [⟨rO, k1_pay2 (View.ld a rA) (View.ld s rS) (View.ld w rW)⟩]

theorem coverCopy (p : Vec F S400x10000 .bf16) (y : S400x10000.Idx) :
    ∃ pc ∈ ([⟨rA, p⟩] : List (View.Piece (Elt F) S400x10000 .bf16)), y ∈ pc.1.set :=
  View.cover_of_tiled [⟨rA, p⟩] S400x10000.size (by rfl) y

theorem coverSup (p : Vec F S400x128 .bf16) (y : S400x128.Idx) :
    ∃ pc ∈ ([⟨rO, p⟩] : List (View.Piece (Elt F) S400x128 .bf16)), y ∈ pc.1.set :=
  View.cover_of_tiled [⟨rO, p⟩] S400x128.size (by rfl) y

set_option maxHeartbeats 2000000 in
theorem sound_kernel (c : Dev nD) (E : Set ℕ) (i : grid1.Coords)
    (arg1 : Memref sig .tc .vmem S400x10000 .f32) (harg1 : arg1.IsWhole)
    (arg2 : Memref sig .tc .vmem S10000x256 .bf16) (harg2 : arg2.IsWhole)
    (arg3 : Memref sig .tc .vmem S256x128 .f32) (harg3 : arg3.IsWhole)
    (arg4 : Memref sig .tc .vmem S400x10000 .bf16) (harg4 : arg4.IsWhole)
    (arg5 : Memref sig .tc .vmem S400x128 .bf16) (harg5 : arg5.IsWhole)
    (a : Vec F S400x10000 .f32) (s : Vec F S10000x256 .bf16) (w : Vec F S256x128 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare a ∗ owns (c : Thread nD τ) arg2 fullShare s ∗ owns (c : Thread nD τ) arg3 fullShare w
            ∗ owns (c : Thread nD τ) arg4 fullShare (outCopy a) ∗ owns (c : Thread nD τ) arg5 fullShare (outSup a s w)) -∗ K ⟨⟩))
      ⊢ wp frame (wpE (defs₀ (F := F)) Variants.none c none) E (cc1__agg_body_first i arg1 harg1 arg2 harg2 arg3 harg3 arg4 harg4 arg5 harg5) K := by
  simp only [cc1__agg_body_first_eq_skeleton]; unfold cc1__agg_body_first_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverCopy _)
  iexists _; isplitr
  swap; · iexact H4
  ipureintro
  exact View.read_writes_eq_canon _ _ _ (coverSup _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat (c : Dev nD) : Dat τ (Elt F) Unit ℕ (Pipeline.UD sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => outCopy (blk V c 0 t)
    | ⟨4, _⟩ => outSup (blk V c 0 t) (blk V c 1 t) (blk V c 2 t)
  Φ _ := Pipeline.ΦA spec1 c
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = outCopy (blk V c 0 t) := by dsimp only [dat]
theorem after_4 (c : Dev nD) (t : Fin cfg1.N) : (dat V c).after 4 t = outSup (blk V c 0 t) (blk V c 1 t) (blk V c 2 t) := by dsimp only [dat]

/-- An input window's current buffer holds its block at every point, fetched there or not: the body leaves it in place. -/
theorem before_0 (c : Dev nD) (t : Fin cfg1.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg1.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.KernelIdeal.Region1

end
-- ==== Proof.KernelIdeal.Region2.lean ====
/-
  Region 2 of the kernel program: an aggregation pass, 1000 rows of the adjacency copy per grid point.

  The grid has 10 points; at point t the pipeline fetches rows 1000·t … 1000·t + 999 of the adjacency copy (window 0) and,
  once each, the whole 10000 × 128 support matrix (window 1) and the whole 128 × 64 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x128 := Rect.unit (s := S10000x128) ![0, 0] S10000x128.size inb_S10000x128_S10000x128_0_0
abbrev rW : Rect S128x64 := Rect.unit (s := S128x64) ![0, 0] S128x64.size inb_S128x64_S128x64_0_0
abbrev rO : Rect S1000x64 := Rect.unit (s := S1000x64) ![0, 0] S1000x64.size inb_S1000x64_S1000x64_0_0

/-- The next layer's support block: max(A_blk · support, 0) · W. -/
def out (a : Vec F S1000x10000 .bf16) (s : Vec F S10000x128 .bf16) (w : Vec F S128x64 .f32) : Vec F S1000x64 .bf16 :=
  View.canon [⟨rO, k2_pay1 (View.ld a rA) (View.ld s rS) (View.ld w rW)⟩]

theorem cover (p : Vec F S1000x64 .bf16) (y : S1000x64.Idx) :
    ∃ pc ∈ ([⟨rO, p⟩] : List (View.Piece (Elt F) S1000x64 .bf16)), y ∈ pc.1.set :=
  View.cover_of_tiled [⟨rO, p⟩] S1000x64.size (by rfl) y

set_option maxHeartbeats 2000000 in
theorem sound_kernel (c : Dev nD) (E : Set ℕ) (i : grid2.Coords)
    (arg1 : Memref sig .tc .vmem S1000x10000 .bf16) (harg1 : arg1.IsWhole)
    (arg2 : Memref sig .tc .vmem S10000x128 .bf16) (harg2 : arg2.IsWhole)
    (arg3 : Memref sig .tc .vmem S128x64 .f32) (harg3 : arg3.IsWhole)
    (arg4 : Memref sig .tc .vmem S1000x64 .bf16) (harg4 : arg4.IsWhole)
    (a : Vec F S1000x10000 .bf16) (s : Vec F S10000x128 .bf16) (w : Vec F S128x64 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc2__agg_body_sup i arg1 harg1 arg2 harg2 arg3 harg3 arg4 harg4) K := by
  simp only [cc2__agg_body_sup_eq_skeleton]; unfold cc2__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat (c : Dev nD) : Dat τ (Elt F) Unit ℕ (Pipeline.UD sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec2 c
  q _ := fullShare
  owed _ := 0

theorem dat_A (c : Dev nD) (w : Fin cfg2.W) : (dat V c).A w = V c (Pipeline.arrRef spec2 w) := by dsimp only [dat]
theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = out (blk V c 0 t) (blk V c 1 t) (blk V c 2 t) := by dsimp only [dat]

/-- An input window's current buffer holds its block at every point, fetched there or not: the body leaves it in place. -/
theorem before_0 (c : Dev nD) (t : Fin cfg2.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg2.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg2.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W2, bigSep_W2]
  exact sound_body V c t

end Cert.KernelIdeal.Region2

end
-- ==== Proof.KernelIdeal.Region3.lean ====
/-
  Region 3 of the kernel program: an aggregation pass, 1000 rows of the adjacency copy per grid point.

  The grid has 10 points; at point t the pipeline fetches rows 1000·t … 1000·t + 999 of the adjacency copy (window 0) and,
  once each, the whole 10000 × 64 support matrix (window 1) and the whole 64 × 32 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x64 := Rect.unit (s := S10000x64) ![0, 0] S10000x64.size inb_S10000x64_S10000x64_0_0
abbrev rW : Rect S64x32 := Rect.unit (s := S64x32) ![0, 0] S64x32.size inb_S64x32_S64x32_0_0
abbrev rO : Rect S1000x32 := Rect.unit (s := S1000x32) ![0, 0] S1000x32.size inb_S1000x32_S1000x32_0_0

/-- The next layer's support block: max(A_blk · support, 0) · W. -/
def out (a : Vec F S1000x10000 .bf16) (s : Vec F S10000x64 .bf16) (w : Vec F S64x32 .f32) : Vec F S1000x32 .bf16 :=
  View.canon [⟨rO, k3_pay1 (View.ld a rA) (View.ld s rS) (View.ld w rW)⟩]

theorem cover (p : Vec F S1000x32 .bf16) (y : S1000x32.Idx) :
    ∃ pc ∈ ([⟨rO, p⟩] : List (View.Piece (Elt F) S1000x32 .bf16)), y ∈ pc.1.set :=
  View.cover_of_tiled [⟨rO, p⟩] S1000x32.size (by rfl) y

set_option maxHeartbeats 2000000 in
theorem sound_kernel (c : Dev nD) (E : Set ℕ) (i : grid3.Coords)
    (arg1 : Memref sig .tc .vmem S1000x10000 .bf16) (harg1 : arg1.IsWhole)
    (arg2 : Memref sig .tc .vmem S10000x64 .bf16) (harg2 : arg2.IsWhole)
    (arg3 : Memref sig .tc .vmem S64x32 .f32) (harg3 : arg3.IsWhole)
    (arg4 : Memref sig .tc .vmem S1000x32 .bf16) (harg4 : arg4.IsWhole)
    (a : Vec F S1000x10000 .bf16) (s : Vec F S10000x64 .bf16) (w : Vec F S64x32 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc3__agg_body_sup i arg1 harg1 arg2 harg2 arg3 harg3 arg4 harg4) K := by
  simp only [cc3__agg_body_sup_eq_skeleton]; unfold cc3__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat (c : Dev nD) : Dat τ (Elt F) Unit ℕ (Pipeline.UD sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec3 c
  q _ := fullShare
  owed _ := 0

theorem dat_A (c : Dev nD) (w : Fin cfg3.W) : (dat V c).A w = V c (Pipeline.arrRef spec3 w) := by dsimp only [dat]
theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = out (blk V c 0 t) (blk V c 1 t) (blk V c 2 t) := by dsimp only [dat]

/-- An input window's current buffer holds its block at every point, fetched there or not: the body leaves it in place. -/
theorem before_0 (c : Dev nD) (t : Fin cfg3.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg3.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg3.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid3.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W3, bigSep_W3]
  exact sound_body V c t

end Cert.KernelIdeal.Region3

end
-- ==== Proof.KernelIdeal.Region4.lean ====
/-
  Region 4 of the kernel program: the aggregation pass that emits the embedding, 1000 rows per grid point.

  The grid has 10 points; at point t the pipeline fetches rows 1000·t … 1000·t + 999 of the adjacency copy (window 0) and,
  once each, the whole 10000 × 32 support matrix (window 1) and the whole 32 × 64 weights (window 2). This layer has no
  rectifier: the body stores Z = A_blk · support as the whole of window 3's buffer (rows of the embedding, a result of the
  program) and Z · W, re-formatted, as the whole of window 4's buffer (rows of the next support matrix). Stated at any
  float instance: what the body leaves in each output buffer as a function of the input blocks, the body's run on any whole
  staging buffers, the proof data at the region-entry contents, and the body obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and stores address it. -/
abbrev rA : Rect S1000x10000 := Rect.unit (s := S1000x10000) ![0, 0] S1000x10000.size inb_S1000x10000_S1000x10000_0_0
abbrev rS : Rect S10000x32 := Rect.unit (s := S10000x32) ![0, 0] S10000x32.size inb_S10000x32_S10000x32_0_0
abbrev rW : Rect S32x64 := Rect.unit (s := S32x64) ![0, 0] S32x64.size inb_S32x64_S32x64_0_0
abbrev rZ : Rect S1000x32 := Rect.unit (s := S1000x32) ![0, 0] S1000x32.size inb_S1000x32_S1000x32_0_0
abbrev rO : Rect S1000x64 := Rect.unit (s := S1000x64) ![0, 0] S1000x64.size inb_S1000x64_S1000x64_0_0

/-- The embedding's rows: A_blk · support. -/
def outZ (a : Vec F S1000x10000 .bf16) (s : Vec F S10000x32 .bf16) : Vec F S1000x32 .f32 :=
  View.canon [⟨rZ, k4_pay1 (View.ld a rA) (View.ld s rS)⟩]

/-- The next layer's support block: (A_blk · support) · W. -/
def outSup (a : Vec F S1000x10000 .bf16) (s : Vec F S10000x32 .bf16) (w : Vec F S32x64 .f32) : Vec F S1000x64 .bf16 :=
  View.canon [⟨rO, k4_pay2 (View.ld a rA) (View.ld s rS) (View.ld w rW)⟩]

theorem coverZ (p : Vec F S1000x32 .f32) (y : S1000x32.Idx) :
    ∃ pc ∈ ([⟨rZ, p⟩] : List (View.Piece (Elt F) S1000x32 .f32)), y ∈ pc.1.set :=
  View.cover_of_tiled [⟨rZ, p⟩] S1000x32.size (by rfl) y

theorem coverSup (p : Vec F S1000x64 .bf16) (y : S1000x64.Idx) :
    ∃ pc ∈ ([⟨rO, p⟩] : List (View.Piece (Elt F) S1000x64 .bf16)), y ∈ pc.1.set :=
  View.cover_of_tiled [⟨rO, p⟩] S1000x64.size (by rfl) y

set_option maxHeartbeats 2000000 in
theorem sound_kernel (c : Dev nD) (E : Set ℕ) (i : grid4.Coords)
    (arg1 : Memref sig .tc .vmem S1000x10000 .bf16) (harg1 : arg1.IsWhole)
    (arg2 : Memref sig .tc .vmem S10000x32 .bf16) (harg2 : arg2.IsWhole)
    (arg3 : Memref sig .tc .vmem S32x64 .f32) (harg3 : arg3.IsWhole)
    (arg4 : Memref sig .tc .vmem S1000x32 .f32) (harg4 : arg4.IsWhole)
    (arg5 : Memref sig .tc .vmem S1000x64 .bf16) (harg5 : arg5.IsWhole)
    (a : Vec F S1000x10000 .bf16) (s : Vec F S10000x32 .bf16) (w : Vec F S32x64 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d) ∗ (∃ d, owns (c : Thread nD τ) arg5 fullShare d)
        ∗ (iprop(owns (c : Thread nD τ) arg1 fullShare a ∗ owns (c : Thread nD τ) arg2 fullShare s ∗ owns (c : Thread nD τ) arg3 fullShare w
            ∗ owns (c : Thread nD τ) arg4 fullShare (outZ a s) ∗ owns (c : Thread nD τ) arg5 fullShare (outSup a s w)) -∗ K ⟨⟩))
      ⊢ wp frame (wpE (defs₀ (F := F)) Variants.none c none) E (cc4__agg_body_both i arg1 harg1 arg2 harg2 arg3 harg3 arg4 harg4 arg5 harg5) K := by
  simp only [cc4__agg_body_both_eq_skeleton]; unfold cc4__agg_body_both_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverZ _)
  iexists _; isplitr
  swap; · iexact H4
  ipureintro
  exact View.read_writes_eq_canon _ _ _ (coverSup _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat (c : Dev nD) : Dat τ (Elt F) Unit ℕ (Pipeline.UD sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => outZ (blk V c 0 t) (blk V c 1 t)
    | ⟨4, _⟩ => outSup (blk V c 0 t) (blk V c 1 t) (blk V c 2 t)
  Φ _ := Pipeline.ΦA spec4 c
  q _ := fullShare
  owed _ := 0

theorem dat_A (c : Dev nD) (w : Fin cfg4.W) : (dat V c).A w = V c (Pipeline.arrRef spec4 w) := by dsimp only [dat]
theorem after_0 (c : Dev nD) (t : Fin cfg4.N) : (dat V c).after 0 t = blk V c 0 t := by dsimp only [dat]
theorem after_1 (c : Dev nD) (t : Fin cfg4.N) : (dat V c).after 1 t = blk V c 1 t := by dsimp only [dat]
theorem after_2 (c : Dev nD) (t : Fin cfg4.N) : (dat V c).after 2 t = blk V c 2 t := by dsimp only [dat]
theorem after_3 (c : Dev nD) (t : Fin cfg4.N) : (dat V c).after 3 t = outZ (blk V c 0 t) (blk V c 1 t) := by dsimp only [dat]
theorem after_4 (c : Dev nD) (t : Fin cfg4.N) : (dat V c).after 4 t = outSup (blk V c 0 t) (blk V c 1 t) (blk V c 2 t) := by dsimp only [dat]

/-- An input window's current buffer holds its block at every point, fetched there or not: the body leaves it in place. -/
theorem before_0 (c : Dev nD) (t : Fin cfg4.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg4.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg4.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t))

theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid4.coords t) _ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W4, bigSep_W4]
  exact sound_body V c t

end Cert.KernelIdeal.Region4

end
-- ==== Proof.KernelIdeal.Region5.lean ====
/-
  Region 5 of the kernel program: an aggregation pass, 1000 rows of the adjacency copy per grid point.

  The grid has 10 points; at point t the pipeline fetches rows 1000·t … 1000·t + 999 of the adjacency copy (window 0) and,
  once each, the whole 10000 × 64 support matrix (window 1) and the whole 64 × 128 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x64 := Rect.unit (s := S10000x64) ![0, 0] S10000x64.size inb_S10000x64_S10000x64_0_0
abbrev rW : Rect S64x128 := Rect.unit (s := S64x128) ![0, 0] S64x128.size inb_S64x128_S64x128_0_0
abbrev rO : Rect S1000x128 := Rect.unit (s := S1000x128) ![0, 0] S1000x128.size inb_S1000x128_S1000x128_0_0

/-- The next layer's support block: max(A_blk · support, 0) · W. -/
def out (a : Vec F S1000x10000 .bf16) (s : Vec F S10000x64 .bf16) (w : Vec F S64x128 .f32) : Vec F S1000x128 .bf16 :=
  View.canon [⟨rO, k5_pay1 (View.ld a rA) (View.ld s rS) (View.ld w rW)⟩]

theorem cover (p : Vec F S1000x128 .bf16) (y : S1000x128.Idx) :
    ∃ pc ∈ ([⟨rO, p⟩] : List (View.Piece (Elt F) S1000x128 .bf16)), y ∈ pc.1.set :=
  View.cover_of_tiled [⟨rO, p⟩] S1000x128.size (by rfl) y

set_option maxHeartbeats 2000000 in
theorem sound_kernel (c : Dev nD) (E : Set ℕ) (i : grid5.Coords)
    (arg1 : Memref sig .tc .vmem S1000x10000 .bf16) (harg1 : arg1.IsWhole)
    (arg2 : Memref sig .tc .vmem S10000x64 .bf16) (harg2 : arg2.IsWhole)
    (arg3 : Memref sig .tc .vmem S64x128 .f32) (harg3 : arg3.IsWhole)
    (arg4 : Memref sig .tc .vmem S1000x128 .bf16) (harg4 : arg4.IsWhole)
    (a : Vec F S1000x10000 .bf16) (s : Vec F S10000x64 .bf16) (w : Vec F S64x128 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc5__agg_body_sup i arg1 harg1 arg2 harg2 arg3 harg3 arg4 harg4) K := by
  simp only [cc5__agg_body_sup_eq_skeleton]; unfold cc5__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat (c : Dev nD) : Dat τ (Elt F) Unit ℕ (Pipeline.UD sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec5 c
  q _ := fullShare
  owed _ := 0

theorem dat_A (c : Dev nD) (w : Fin cfg5.W) : (dat V c).A w = V c (Pipeline.arrRef spec5 w) := by dsimp only [dat]
theorem after_0 (c : Dev nD) (t : Fin cfg5.N) : (dat V c).after 0 t = blk V c 0 t := by dsimp only [dat]
theorem after_1 (c : Dev nD) (t : Fin cfg5.N) : (dat V c).after 1 t = blk V c 1 t := by dsimp only [dat]
theorem after_2 (c : Dev nD) (t : Fin cfg5.N) : (dat V c).after 2 t = blk V c 2 t := by dsimp only [dat]
theorem after_3 (c : Dev nD) (t : Fin cfg5.N) : (dat V c).after 3 t = out (blk V c 0 t) (blk V c 1 t) (blk V c 2 t) := by dsimp only [dat]

/-- An input window's current buffer holds its block at every point, fetched there or not: the body leaves it in place. -/
theorem before_0 (c : Dev nD) (t : Fin cfg5.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg5.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg5.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d)))

def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t))

theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid5.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W5, bigSep_W5]
  exact sound_body V c t

end Cert.KernelIdeal.Region5

end
-- ==== Proof.KernelIdeal.Region6.lean ====
/-
  Region 6 of the kernel program: an aggregation pass, 1000 rows of the adjacency copy per grid point.

  The grid has 10 points; at point t the pipeline fetches rows 1000·t … 1000·t + 999 of the adjacency copy (window 0) and,
  once each, the whole 10000 × 128 support matrix (window 1) and the whole 128 × 256 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region6

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x128 := Rect.unit (s := S10000x128) ![0, 0] S10000x128.size inb_S10000x128_S10000x128_0_0
abbrev rW : Rect S128x256 := Rect.unit (s := S128x256) ![0, 0] S128x256.size inb_S128x256_S128x256_0_0
abbrev rO : Rect S1000x256 := Rect.unit (s := S1000x256) ![0, 0] S1000x256.size inb_S1000x256_S1000x256_0_0

/-- The next layer's support block: max(A_blk · support, 0) · W. -/
def out (a : Vec F S1000x10000 .bf16) (s : Vec F S10000x128 .bf16) (w : Vec F S128x256 .f32) : Vec F S1000x256 .bf16 :=
  View.canon [⟨rO, k6_pay1 (View.ld a rA) (View.ld s rS) (View.ld w rW)⟩]

theorem cover (p : Vec F S1000x256 .bf16) (y : S1000x256.Idx) :
    ∃ pc ∈ ([⟨rO, p⟩] : List (View.Piece (Elt F) S1000x256 .bf16)), y ∈ pc.1.set :=
  View.cover_of_tiled [⟨rO, p⟩] S1000x256.size (by rfl) y

set_option maxHeartbeats 2000000 in
theorem sound_kernel (c : Dev nD) (E : Set ℕ) (i : grid6.Coords)
    (arg1 : Memref sig .tc .vmem S1000x10000 .bf16) (harg1 : arg1.IsWhole)
    (arg2 : Memref sig .tc .vmem S10000x128 .bf16) (harg2 : arg2.IsWhole)
    (arg3 : Memref sig .tc .vmem S128x256 .f32) (harg3 : arg3.IsWhole)
    (arg4 : Memref sig .tc .vmem S1000x256 .bf16) (harg4 : arg4.IsWhole)
    (a : Vec F S1000x10000 .bf16) (s : Vec F S10000x128 .bf16) (w : Vec F S128x256 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc6__agg_body_sup i arg1 harg1 arg2 harg2 arg3 harg3 arg4 harg4) K := by
  simp only [cc6__agg_body_sup_eq_skeleton]; unfold cc6__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat (c : Dev nD) : Dat τ (Elt F) Unit ℕ (Pipeline.UD sig nD τ) ℕ cfg6 c where
  A w := V c (Pipeline.arrRef spec6 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec6 c
  q _ := fullShare
  owed _ := 0

theorem dat_A (c : Dev nD) (w : Fin cfg6.W) : (dat V c).A w = V c (Pipeline.arrRef spec6 w) := by dsimp only [dat]
theorem after_0 (c : Dev nD) (t : Fin cfg6.N) : (dat V c).after 0 t = blk V c 0 t := by dsimp only [dat]
theorem after_1 (c : Dev nD) (t : Fin cfg6.N) : (dat V c).after 1 t = blk V c 1 t := by dsimp only [dat]
theorem after_2 (c : Dev nD) (t : Fin cfg6.N) : (dat V c).after 2 t = blk V c 2 t := by dsimp only [dat]
theorem after_3 (c : Dev nD) (t : Fin cfg6.N) : (dat V c).after 3 t = out (blk V c 0 t) (blk V c 1 t) (blk V c 2 t) := by dsimp only [dat]

/-- An input window's current buffer holds its block at every point, fetched there or not: the body leaves it in place. -/
theorem before_0 (c : Dev nD) (t : Fin cfg6.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg6.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg6.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg6.N) : sProp 𝕄 :=
  iprop((dat V c).Φ t.castSucc ∗ (dat V c).owesAt () t.castSucc
    ∗ (∃ d, owns (c : Thread nD τ) (st6_0 t) fullShare ((dat V c).before 0 t d))
    ∗ (∃ d, owns (c : Thread nD τ) (st6_1 t) fullShare ((dat V c).before 1 t d))
    ∗ (∃ d, owns (c : Thread nD τ) (st6_2 t) fullShare ((dat V c).before 2 t d))
    ∗ (∃ d, owns (c : Thread nD τ) (st6_3 t) fullShare ((dat V c).before 3 t d)))

def bodyPost (c : Dev nD) (t : Fin cfg6.N) : sProp 𝕄 :=
  iprop((dat V c).Φ t.succ ∗ (dat V c).owesAt () t.succ
    ∗ owns (c : Thread nD τ) (st6_0 t) fullShare ((dat V c).after 0 t)
    ∗ owns (c : Thread nD τ) (st6_1 t) fullShare ((dat V c).after 1 t)
    ∗ owns (c : Thread nD τ) (st6_2 t) fullShare ((dat V c).after 2 t)
    ∗ owns (c : Thread nD τ) (st6_3 t) fullShare ((dat V c).after 3 t))

theorem sound_body (c : Dev nD) (t : Fin cfg6.N) :
    bodyPre V c t ⊢ wp frame (wpE (defs₀ (F := F)) Variants.none c none) Set.univ (bodyAt6 t) (fun _ => bodyPost V c t) := by
  unfold bodyPre bodyPost bodyAt6
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid6.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W6, bigSep_W6]
  exact sound_body V c t

end Cert.KernelIdeal.Region6

end
-- ==== Proof.KernelIdeal.Region7.lean ====
/-
  Region 7 of the kernel program: an aggregation pass, 1000 rows of the adjacency copy per grid point.

  The grid has 10 points; at point t the pipeline fetches rows 1000·t … 1000·t + 999 of the adjacency copy (window 0) and,
  once each, the whole 10000 × 256 support matrix (window 1) and the whole 256 × 256 weights (window 2). The body stores
  max(A_blk · support, 0) · W, re-formatted, as the whole of window 3's buffer, written back as those rows of the next
  support matrix. Stated at any float instance: what the body leaves in the output buffer as a function of the three
  input blocks, the body's run on any whole staging buffers, the proof data at the region-entry contents, and the body
  obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region7

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x256 := Rect.unit (s := S10000x256) ![0, 0] S10000x256.size inb_S10000x256_S10000x256_0_0
abbrev rW : Rect S256x256 := Rect.unit (s := S256x256) ![0, 0] S256x256.size inb_S256x256_S256x256_0_0
abbrev rO : Rect S1000x256 := Rect.unit (s := S1000x256) ![0, 0] S1000x256.size inb_S1000x256_S1000x256_0_0

/-- The next layer's support block: max(A_blk · support, 0) · W. -/
def out (a : Vec F S1000x10000 .bf16) (s : Vec F S10000x256 .bf16) (w : Vec F S256x256 .f32) : Vec F S1000x256 .bf16 :=
  View.canon [⟨rO, k7_pay1 (View.ld a rA) (View.ld s rS) (View.ld w rW)⟩]

theorem cover (p : Vec F S1000x256 .bf16) (y : S1000x256.Idx) :
    ∃ pc ∈ ([⟨rO, p⟩] : List (View.Piece (Elt F) S1000x256 .bf16)), y ∈ pc.1.set :=
  View.cover_of_tiled [⟨rO, p⟩] S1000x256.size (by rfl) y

set_option maxHeartbeats 2000000 in
theorem sound_kernel (c : Dev nD) (E : Set ℕ) (i : grid7.Coords)
    (arg1 : Memref sig .tc .vmem S1000x10000 .bf16) (harg1 : arg1.IsWhole)
    (arg2 : Memref sig .tc .vmem S10000x256 .bf16) (harg2 : arg2.IsWhole)
    (arg3 : Memref sig .tc .vmem S256x256 .f32) (harg3 : arg3.IsWhole)
    (arg4 : Memref sig .tc .vmem S1000x256 .bf16) (harg4 : arg4.IsWhole)
    (a : Vec F S1000x10000 .bf16) (s : Vec F S10000x256 .bf16) (w : Vec F S256x256 .f32) (K : PUnit → sProp 𝕄) :
    iprop(owns (c : Thread nD τ) arg1 fullShare a ∗ owns (c : Thread nD τ) arg2 fullShare s ∗ owns (c : Thread nD τ) arg3 fullShare w
        ∗ (∃ d, owns (c : Thread nD τ) arg4 fullShare d)
        ∗ (iprop(owns (c : Thread nD τ) arg1 fullShare a ∗ owns (c : Thread nD τ) arg2 fullShare s ∗ owns (c : Thread nD τ) arg3 fullShare w
            ∗ owns (c : Thread nD τ) arg4 fullShare (out a s w)) -∗ K ⟨⟩))
      ⊢ wp frame (wpE (defs₀ (F := F)) Variants.none c none) E (cc7__agg_body_sup i arg1 harg1 arg2 harg2 arg3 harg3 arg4 harg4) K := by
  simp only [cc7__agg_body_sup_eq_skeleton]; unfold cc7__agg_body_sup_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat (c : Dev nD) : Dat τ (Elt F) Unit ℕ (Pipeline.UD sig nD τ) ℕ cfg7 c where
  A w := V c (Pipeline.arrRef spec7 w)
  after w t := match w with
    | ⟨0, _⟩ => blk V c 0 t
    | ⟨1, _⟩ => blk V c 1 t
    | ⟨2, _⟩ => blk V c 2 t
    | ⟨3, _⟩ => out (blk V c 0 t) (blk V c 1 t) (blk V c 2 t)
  Φ _ := Pipeline.ΦA spec7 c
  q _ := fullShare
  owed _ := 0

theorem dat_A (c : Dev nD) (w : Fin cfg7.W) : (dat V c).A w = V c (Pipeline.arrRef spec7 w) := by dsimp only [dat]
theorem after_0 (c : Dev nD) (t : Fin cfg7.N) : (dat V c).after 0 t = blk V c 0 t := by dsimp only [dat]
theorem after_1 (c : Dev nD) (t : Fin cfg7.N) : (dat V c).after 1 t = blk V c 1 t := by dsimp only [dat]
theorem after_2 (c : Dev nD) (t : Fin cfg7.N) : (dat V c).after 2 t = blk V c 2 t := by dsimp only [dat]
theorem after_3 (c : Dev nD) (t : Fin cfg7.N) : (dat V c).after 3 t = out (blk V c 0 t) (blk V c 1 t) (blk V c 2 t) := by dsimp only [dat]

/-- An input window's current buffer holds its block at every point, fetched there or not: the body leaves it in place. -/
theorem before_0 (c : Dev nD) (t : Fin cfg7.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg7.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg7.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)

/-! ## The body obligation -/

def bodyPre (c : Dev nD) (t : Fin cfg7.N) : sProp 𝕄 :=
  iprop((dat V c).Φ t.castSucc ∗ (dat V c).owesAt () t.castSucc
    ∗ (∃ d, owns (c : Thread nD τ) (st7_0 t) fullShare ((dat V c).before 0 t d))
    ∗ (∃ d, owns (c : Thread nD τ) (st7_1 t) fullShare ((dat V c).before 1 t d))
    ∗ (∃ d, owns (c : Thread nD τ) (st7_2 t) fullShare ((dat V c).before 2 t d))
    ∗ (∃ d, owns (c : Thread nD τ) (st7_3 t) fullShare ((dat V c).before 3 t d)))

def bodyPost (c : Dev nD) (t : Fin cfg7.N) : sProp 𝕄 :=
  iprop((dat V c).Φ t.succ ∗ (dat V c).owesAt () t.succ
    ∗ owns (c : Thread nD τ) (st7_0 t) fullShare ((dat V c).after 0 t)
    ∗ owns (c : Thread nD τ) (st7_1 t) fullShare ((dat V c).after 1 t)
    ∗ owns (c : Thread nD τ) (st7_2 t) fullShare ((dat V c).after 2 t)
    ∗ owns (c : Thread nD τ) (st7_3 t) fullShare ((dat V c).after 3 t))

theorem sound_body (c : Dev nD) (t : Fin cfg7.N) :
    bodyPre V c t ⊢ wp frame (wpE (defs₀ (F := F)) Variants.none c none) Set.univ (bodyAt7 t) (fun _ => bodyPost V c t) := by
  unfold bodyPre bodyPost bodyAt7
  simp only [before_0, before_1, before_2]
  rw [show (dat V c).Φ t.succ = (dat V c).Φ t.castSucc from rfl,
    show (dat V c).owesAt () t.succ = (dat V c).owesAt () t.castSucc from rfl, after_0, after_1, after_2, after_3]
  iintro ⟨HΦ, Ho, ⟨%d0, H0⟩, ⟨%d1, H1⟩, ⟨%d2, H2⟩, ⟨%d3, H3⟩⟩
  iapply (sound_kernel c Set.univ (grid7.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W7, bigSep_W7]
  exact sound_body V c t

end Cert.KernelIdeal.Region7

end
-- ==== Proof.KernelIdeal.Region8.lean ====
/-
  Region 8 of the kernel program: the last aggregation pass, 1000 rows of the reconstruction per grid point.

  The grid has 10 points; at point t the pipeline fetches rows 1000·t … 1000·t + 999 of the adjacency copy (window 0) and,
  once, the whole 10000 × 256 support matrix (window 1). The body stores max(A_blk · support, 0) as the whole of window 2's
  buffer, written back as those rows of the reconstruction, a result of the program. Stated at any float instance: what the
  body leaves in the output buffer as a function of the two input blocks, the body's run on any whole staging buffers, the
  proof data at the region-entry contents, and the body obligation at every grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region8

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rA : Rect S1000x10000 := Rect.unit (s := S1000x10000) ![0, 0] S1000x10000.size inb_S1000x10000_S1000x10000_0_0
abbrev rS : Rect S10000x256 := Rect.unit (s := S10000x256) ![0, 0] S10000x256.size inb_S10000x256_S10000x256_0_0
abbrev rO : Rect S1000x256 := Rect.unit (s := S1000x256) ![0, 0] S1000x256.size inb_S1000x256_S1000x256_0_0

/-- The reconstruction's rows: max(A_blk · support, 0). -/
def out (a : Vec F S1000x10000 .bf16) (s : Vec F S10000x256 .bf16) : Vec F S1000x256 .f32 :=
  View.canon [⟨rO, k8_pay1 (View.ld a rA) (View.ld s rS)⟩]

theorem cover (p : Vec F S1000x256 .f32) (y : S1000x256.Idx) :
    ∃ pc ∈ ([⟨rO, p⟩] : List (View.Piece (Elt F) S1000x256 .f32)), y ∈ pc.1.set :=
  View.cover_of_tiled [⟨rO, p⟩] S1000x256.size (by rfl) y

set_option maxHeartbeats 2000000 in
theorem sound_kernel (c : Dev nD) (E : Set ℕ) (i : grid8.Coords)
    (arg1 : Memref sig .tc .vmem S1000x10000 .bf16) (harg1 : arg1.IsWhole)
    (arg2 : Memref sig .tc .vmem S10000x256 .bf16) (harg2 : arg2.IsWhole)
    (arg3 : Memref sig .tc .vmem S1000x256 .f32) (harg3 : arg3.IsWhole)
    (a : Vec F S1000x10000 .bf16) (s : Vec F S10000x256 .bf16) (K : PUnit → sProp 𝕄) :
    iprop(owns (c : Thread nD τ) arg1 fullShare a ∗ owns (c : Thread nD τ) arg2 fullShare s
        ∗ (∃ d, owns (c : Thread nD τ) arg3 fullShare d)
        ∗ (iprop(owns (c : Thread nD τ) arg1 fullShare a ∗ owns (c : Thread nD τ) arg2 fullShare s
            ∗ owns (c : Thread nD τ) arg3 fullShare (out a s)) -∗ K ⟨⟩))
      ⊢ wp frame (wpE (defs₀ (F := F)) Variants.none c none) E (cc8__agg_body_z i arg1 harg1 arg2 harg2 arg3 harg3) K := by
  simp only [cc8__agg_body_z_eq_skeleton]; unfold cc8__agg_body_z_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat (c : Dev nD) : Dat τ (Elt F) Unit ℕ (Pipeline.UD sig nD τ) ℕ cfg8 c where
  A w := V c (Pipeline.arrRef spec8 w)
  after w t := match w with
    | ⟨0, _⟩ => blk V c 0 t
    | ⟨1, _⟩ => blk V c 1 t
    | ⟨2, _⟩ => out (blk V c 0 t) (blk V c 1 t)
  Φ _ := Pipeline.ΦA spec8 c
  q _ := fullShare
  owed _ := 0

theorem dat_A (c : Dev nD) (w : Fin cfg8.W) : (dat V c).A w = V c (Pipeline.arrRef spec8 w) := by dsimp only [dat]
theorem after_0 (c : Dev nD) (t : Fin cfg8.N) : (dat V c).after 0 t = blk V c 0 t := by dsimp only [dat]
theorem after_1 (c : Dev nD) (t : Fin cfg8.N) : (dat V c).after 1 t = blk V c 1 t := by dsimp only [dat]
theorem after_2 (c : Dev nD) (t : Fin cfg8.N) : (dat V c).after 2 t = out (blk V c 0 t) (blk V c 1 t) := by dsimp only [dat]

/-- An input window's current buffer holds its block at every point, fetched there or not: the body leaves it in place. -/
theorem before_0 (c : Dev nD) (t : Fin cfg8.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg8.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)

/-! ## The body obligation -/

def bodyPre (c : Dev nD) (t : Fin cfg8.N) : sProp 𝕄 :=
  iprop((dat V c).Φ t.castSucc ∗ (dat V c).owesAt () t.castSucc
    ∗ (∃ d, owns (c : Thread nD τ) (st8_0 t) fullShare ((dat V c).before 0 t d))
    ∗ (∃ d, owns (c : Thread nD τ) (st8_1 t) fullShare ((dat V c).before 1 t d))
    ∗ (∃ d, owns (c : Thread nD τ) (st8_2 t) fullShare ((dat V c).before 2 t d)))

def bodyPost (c : Dev nD) (t : Fin cfg8.N) : sProp 𝕄 :=
  iprop((dat V c).Φ t.succ ∗ (dat V c).owesAt () t.succ
    ∗ owns (c : Thread nD τ) (st8_0 t) fullShare ((dat V c).after 0 t)
    ∗ owns (c : Thread nD τ) (st8_1 t) fullShare ((dat V c).after 1 t)
    ∗ owns (c : Thread nD τ) (st8_2 t) fullShare ((dat V c).after 2 t))

theorem sound_body (c : Dev nD) (t : Fin cfg8.N) :
    bodyPre V c t ⊢ wp frame (wpE (defs₀ (F := F)) Variants.none c none) Set.univ (bodyAt8 t) (fun _ => bodyPost V c t) := by
  unfold bodyPre bodyPost bodyAt8
  simp only [before_0, before_1]
  rw [show (dat V c).Φ t.succ = (dat V c).Φ t.castSucc from rfl,
    show (dat V c).owesAt () t.succ = (dat V c).owesAt () t.castSucc from rfl, after_0, after_1, after_2]
  iintro ⟨HΦ, Ho, ⟨%d0, H0⟩, ⟨%d1, H1⟩, ⟨%d2, H2⟩⟩
  iapply (sound_kernel c Set.univ (grid8.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W8, bigSep_W8]
  exact sound_body V c t

end Cert.KernelIdeal.Region8

end
-- ==== Proof.KernelIdeal.Region9.lean ====
/-
  Region 9 of the kernel program: 400 rows of the reconstructed adjacency per grid point.

  The grid has 25 points; at point t the pipeline fetches rows 400·t … 400·t + 399 of the embedding (window 0) and of the
  re-formatted reconstruction (window 1) and, once each, the whole embedding (window 2) and the whole re-formatted
  reconstruction (window 3) — windows 0 and 2 read one array, windows 1 and 3 another. The body forms the two
  rows-against-rows products a = Zg_blk · Zgᵀ and b = Zh_blk · Zhᵀ and stores 1 + ½·(tanh(½·a) + tanh(½·b)) as the whole of
  window 4's buffer, written back as those rows of the result. Stated at any float instance: what the body leaves in the
  output buffer as a function of the four input blocks, the body's run on any whole staging buffers, the proof data at the
  region-entry contents — each shared array held half by each of its two windows —, and the body obligation at every
  grid point.
-/
import proofs.«155458_g54082228191885_cont_9to1c4b_454_29_alg».proof.Proof.Gen.KernelIdeal.Launch
import proofs.«155458_g54082228191885_cont_9to1c4b_454_29_alg».proof.Proof.Gen.KernelIdeal.Skeleton
import proofs.«155458_g54082228191885_cont_9to1c4b_454_29_alg».proof.Proof.Gen.KernelIdeal.Points
import Idealize.ShloMosaic.Lib.Pipeline.FrameBody
import Idealize.ShloMosaic.Lib.Tactic

set_option maxRecDepth 16384

noncomputable section

namespace Cert.KernelIdeal.Region9

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of each buffer, as the body's loads and its store address it. -/
abbrev rG : Rect S400x32 := Rect.unit (s := S400x32) ![0, 0] S400x32.size inb_S400x32_S400x32_0_0
abbrev rH : Rect S400x256 := Rect.unit (s := S400x256) ![0, 0] S400x256.size inb_S400x256_S400x256_0_0
abbrev rGw : Rect S10000x32 := Rect.unit (s := S10000x32) ![0, 0] S10000x32.size inb_S10000x32_S10000x32_0_0
abbrev rHw : Rect S10000x256 := Rect.unit (s := S10000x256) ![0, 0] S10000x256.size inb_S10000x256_S10000x256_0_0
abbrev rO : Rect S400x10000 := Rect.unit (s := S400x10000) ![0, 0] S400x10000.size inb_S400x10000_S400x10000_0_0

/-- The rows of the reconstructed adjacency: 1 + ½·(tanh(½·Zg_blk Zgᵀ) + tanh(½·Zh_blk Zhᵀ)). -/
def out (g : Vec F S400x32 .f32) (h : Vec F S400x256 .bf16) (gw : Vec F S10000x32 .f32) (hw : Vec F S10000x256 .bf16) :
    Vec F S400x10000 .f32 :=
  View.canon [⟨rO, k9_pay1 (View.ld g rG) (View.ld gw rGw) (View.ld h rH) (View.ld hw rHw)⟩]

theorem cover (p : Vec F S400x10000 .f32) (y : S400x10000.Idx) :
    ∃ pc ∈ ([⟨rO, p⟩] : List (View.Piece (Elt F) S400x10000 .f32)), y ∈ pc.1.set :=
  View.cover_of_tiled [⟨rO, p⟩] S400x10000.size (by rfl) y

set_option maxHeartbeats 2000000 in
theorem sound_kernel (c : Dev nD) (E : Set ℕ) (i : grid9.Coords)
    (arg1 : Memref sig .tc .vmem S400x32 .f32) (harg1 : arg1.IsWhole)
    (arg2 : Memref sig .tc .vmem S400x256 .bf16) (harg2 : arg2.IsWhole)
    (arg3 : Memref sig .tc .vmem S10000x32 .f32) (harg3 : arg3.IsWhole)
    (arg4 : Memref sig .tc .vmem S10000x256 .bf16) (harg4 : arg4.IsWhole)
    (arg5 : Memref sig .tc .vmem S400x10000 .f32) (harg5 : arg5.IsWhole)
    (g : Vec F S400x32 .f32) (h : Vec F S400x256 .bf16) (gw : Vec F S10000x32 .f32) (hw : Vec F S10000x256 .bf16)
    (K : PUnit → sProp 𝕄) :
    iprop(owns (c : Thread nD τ) arg1 fullShare g ∗ owns (c : Thread nD τ) arg2 fullShare h
        ∗ owns (c : Thread nD τ) arg3 fullShare gw ∗ owns (c : Thread nD τ) arg4 fullShare hw
        ∗ (∃ d, owns (c : Thread nD τ) arg5 fullShare d)
        ∗ (iprop(owns (c : Thread nD τ) arg1 fullShare g ∗ owns (c : Thread nD τ) arg2 fullShare h
            ∗ owns (c : Thread nD τ) arg3 fullShare gw ∗ owns (c : Thread nD τ) arg4 fullShare hw
            ∗ owns (c : Thread nD τ) arg5 fullShare (out g h gw hw)) -∗ K ⟨⟩))
      ⊢ wp frame (wpE (defs₀ (F := F)) Variants.none c none) E (cc9__adjhat_body i arg1 harg1 arg2 harg2 arg3 harg3 arg4 harg4 arg5 harg5) K := by
  simp only [cc9__adjhat_body_eq_skeleton]; unfold cc9__adjhat_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-! ## The proof data at the region-entry contents -/

variable (V : (c : Dev nD) → (b : Ref sig .tc) → Buf (Elt F) ((c : Thread nD τ).loc b))

/-- Window `w`'s block at point `t`, read off its array as the region finds it. -/
def blk (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The arrays as the region finds them; after the body each input's buffer still at its block, the output's at the rows of
    the result; each of the two shared arrays held half by the window that reads it block by block and half by the window
    that reads it whole; nothing owed. -/
def dat (c : Dev nD) : Dat τ (Elt F) Unit ℕ (Pipeline.UD sig nD τ) ℕ cfg9 c where
  A w := V c (Pipeline.arrRef spec9 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec9 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem dat_A (c : Dev nD) (w : Fin cfg9.W) : (dat V c).A w = V c (Pipeline.arrRef spec9 w) := by dsimp only [dat]
theorem after_0 (c : Dev nD) (t : Fin cfg9.N) : (dat V c).after 0 t = blk V c 0 t := by dsimp only [dat]
theorem after_1 (c : Dev nD) (t : Fin cfg9.N) : (dat V c).after 1 t = blk V c 1 t := by dsimp only [dat]
theorem after_2 (c : Dev nD) (t : Fin cfg9.N) : (dat V c).after 2 t = blk V c 2 t := by dsimp only [dat]
theorem after_3 (c : Dev nD) (t : Fin cfg9.N) : (dat V c).after 3 t = blk V c 3 t := by dsimp only [dat]
theorem after_4 (c : Dev nD) (t : Fin cfg9.N) :
    (dat V c).after 4 t = out (blk V c 0 t) (blk V c 1 t) (blk V c 2 t) (blk V c 3 t) := by dsimp only [dat]

/-- An input window's current buffer holds its block at every point, fetched there or not: the body leaves it in place. -/
theorem before_0 (c : Dev nD) (t : Fin cfg9.N) (d) : (dat V c).before 0 t d = blk V c 0 t :=
  ((dat V c).before_in_eq_fetched 0 rfl (fun _ => rfl) (fun _ _ _ => rfl)
    (fun t => by rw [after_0]; unfold Dat.blockOf blk; rw [dat_A]; try rfl) t d).trans
    (by unfold Dat.fetched Dat.blockOf blk; rw [dat_A]; try rfl)
theorem before_1 (c : Dev nD) (t : Fin cfg9.N) (d) : (dat V c).before 1 t d = blk V c 1 t :=
  ((dat V c).before_in_eq_fetched 1 rfl (fun _ => rfl) (fun _ _ _ => rfl)
    (fun t => by rw [after_1]; unfold Dat.blockOf blk; rw [dat_A]; try rfl) t d).trans
    (by unfold Dat.fetched Dat.blockOf blk; rw [dat_A]; try rfl)
theorem before_2 (c : Dev nD) (t : Fin cfg9.N) (d) : (dat V c).before 2 t d = blk V c 2 t :=
  ((dat V c).before_in_eq_fetched 2 rfl (fun _ => rfl) (fun _ _ _ => rfl)
    (fun t => by rw [after_2]; unfold Dat.blockOf blk; rw [dat_A]; try rfl) t d).trans
    (by unfold Dat.fetched Dat.blockOf blk; rw [dat_A]; try rfl)
theorem before_3 (c : Dev nD) (t : Fin cfg9.N) (d) : (dat V c).before 3 t d = blk V c 3 t :=
  ((dat V c).before_in_eq_fetched 3 rfl (fun _ => rfl) (fun _ _ _ => rfl)
    (fun t => by rw [after_3]; unfold Dat.blockOf blk; rw [dat_A]; try rfl) t d).trans
    (by unfold Dat.fetched Dat.blockOf blk; rw [dat_A]; try rfl)

/-! ## The body obligation -/

def bodyPre (c : Dev nD) (t : Fin cfg9.N) : sProp 𝕄 :=
  iprop((dat V c).Φ t.castSucc ∗ (dat V c).owesAt () t.castSucc
    ∗ (∃ d, owns (c : Thread nD τ) (st9_0 t) fullShare ((dat V c).before 0 t d))
    ∗ (∃ d, owns (c : Thread nD τ) (st9_1 t) fullShare ((dat V c).before 1 t d))
    ∗ (∃ d, owns (c : Thread nD τ) (st9_2 t) fullShare ((dat V c).before 2 t d))
    ∗ (∃ d, owns (c : Thread nD τ) (st9_3 t) fullShare ((dat V c).before 3 t d))
    ∗ (∃ d, owns (c : Thread nD τ) (st9_4 t) fullShare ((dat V c).before 4 t d)))

def bodyPost (c : Dev nD) (t : Fin cfg9.N) : sProp 𝕄 :=
  iprop((dat V c).Φ t.succ ∗ (dat V c).owesAt () t.succ
    ∗ owns (c : Thread nD τ) (st9_0 t) fullShare ((dat V c).after 0 t)
    ∗ owns (c : Thread nD τ) (st9_1 t) fullShare ((dat V c).after 1 t)
    ∗ owns (c : Thread nD τ) (st9_2 t) fullShare ((dat V c).after 2 t)
    ∗ owns (c : Thread nD τ) (st9_3 t) fullShare ((dat V c).after 3 t)
    ∗ owns (c : Thread nD τ) (st9_4 t) fullShare ((dat V c).after 4 t))

theorem sound_body (c : Dev nD) (t : Fin cfg9.N) :
    bodyPre V c t ⊢ wp frame (wpE (defs₀ (F := F)) Variants.none c none) Set.univ (bodyAt9 t) (fun _ => bodyPost V c t) := by
  unfold bodyPre bodyPost bodyAt9
  simp only [before_0, before_1, before_2, before_3]
  rw [show (dat V c).Φ t.succ = (dat V c).Φ t.castSucc from rfl,
    show (dat V c).owesAt () t.succ = (dat V c).owesAt () t.castSucc from rfl, after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ (grid9.coords t) _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W9, bigSep_W9]
  exact sound_body V c t

end Cert.KernelIdeal.Region9

end
-- ==== Proof.KernelIdeal.Run.lean ====
/-
  The idealized kernel program's run through its eleven items — nine pipelined regions, one host conversion, the last
  pipelined region — with every buffer's contents named.

  Between two items core c holds every unscoped buffer at known contents: at launch the memory m (`U0`); after a region,
  the contents before it with each OUTPUT array of the region replaced by what its write-backs leave (the region's proof
  data's `arrAt` after the last grid point; an input array is never written) (`U1` … `U9`, `U11`); after the host stretch,
  its operations applied (`U10`). Each region is a segment record entered from the contents before it and left at the
  contents after it (the records of the plain class of kernels; for the last region, whose windows 0, 2 read one array and
  1, 3 another, the record that deals each shared array's share into halves and gathers it again). The library's rule for a
  program of several regions then gives: every weakly fair execution of @main from memory m with zero counters terminates,
  and every unscoped buffer ends at `U11` — in particular the three results at the last write-backs of regions 4, 8 and 9,
  and the ten arguments at m.
-/
import proofs.«155458_g54082228191885_cont_9to1c4b_454_29_alg».proof.Proof.LibRegionRecord
import proofs.«155458_g54082228191885_cont_9to1c4b_454_29_alg».proof.Proof.KernelIdeal.Region0
import proofs.«155458_g54082228191885_cont_9to1c4b_454_29_alg».proof.Proof.KernelIdeal.Region1
import proofs.«155458_g54082228191885_cont_9to1c4b_454_29_alg».proof.Proof.KernelIdeal.Region2
import proofs.«155458_g54082228191885_cont_9to1c4b_454_29_alg».proof.Proof.KernelIdeal.Region3
import proofs.«155458_g54082228191885_cont_9to1c4b_454_29_alg».proof.Proof.KernelIdeal.Region4
import proofs.«155458_g54082228191885_cont_9to1c4b_454_29_alg».proof.Proof.KernelIdeal.Region5
import proofs.«155458_g54082228191885_cont_9to1c4b_454_29_alg».proof.Proof.KernelIdeal.Region6
import proofs.«155458_g54082228191885_cont_9to1c4b_454_29_alg».proof.Proof.KernelIdeal.Region7
import proofs.«155458_g54082228191885_cont_9to1c4b_454_29_alg».proof.Proof.KernelIdeal.Region8
import proofs.«155458_g54082228191885_cont_9to1c4b_454_29_alg».proof.Proof.KernelIdeal.Region9
import proofs.«155458_g54082228191885_cont_9to1c4b_454_29_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The buffers' contents between items -/

/-- A valuation read at the TensorCore's references: what a region's proof data take. -/
abbrev rd (U : Dev nD → Valuation τ sig (Elt F)) : (c : Dev nD) → (b : Ref sig .tc) → Buf (Elt F) ((c : Thread nD τ).loc b) :=
  fun c b => U c b

def U0 (c : Dev nD) : Valuation τ sig (Elt F) := fun b => m (c, b)
def U1 (c : Dev nD) : Valuation τ sig (Elt F) :=
  Function.update (U0 m c) main_v0 ((Region0.dat (rd (U0 m)) c).arrAt 2 cfg0.N)
def U2 (c : Dev nD) : Valuation τ sig (Elt F) :=
  Function.update (Function.update (U1 m c) main_v1_0 ((Region1.dat (rd (U1 m)) c).arrAt 3 cfg1.N))
    main_v1_1 ((Region1.dat (rd (U1 m)) c).arrAt 4 cfg1.N)
def U3 (c : Dev nD) : Valuation τ sig (Elt F) :=
  Function.update (U2 m c) main_v2 ((Region2.dat (rd (U2 m)) c).arrAt 3 cfg2.N)
def U4 (c : Dev nD) : Valuation τ sig (Elt F) :=
  Function.update (U3 m c) main_v3 ((Region3.dat (rd (U3 m)) c).arrAt 3 cfg3.N)
def U5 (c : Dev nD) : Valuation τ sig (Elt F) :=
  Function.update (Function.update (U4 m c) main_v4_0 ((Region4.dat (rd (U4 m)) c).arrAt 3 cfg4.N))
    main_v4_1 ((Region4.dat (rd (U4 m)) c).arrAt 4 cfg4.N)
def U6 (c : Dev nD) : Valuation τ sig (Elt F) :=
  Function.update (U5 m c) main_v5 ((Region5.dat (rd (U5 m)) c).arrAt 3 cfg5.N)
def U7 (c : Dev nD) : Valuation τ sig (Elt F) :=
  Function.update (U6 m c) main_v6 ((Region6.dat (rd (U6 m)) c).arrAt 3 cfg6.N)
def U8 (c : Dev nD) : Valuation τ sig (Elt F) :=
  Function.update (U7 m c) main_v7 ((Region7.dat (rd (U7 m)) c).arrAt 3 cfg7.N)
def U9 (c : Dev nD) : Valuation τ sig (Elt F) :=
  Function.update (U8 m c) main_v8 ((Region8.dat (rd (U8 m)) c).arrAt 2 cfg8.N)
def U10 (c : Dev nD) : Valuation τ sig (Elt F) := StableHlo.after hostOps9 (U9 m c)
def U11 (c : Dev nD) : Valuation τ sig (Elt F) :=
  Function.update (U10 m c) main_v10 ((Region9.dat (rd (U10 m)) c).arrAt 4 cfg9.N)

/-- Every pipeline's proof data, each at its region's entry contents. -/
def pdats : (p : Fin 10) → (c : Dev nD) → Dat τ (Elt F) Unit ℕ (Pipeline.UD sig nD τ) ℕ (Pipeline.pin (pcfgs (F := F)) adm p) c
  | ⟨0, _⟩ => fun c => Region0.dat (rd (U0 m)) c
  | ⟨1, _⟩ => fun c => Region1.dat (rd (U1 m)) c
  | ⟨2, _⟩ => fun c => Region2.dat (rd (U2 m)) c
  | ⟨3, _⟩ => fun c => Region3.dat (rd (U3 m)) c
  | ⟨4, _⟩ => fun c => Region4.dat (rd (U4 m)) c
  | ⟨5, _⟩ => fun c => Region5.dat (rd (U5 m)) c
  | ⟨6, _⟩ => fun c => Region6.dat (rd (U6 m)) c
  | ⟨7, _⟩ => fun c => Region7.dat (rd (U7 m)) c
  | ⟨8, _⟩ => fun c => Region8.dat (rd (U8 m)) c
  | ⟨9, _⟩ => fun c => Region9.dat (rd (U10 m)) c

abbrev L0 : GSem nD τ sig → Finset Unit := fun _ => ∅
abbrev lv0 : GSem nD τ sig → Unit → ℕ := fun _ _ => 0

/-- A reference other than `r` keeps its contents under an update at `r`. -/
theorem upd_ne (U : Valuation τ sig (Elt F)) (r b : Ref sig .tc) (h : b ≠ r) (x) :
    Function.update U r x b = U b :=
  Function.update_of_ne (StableHlo.devRef_ne_of_ne h : (Proc.devRef .tc b : DevRef τ sig) ≠ Proc.devRef .tc r) _ _

theorem upd_self (U : Valuation τ sig (Elt F)) (r : Ref sig .tc) (x) : Function.update U r x r = x :=
  Function.update_self _ _ _

/-! ## After each region: every window's array at the next contents, every other buffer as before -/

theorem hF0 (c : Dev nD) : ∀ w : Fin 3, (Region0.dat (rd (U0 m)) c).arrAt w cfg0.N = U1 m c (Pipeline.arrRef spec0 w)
  | 0 => ((Region0.dat (rd (U0 m)) c).arrAt_in 0 rfl _).trans (by unfold U1; rw [upd_ne _ _ _ (by decide)]; rfl)
  | 1 => ((Region0.dat (rd (U0 m)) c).arrAt_in 1 rfl _).trans (by unfold U1; rw [upd_ne _ _ _ (by decide)]; rfl)
  | 2 => by unfold U1; exact (upd_self _ _ _).symm
  | ⟨_ + 3, h⟩ => absurd h (by omega)
theorem hrest0 (c : Dev nD) (b : Ref sig .tc) (hb : b ∉ Finset.univ.image (Pipeline.arrRef spec0)) : U1 m c b = U0 m c b := by
  unfold U1
  exact upd_ne _ _ _ (fun e => hb (Finset.mem_image.mpr ⟨2, Finset.mem_univ _, e.symm⟩)) _

theorem hF1 (c : Dev nD) : ∀ w : Fin 5, (Region1.dat (rd (U1 m)) c).arrAt w cfg1.N = U2 m c (Pipeline.arrRef spec1 w)
  | 0 => ((Region1.dat (rd (U1 m)) c).arrAt_in 0 rfl _).trans (by unfold U2; rw [upd_ne _ _ _ (by decide), upd_ne _ _ _ (by decide)]; rfl)
  | 1 => ((Region1.dat (rd (U1 m)) c).arrAt_in 1 rfl _).trans (by unfold U2; rw [upd_ne _ _ _ (by decide), upd_ne _ _ _ (by decide)]; rfl)
  | 2 => ((Region1.dat (rd (U1 m)) c).arrAt_in 2 rfl _).trans (by unfold U2; rw [upd_ne _ _ _ (by decide), upd_ne _ _ _ (by decide)]; rfl)
  | 3 => by unfold U2; rw [upd_ne _ _ _ (by decide)]; exact (upd_self _ _ _).symm
  | 4 => by unfold U2; exact (upd_self _ _ _).symm
  | ⟨_ + 5, h⟩ => absurd h (by omega)
theorem hrest1 (c : Dev nD) (b : Ref sig .tc) (hb : b ∉ Finset.univ.image (Pipeline.arrRef spec1)) : U2 m c b = U1 m c b := by
  unfold U2
  rw [upd_ne _ _ _ (fun e => hb (Finset.mem_image.mpr ⟨4, Finset.mem_univ _, e.symm⟩)),
    upd_ne _ _ _ (fun e => hb (Finset.mem_image.mpr ⟨3, Finset.mem_univ _, e.symm⟩))]

theorem hF2 (c : Dev nD) : ∀ w : Fin 4, (Region2.dat (rd (U2 m)) c).arrAt w cfg2.N = U3 m c (Pipeline.arrRef spec2 w)
  | 0 => ((Region2.dat (rd (U2 m)) c).arrAt_in 0 rfl _).trans (by unfold U3; rw [upd_ne _ _ _ (by decide)]; rfl)
  | 1 => ((Region2.dat (rd (U2 m)) c).arrAt_in 1 rfl _).trans (by unfold U3; rw [upd_ne _ _ _ (by decide)]; rfl)
  | 2 => ((Region2.dat (rd (U2 m)) c).arrAt_in 2 rfl _).trans (by unfold U3; rw [upd_ne _ _ _ (by decide)]; rfl)
  | 3 => by unfold U3; exact (upd_self _ _ _).symm
  | ⟨_ + 4, h⟩ => absurd h (by omega)
theorem hrest2 (c : Dev nD) (b : Ref sig .tc) (hb : b ∉ Finset.univ.image (Pipeline.arrRef spec2)) : U3 m c b = U2 m c b := by
  unfold U3
  exact upd_ne _ _ _ (fun e => hb (Finset.mem_image.mpr ⟨3, Finset.mem_univ _, e.symm⟩)) _

theorem hF3 (c : Dev nD) : ∀ w : Fin 4, (Region3.dat (rd (U3 m)) c).arrAt w cfg3.N = U4 m c (Pipeline.arrRef spec3 w)
  | 0 => ((Region3.dat (rd (U3 m)) c).arrAt_in 0 rfl _).trans (by unfold U4; rw [upd_ne _ _ _ (by decide)]; rfl)
  | 1 => ((Region3.dat (rd (U3 m)) c).arrAt_in 1 rfl _).trans (by unfold U4; rw [upd_ne _ _ _ (by decide)]; rfl)
  | 2 => ((Region3.dat (rd (U3 m)) c).arrAt_in 2 rfl _).trans (by unfold U4; rw [upd_ne _ _ _ (by decide)]; rfl)
  | 3 => by unfold U4; exact (upd_self _ _ _).symm
  | ⟨_ + 4, h⟩ => absurd h (by omega)
theorem hrest3 (c : Dev nD) (b : Ref sig .tc) (hb : b ∉ Finset.univ.image (Pipeline.arrRef spec3)) : U4 m c b = U3 m c b := by
  unfold U4
  exact upd_ne _ _ _ (fun e => hb (Finset.mem_image.mpr ⟨3, Finset.mem_univ _, e.symm⟩)) _

theorem hF4 (c : Dev nD) : ∀ w : Fin 5, (Region4.dat (rd (U4 m)) c).arrAt w cfg4.N = U5 m c (Pipeline.arrRef spec4 w)
  | 0 => ((Region4.dat (rd (U4 m)) c).arrAt_in 0 rfl _).trans (by unfold U5; rw [upd_ne _ _ _ (by decide), upd_ne _ _ _ (by decide)]; rfl)
  | 1 => ((Region4.dat (rd (U4 m)) c).arrAt_in 1 rfl _).trans (by unfold U5; rw [upd_ne _ _ _ (by decide), upd_ne _ _ _ (by decide)]; rfl)
  | 2 => ((Region4.dat (rd (U4 m)) c).arrAt_in 2 rfl _).trans (by unfold U5; rw [upd_ne _ _ _ (by decide), upd_ne _ _ _ (by decide)]; rfl)
  | 3 => by unfold U5; rw [upd_ne _ _ _ (by decide)]; exact (upd_self _ _ _).symm
  | 4 => by unfold U5; exact (upd_self _ _ _).symm
  | ⟨_ + 5, h⟩ => absurd h (by omega)
theorem hrest4 (c : Dev nD) (b : Ref sig .tc) (hb : b ∉ Finset.univ.image (Pipeline.arrRef spec4)) : U5 m c b = U4 m c b := by
  unfold U5
  rw [upd_ne _ _ _ (fun e => hb (Finset.mem_image.mpr ⟨4, Finset.mem_univ _, e.symm⟩)),
    upd_ne _ _ _ (fun e => hb (Finset.mem_image.mpr ⟨3, Finset.mem_univ _, e.symm⟩))]

theorem hF5 (c : Dev nD) : ∀ w : Fin 4, (Region5.dat (rd (U5 m)) c).arrAt w cfg5.N = U6 m c (Pipeline.arrRef spec5 w)
  | 0 => ((Region5.dat (rd (U5 m)) c).arrAt_in 0 rfl _).trans (by unfold U6; rw [upd_ne _ _ _ (by decide)]; rfl)
  | 1 => ((Region5.dat (rd (U5 m)) c).arrAt_in 1 rfl _).trans (by unfold U6; rw [upd_ne _ _ _ (by decide)]; rfl)
  | 2 => ((Region5.dat (rd (U5 m)) c).arrAt_in 2 rfl _).trans (by unfold U6; rw [upd_ne _ _ _ (by decide)]; rfl)
  | 3 => by unfold U6; exact (upd_self _ _ _).symm
  | ⟨_ + 4, h⟩ => absurd h (by omega)
theorem hrest5 (c : Dev nD) (b : Ref sig .tc) (hb : b ∉ Finset.univ.image (Pipeline.arrRef spec5)) : U6 m c b = U5 m c b := by
  unfold U6
  exact upd_ne _ _ _ (fun e => hb (Finset.mem_image.mpr ⟨3, Finset.mem_univ _, e.symm⟩)) _

theorem hF6 (c : Dev nD) : ∀ w : Fin 4, (Region6.dat (rd (U6 m)) c).arrAt w cfg6.N = U7 m c (Pipeline.arrRef spec6 w)
  | 0 => ((Region6.dat (rd (U6 m)) c).arrAt_in 0 rfl _).trans (by unfold U7; rw [upd_ne _ _ _ (by decide)]; rfl)
  | 1 => ((Region6.dat (rd (U6 m)) c).arrAt_in 1 rfl _).trans (by unfold U7; rw [upd_ne _ _ _ (by decide)]; rfl)
  | 2 => ((Region6.dat (rd (U6 m)) c).arrAt_in 2 rfl _).trans (by unfold U7; rw [upd_ne _ _ _ (by decide)]; rfl)
  | 3 => by unfold U7; exact (upd_self _ _ _).symm
  | ⟨_ + 4, h⟩ => absurd h (by omega)
theorem hrest6 (c : Dev nD) (b : Ref sig .tc) (hb : b ∉ Finset.univ.image (Pipeline.arrRef spec6)) : U7 m c b = U6 m c b := by
  unfold U7
  exact upd_ne _ _ _ (fun e => hb (Finset.mem_image.mpr ⟨3, Finset.mem_univ _, e.symm⟩)) _

theorem hF7 (c : Dev nD) : ∀ w : Fin 4, (Region7.dat (rd (U7 m)) c).arrAt w cfg7.N = U8 m c (Pipeline.arrRef spec7 w)
  | 0 => ((Region7.dat (rd (U7 m)) c).arrAt_in 0 rfl _).trans (by unfold U8; rw [upd_ne _ _ _ (by decide)]; rfl)
  | 1 => ((Region7.dat (rd (U7 m)) c).arrAt_in 1 rfl _).trans (by unfold U8; rw [upd_ne _ _ _ (by decide)]; rfl)
  | 2 => ((Region7.dat (rd (U7 m)) c).arrAt_in 2 rfl _).trans (by unfold U8; rw [upd_ne _ _ _ (by decide)]; rfl)
  | 3 => by unfold U8; exact (upd_self _ _ _).symm
  | ⟨_ + 4, h⟩ => absurd h (by omega)
theorem hrest7 (c : Dev nD) (b : Ref sig .tc) (hb : b ∉ Finset.univ.image (Pipeline.arrRef spec7)) : U8 m c b = U7 m c b := by
  unfold U8
  exact upd_ne _ _ _ (fun e => hb (Finset.mem_image.mpr ⟨3, Finset.mem_univ _, e.symm⟩)) _

theorem hF8 (c : Dev nD) : ∀ w : Fin 3, (Region8.dat (rd (U8 m)) c).arrAt w cfg8.N = U9 m c (Pipeline.arrRef spec8 w)
  | 0 => ((Region8.dat (rd (U8 m)) c).arrAt_in 0 rfl _).trans (by unfold U9; rw [upd_ne _ _ _ (by decide)]; rfl)
  | 1 => ((Region8.dat (rd (U8 m)) c).arrAt_in 1 rfl _).trans (by unfold U9; rw [upd_ne _ _ _ (by decide)]; rfl)
  | 2 => by unfold U9; exact (upd_self _ _ _).symm
  | ⟨_ + 3, h⟩ => absurd h (by omega)
theorem hrest8 (c : Dev nD) (b : Ref sig .tc) (hb : b ∉ Finset.univ.image (Pipeline.arrRef spec8)) : U9 m c b = U8 m c b := by
  unfold U9
  exact upd_ne _ _ _ (fun e => hb (Finset.mem_image.mpr ⟨2, Finset.mem_univ _, e.symm⟩)) _

theorem hrest9 (c : Dev nD) (b : Ref sig .tc) (hb : b ∉ Finset.univ.image (Pipeline.arrRef spec9)) : U11 m c b = U10 m c b := by
  unfold U11
  exact upd_ne _ _ _ (fun e => hb (Finset.mem_image.mpr ⟨4, Finset.mem_univ _, e.symm⟩)) _

/-! ## The last region: two arrays each read through two windows -/

theorem image9 : Finset.univ.image (Pipeline.arrRef spec9) = ({main_v4_0, main_v9, main_v10} : Finset (Ref sig .tc)) := by decide

/-- The buffers behind region 9's windows: the embedding, the re-formatted reconstruction, the result. -/
theorem arrBufs9 (c : Dev nD) (V : (b : Ref sig .tc) → Buf (Elt F) ((c : Thread nD τ).loc b)) :
    (Pipeline.arrBufs spec9 c V : sProp 𝕄)
      = iprop((((c : Thread nD τ).loc main_v4_0) ↦{fullShare} V main_v4_0) ∗ (((c : Thread nD τ).loc main_v9) ↦{fullShare} V main_v9)
          ∗ (((c : Thread nD τ).loc main_v10) ↦{fullShare} V main_v10)) := by
  unfold Pipeline.arrBufs
  rw [image9, bigSep_insert (by decide), bigSep_insert (by decide), bigSep_singleton]
  rfl

/-- What region 9's five windows hold of them: each shared array half by each of its two windows, the result whole. -/
theorem arrays9 (c : Dev nD) (Fx : (w : Fin cfg9.W) → Buf (Elt F) ((cfg9.win w).arr.view.loc (c.tc : Thread nD τ))) :
    (Region9.dat (rd (U10 m)) c).arrays Fx
      = iprop((((c : Thread nD τ).loc main_v4_0) ↦{fullShare.left} Fx 0) ∗ (((c : Thread nD τ).loc main_v9) ↦{fullShare.left} Fx 1)
          ∗ (((c : Thread nD τ).loc main_v4_0) ↦{fullShare.right} Fx 2) ∗ (((c : Thread nD τ).loc main_v9) ↦{fullShare.right} Fx 3)
          ∗ (((c : Thread nD τ).loc main_v10) ↦{fullShare} Fx 4)) := by
  unfold Dat.arrays
  rw [bigSep_W9, (arr_whole9 0).set_eq_univ, (arr_whole9 1).set_eq_univ, (arr_whole9 4).set_eq_univ]
  rfl

/-- Entry: each shared array's full share dealt into the two halves. -/
theorem split9 (c : Dev nD) :
    (Pipeline.arrBufs spec9 c (fun b => U10 m c b) : sProp 𝕄)
      ⊢ (Region9.dat (rd (U10 m)) c).arrays ((Region9.dat (rd (U10 m)) c).arrAt · 0) := by
  rw [arrBufs9, arrays9]
  iintro ⟨Hg, Hh, Ho⟩
  ihave Hg2 := (pointsTo_share (PosShare.mem_left_op_right fullShare)).1 $$ Hg
  ihave Hh2 := (pointsTo_share (PosShare.mem_left_op_right fullShare)).1 $$ Hh
  icases Hg2 with ⟨Hgl, Hgr⟩
  icases Hh2 with ⟨Hhl, Hhr⟩
  isplitl [Hgl]; · iexact Hgl
  isplitl [Hhl]; · iexact Hhl
  isplitl [Hgr]; · iexact Hgr
  isplitl [Hhr]; · iexact Hhr
  iexact Ho

/-- Exit: the halves, still at the entry contents (an input array is never written), gathered again; the result at its
    last write-backs. -/
theorem join9 (c : Dev nD) :
    (Region9.dat (rd (U10 m)) c).arrays ((Region9.dat (rd (U10 m)) c).arrAt · cfg9.N)
      ⊢ (Pipeline.arrBufs spec9 c (fun b => U11 m c b) : sProp 𝕄) := by
  rw [arrBufs9, arrays9]
  rw [(Region9.dat (rd (U10 m)) c).arrAt_in 0 rfl cfg9.N, (Region9.dat (rd (U10 m)) c).arrAt_in 1 rfl cfg9.N,
    (Region9.dat (rd (U10 m)) c).arrAt_in 2 rfl cfg9.N, (Region9.dat (rd (U10 m)) c).arrAt_in 3 rfl cfg9.N]
  have eg : U11 m c main_v4_0 = U10 m c main_v4_0 := by unfold U11; exact upd_ne _ _ _ (by decide) _
  have eh : U11 m c main_v9 = U10 m c main_v9 := by unfold U11; exact upd_ne _ _ _ (by decide) _
  have eo : U11 m c main_v10 = (Region9.dat (rd (U10 m)) c).arrAt 4 cfg9.N := by unfold U11; exact upd_self _ _ _
  rw [eg, eh, eo]
  iintro ⟨Hgl, Hhl, Hgr, Hhr, Ho⟩
  isplitl [Hgl Hgr]
  · iapply (pointsTo_share (PosShare.mem_left_op_right fullShare)).2
    isplitl [Hgl]; · iexact Hgl
    iexact Hgr
  isplitl [Hhl Hhr]
  · iapply (pointsTo_share (PosShare.mem_left_op_right fullShare)).2
    isplitl [Hhl]; · iexact Hhl
    iexact Hhr
  iexact Ho

/-! ## The items as segments -/

/-- No pipeline of this program has a prefetched table. -/
abbrev noTable : IsEmpty (Fin 0) := inferInstance

set_option backward.isDefEq.respectTransparency.types false in
def reg0 : RegionSeg (pcfgs (F := F)) adm (pdats m) () defs₀ Variants.none L0 lv0 0 :=
  LibRegionRecord.classA (pcfgs (F := F)) adm (pdats m) defs₀ Variants.none L0 lv0 0 winFacts0 block_pos0 arr_whole0 stage_whole0
    noTable (fun _ _ => rfl) (fun _ _ => rfl) (fun _ _ => rfl) (fun _ _ => rfl)
    (fun c => Region0.body_obligation (rd (U0 m)) c) (U0 m) (U1 m) (fun _ _ => rfl) (hF0 m) (hrest0 m)
set_option backward.isDefEq.respectTransparency.types false in
def reg1 : RegionSeg (pcfgs (F := F)) adm (pdats m) () defs₀ Variants.none L0 lv0 1 :=
  LibRegionRecord.classA (pcfgs (F := F)) adm (pdats m) defs₀ Variants.none L0 lv0 1 winFacts1 block_pos1 arr_whole1 stage_whole1
    noTable (fun _ _ => rfl) (fun _ _ => rfl) (fun _ _ => rfl) (fun _ _ => rfl)
    (fun c => Region1.body_obligation (rd (U1 m)) c) (U1 m) (U2 m) (fun _ _ => rfl) (hF1 m) (hrest1 m)
set_option backward.isDefEq.respectTransparency.types false in
def reg2 : RegionSeg (pcfgs (F := F)) adm (pdats m) () defs₀ Variants.none L0 lv0 2 :=
  LibRegionRecord.classA (pcfgs (F := F)) adm (pdats m) defs₀ Variants.none L0 lv0 2 winFacts2 block_pos2 arr_whole2 stage_whole2
    noTable (fun _ _ => rfl) (fun _ _ => rfl) (fun _ _ => rfl) (fun _ _ => rfl)
    (fun c => Region2.body_obligation (rd (U2 m)) c) (U2 m) (U3 m) (fun _ _ => rfl) (hF2 m) (hrest2 m)
set_option backward.isDefEq.respectTransparency.types false in
def reg3 : RegionSeg (pcfgs (F := F)) adm (pdats m) () defs₀ Variants.none L0 lv0 3 :=
  LibRegionRecord.classA (pcfgs (F := F)) adm (pdats m) defs₀ Variants.none L0 lv0 3 winFacts3 block_pos3 arr_whole3 stage_whole3
    noTable (fun _ _ => rfl) (fun _ _ => rfl) (fun _ _ => rfl) (fun _ _ => rfl)
    (fun c => Region3.body_obligation (rd (U3 m)) c) (U3 m) (U4 m) (fun _ _ => rfl) (hF3 m) (hrest3 m)
set_option backward.isDefEq.respectTransparency.types false in
def reg4 : RegionSeg (pcfgs (F := F)) adm (pdats m) () defs₀ Variants.none L0 lv0 4 :=
  LibRegionRecord.classA (pcfgs (F := F)) adm (pdats m) defs₀ Variants.none L0 lv0 4 winFacts4 block_pos4 arr_whole4 stage_whole4
    noTable (fun _ _ => rfl) (fun _ _ => rfl) (fun _ _ => rfl) (fun _ _ => rfl)
    (fun c => Region4.body_obligation (rd (U4 m)) c) (U4 m) (U5 m) (fun _ _ => rfl) (hF4 m) (hrest4 m)
set_option backward.isDefEq.respectTransparency.types false in
def reg5 : RegionSeg (pcfgs (F := F)) adm (pdats m) () defs₀ Variants.none L0 lv0 5 :=
  LibRegionRecord.classA (pcfgs (F := F)) adm (pdats m) defs₀ Variants.none L0 lv0 5 winFacts5 block_pos5 arr_whole5 stage_whole5
    noTable (fun _ _ => rfl) (fun _ _ => rfl) (fun _ _ => rfl) (fun _ _ => rfl)
    (fun c => Region5.body_obligation (rd (U5 m)) c) (U5 m) (U6 m) (fun _ _ => rfl) (hF5 m) (hrest5 m)
set_option backward.isDefEq.respectTransparency.types false in
def reg6 : RegionSeg (pcfgs (F := F)) adm (pdats m) () defs₀ Variants.none L0 lv0 6 :=
  LibRegionRecord.classA (pcfgs (F := F)) adm (pdats m) defs₀ Variants.none L0 lv0 6 winFacts6 block_pos6 arr_whole6 stage_whole6
    noTable (fun _ _ => rfl) (fun _ _ => rfl) (fun _ _ => rfl) (fun _ _ => rfl)
    (fun c => Region6.body_obligation (rd (U6 m)) c) (U6 m) (U7 m) (fun _ _ => rfl) (hF6 m) (hrest6 m)
set_option backward.isDefEq.respectTransparency.types false in
def reg7 : RegionSeg (pcfgs (F := F)) adm (pdats m) () defs₀ Variants.none L0 lv0 7 :=
  LibRegionRecord.classA (pcfgs (F := F)) adm (pdats m) defs₀ Variants.none L0 lv0 7 winFacts7 block_pos7 arr_whole7 stage_whole7
    noTable (fun _ _ => rfl) (fun _ _ => rfl) (fun _ _ => rfl) (fun _ _ => rfl)
    (fun c => Region7.body_obligation (rd (U7 m)) c) (U7 m) (U8 m) (fun _ _ => rfl) (hF7 m) (hrest7 m)
set_option backward.isDefEq.respectTransparency.types false in
def reg8 : RegionSeg (pcfgs (F := F)) adm (pdats m) () defs₀ Variants.none L0 lv0 8 :=
  LibRegionRecord.classA (pcfgs (F := F)) adm (pdats m) defs₀ Variants.none L0 lv0 8 winFacts8 block_pos8 arr_whole8 stage_whole8
    noTable (fun _ _ => rfl) (fun _ _ => rfl) (fun _ _ => rfl) (fun _ _ => rfl)
    (fun c => Region8.body_obligation (rd (U8 m)) c) (U8 m) (U9 m) (fun _ _ => rfl) (hF8 m) (hrest8 m)
set_option backward.isDefEq.respectTransparency.types false in
def reg9 : RegionSeg (pcfgs (F := F)) adm (pdats m) () defs₀ Variants.none L0 lv0 9 :=
  LibRegionRecord.classShared (pcfgs (F := F)) adm (pdats m) defs₀ Variants.none L0 lv0 9 winFacts₀9 block_pos9 stage_whole9
    noTable (fun _ _ => rfl) (fun _ _ => rfl) (fun _ _ => rfl)
    (fun c => Region9.body_obligation (rd (U10 m)) c) (U10 m) (U11 m) (split9 m) (join9 m) (hrest9 m)

/-- The host stretch between regions 8 and 9 (the conversion of the reconstruction), over the unscoped buffers from `U9`. -/
def host9 : HostSeg (Ix := Unit) (Name := ℕ) (U := Pipeline.UD sig nD τ) (Lvl := ℕ) (pcfgs (F := F)) defs₀ Variants.none L0 lv0 :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (U9 m) LibRegionRecord.Rest

/-- @main's eleven items in order. -/
abbrev segs : List (Seg (pcfgs (F := F)) adm (pdats m) () defs₀ Variants.none L0 lv0) :=
  [.region (reg0 m), .region (reg1 m), .region (reg2 m), .region (reg3 m), .region (reg4 m), .region (reg5 m),
    .region (reg6 m), .region (reg7 m), .region (reg8 m), .host (host9 m), .region (reg9 m)]

theorem main_run (c : Dev nD) : main (F := F) c = Seg.run (segs m) := (main_chain c).trans (by chain_rfl)

/-! ## The run -/

set_option backward.isDefEq.respectTransparency.types false in
/-- Every weakly fair execution of @main from memory `m` with zero counters terminates, nothing faulting, and every
    unscoped buffer of every core ends at `U11`. -/
theorem run (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U11 m c b) :=
  Pipeline.θ_run_regions_kit_dev (pcfgs (F := F)) adm (pdats m) () cellOf_inj embL defs₀ Variants.none L0 lv0 m ρ main
    (fun _ => segs m)
    (fun c Q => by rw [main_run m c])
    (fun c => by simp only [segs, Seg.pipes_host, Seg.pipes_region, Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ LibRegionRecord.Rest c))
    (Tₙ := fun c => iprop(StableHlo.held (c : Thread nD τ) (Pipeline.ucRefs τ sig) (U11 m c) ∗ ∃ r, prngReg c r))
    (hch := fun c => ⟨.rfl, .rfl, .rfl, .rfl, .rfl, .rfl, .rfl, .rfl, .rfl, .rfl, .rfl,
      (show iprop(StableHlo.held (c : Thread nD τ) (Pipeline.ucRefs τ sig) (U11 m c) ∗ LibRegionRecord.Rest c)
          ⊢ (iprop((StableHlo.held (c : Thread nD τ) (Pipeline.ucRefs τ sig) (U11 m c) ∗ ∃ r, prngReg c r)
            ∗ ∃ W, owes (c : Thread nD τ) (0 : CellTallies nD τ sig Unit) W) : sProp 𝕄) from by
        iintro ⟨Hh, Hp, Ho⟩
        isplitr [Ho]
        · isplitl [Hh]; · iexact Hh
          iexact Hp
        iexact Ho)⟩)
    (hinit := by
      refine Pipeline.initEach L0 lv0 fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = U11 m c b)
    (hfin := fun c s' => by
      iintro ⟨⟨Hh, -⟩, HSI⟩
      unfold StableHlo.held
      imodintro
      iapply (pointsTo_read_all (Pipeline.ucRefs τ sig) (fun b => ((c : Thread nD τ).1, b)) (U11 m c) s')
      isplitl [Hh] <;> iassumption)
    (hQ := fun s h c => h c)

end Cert.KernelIdeal.Run

end
-- ==== Proof.KernelIdeal.Frame.lean ====
/-
  The frame claim of the idealized kernel program, read off its run: the program terminates without a fault and every
  argument array ends as launched. No region writes an argument (each region changes only its output windows' arrays,
  which are intermediate arrays or results), and the one host stretch writes only the converted reconstruction, so the
  final contents of an argument's buffer walk back, item by item, to the launch memory.
-/
import proofs.«155458_g54082228191885_cont_9to1c4b_454_29_alg».proof.Proof.KernelIdeal.Run

set_option maxRecDepth 16384

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The arrays some item writes. -/
abbrev written : List (Ref sig .tc) :=
  [main_v0, main_v1_0, main_v1_1, main_v2, main_v3, main_v4_0, main_v4_1, main_v5, main_v6, main_v7, main_v8, main_v9, main_v10]

/-- A buffer no item writes ends as launched. -/
theorem U11_unwritten (c : Dev nD) (r : Ref sig .tc) (h : ∀ x ∈ written, r ≠ x) : U11 m c r = m ((c : Thread nD τ).loc r) := by
  have h9 : r ∉ hostOps9_W := fun hm => h main_v9 (by simp [written]) (List.mem_singleton.mp hm)
  unfold U11; rw [upd_ne _ _ _ (h _ (by simp [written]))]
  unfold U10; rw [StableHlo.after_of_writes_sub hostOps9 _ hostOps9_writes h9]
  unfold U9; rw [upd_ne _ _ _ (h _ (by simp [written]))]
  unfold U8; rw [upd_ne _ _ _ (h _ (by simp [written]))]
  unfold U7; rw [upd_ne _ _ _ (h _ (by simp [written]))]
  unfold U6; rw [upd_ne _ _ _ (h _ (by simp [written]))]
  unfold U5; rw [upd_ne _ _ _ (h _ (by simp [written])), upd_ne _ _ _ (h _ (by simp [written]))]
  unfold U4; rw [upd_ne _ _ _ (h _ (by simp [written]))]
  unfold U3; rw [upd_ne _ _ _ (h _ (by simp [written]))]
  unfold U2; rw [upd_ne _ _ _ (h _ (by simp [written])), upd_ne _ _ _ (h _ (by simp [written]))]
  unfold U1; rw [upd_ne _ _ _ (h _ (by simp [written]))]
  rfl

/-- An unscoped TensorCore reference is among those the run's post reads. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame claim, at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (U11_unwritten m c main_arg0 (by decide)),
     (h c _ (mem_uc main_arg1 (by decide))).trans (U11_unwritten m c main_arg1 (by decide)),
     (h c _ (mem_uc main_arg2 (by decide))).trans (U11_unwritten m c main_arg2 (by decide)),
     (h c _ (mem_uc main_arg3 (by decide))).trans (U11_unwritten m c main_arg3 (by decide)),
     (h c _ (mem_uc main_arg4 (by decide))).trans (U11_unwritten m c main_arg4 (by decide)),
     (h c _ (mem_uc main_arg5 (by decide))).trans (U11_unwritten m c main_arg5 (by decide)),
     (h c _ (mem_uc main_arg6 (by decide))).trans (U11_unwritten m c main_arg6 (by decide)),
     (h c _ (mem_uc main_arg7 (by decide))).trans (U11_unwritten m c main_arg7 (by decide)),
     (h c _ (mem_uc main_arg8 (by decide))).trans (U11_unwritten m c main_arg8 (by decide)),
     (h c _ (mem_uc main_arg9 (by decide))).trans (U11_unwritten m c main_arg9 (by decide))⟩) (run m ρ)

end Cert.KernelIdeal.Run

end
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibErealAlgebra.lean ====
/-
  Algebra on the extended reals for sums of products whose factors are real numbers.

  The extended reals are a commutative additive monoid and a commutative multiplicative monoid, but
  multiplication does not distribute over addition when the common factor is infinite
  (`⊤ * (1 + -1) = 0` while `⊤ * 1 + ⊤ * -1 = ⊥`). Every law below that moves a factor across a sum
  therefore asks that the factors be real numbers; the laws that only regroup or reorder a sum do not.

  * `IsReal x`: the extended real `x` is (the image of) a real number; closed under `0`, `1`, `+`, `*`,
    `max`, finite sums, and the quotient by a nonzero real.
  * `quot_eq_mul_recip`: dividing by a nonzero real is multiplying by the quotient `1 / c` computed first.
  * `sum_mul_add_indicator`: a row times a matrix column to which a unit vector was added is the row times the
    column plus the row's entry at the unit vector's position — the identity that folds a residual
    connection `h + h·Wᵀ` into one product `h·(W + I)ᵀ`.
-/
import Idealize.ShloMosaic.PureOps.Ideal

noncomputable section

namespace ErealAlgebra

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal (0 : EReal) := ⟨0, by simp⟩

theorem IsReal.one : IsReal (1 : EReal) := ⟨1, by simp⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type*} (s : Finset ι) (f : ι → EReal) (hf : ∀ i ∈ s, IsReal (f i)) :
    IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The quotient of a real number by a nonzero real number is a real number. -/
theorem IsReal.div_coe {x : EReal} (hx : IsReal x) {c : ℝ} (hc : c ≠ 0) : IsReal (Ideal.div x (c : EReal)) := by
  rw [Ideal.div_coe hc]
  exact hx.mul (IsReal.coe _)

/-- Dividing by a nonzero real `c` is multiplying by the quotient `1 / c` computed first, for every extended
    real dividend. -/
theorem quot_eq_mul_recip (s : EReal) {c : ℝ} (hc : c ≠ 0) :
    s * Ideal.div 1 (c : EReal) = Ideal.div s (c : EReal) := by
  rw [Ideal.div_coe hc, Ideal.div_coe hc, one_mul]

/-- The coercion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row `h` of real numbers times a column `w + e`, where `e` is the unit vector at `j`, is the row times `w`
    plus the row's entry at `j`. -/
theorem sum_mul_add_indicator {κ : Type*} [Fintype κ] [DecidableEq κ] (h w e : κ → EReal) (j : κ)
    (hh : ∀ k, IsReal (h k)) (hw : ∀ k, IsReal (w k)) (he : ∀ k, e k = if k = j then 1 else 0) :
    ∑ k, h k * (w k + e k) = (∑ k, h k * w k) + h j := by
  choose hr hhr using hh
  choose wr hwr using hw
  have h1 : ∀ k, h k * (w k + e k) = h k * w k + (if k = j then h k else 0) := by
    intro k
    rw [he k, hhr k, hwr k]
    by_cases hk : k = j
    · simp only [hk, if_true]
      rw [← EReal.coe_one, ← EReal.coe_add, ← EReal.coe_mul, ← EReal.coe_mul, ← EReal.coe_add]
      congr 1; ring
    · simp only [hk, if_false, add_zero]
  simp only [h1]
  rw [Finset.sum_add_distrib, Finset.sum_ite_eq' Finset.univ j h]
  simp

end ErealAlgebra

end
-- ==== Proof.LibHostIndexingReal.lean ====
/-
  The host's gather and accumulating scatter keep an array of real numbers real, at the ideal instance.

  `stablehlo.gather` reads, at every result index, ONE element of its operand (the start index read signed and clamped so
  that the slice fits), so a gather of an array of real numbers holds real numbers whatever the integer indices are.
  An accumulating float scatter is, at the ideal instance, each operand element plus the finite sum of the update elements
  whose index lands on it (an update landing outside the operand contributes nothing), so it too holds real numbers when
  the operand and the updates do — again whatever the integer indices are. Together: a segment sum of rows gathered from a
  finite table is finite, with no precondition on the edge lists.
-/
import proofs.«155458_g54082228191885_cont_9to1c4b_454_29_alg».proof.Proof.LibErealAlgebra
import Idealize.ShloMosaic.PureOps.Contract
import Idealize.ShloMosaic.PureOps.ShapeOps
import Idealize.ShloMosaic.PureOps.Ideal

noncomputable section

namespace ErealAlgebra

open Idealize.ShloMosaic

/-- A gather of real numbers is real, at every result index and for every array of start indices. -/
theorem gather_isReal {s si t : Shape} {w : Nat} (d : GatherDims s si t) (x : s.Idx → EReal) (idx : IVec si w)
    (hx : ∀ i, IsReal (x i)) (j : t.Idx) : IsReal (Host.gather d x idx j) :=
  hx _

/-- An accumulating scatter of real updates into a real operand is real, at every index and for every array of scatter
    indices. -/
theorem scatterAdd_isReal {s si u : Shape} {w : Nat} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (IsReal.sum _ _ fun j _ => hu j)

/-- A contraction of real factors — the sum over a finite index type of products — is real: every element of a matrix
    product of real matrices. -/
theorem sum_mul_isReal {κ : Type*} [Fintype κ] (l r : κ → EReal) (hl : ∀ k, IsReal (l k)) (hr : ∀ k, IsReal (r k)) :
    IsReal (∑ k, l k * r k) :=
  IsReal.sum _ _ fun k _ => (hl k).mul (hr k)

end ErealAlgebra

end
-- ==== Proof.LibMatProd.lean ====
/-
  The matrix product as one whole-array function, and the two spellings of it at the ideal instance.

  `matProd x w` is the `[P, Q]` array whose entry `(p, q)` is `∑ k, x (p, k) · w (k, q)`. A host `dot_general` with
  plain dimension numbers (rows × contraction times contraction × columns, no batch axis) IS this function of its two
  operands, and so is a `tpu.matmul` into a zero accumulator. The product of two arrays of real numbers holds real
  numbers, and row `p` of the product depends on row `p` of the left operand only.
-/
import proofs.«155458_g54082228191885_cont_9to1c4b_454_29_alg».proof.Proof.LibPlainDot
import proofs.«155458_g54082228191885_cont_9to1c4b_454_29_alg».proof.Proof.LibErealAlgebra
import proofs.«155458_g54082228191885_cont_9to1c4b_454_29_alg».proof.Proof.LibHostIndexingReal

noncomputable section

namespace MatProd

open Idealize.ShloMosaic Idealize.ShloMosaic.ValueIdx PlainDot ErealAlgebra

variable {P K Q : Nat}

/-- The `[P, K] × [K, Q]` product, entry by entry. -/
def matProd (x : (⟨2, ![P, K]⟩ : Shape).Idx → EReal) (w : (⟨2, ![K, Q]⟩ : Shape).Idx → EReal) :
    (⟨2, ![P, Q]⟩ : Shape).Idx → EReal :=
  fun i => ∑ k : Fin K, x (ix2 (i 0) k) * w (ix2 k (i 1))

theorem matProd_apply (x : (⟨2, ![P, K]⟩ : Shape).Idx → EReal) (w : (⟨2, ![K, Q]⟩ : Shape).Idx → EReal) (p : Fin P) (q : Fin Q) :
    matProd x w (ix2 p q) = ∑ k : Fin K, x (ix2 p k) * w (ix2 k q) := rfl

variable {d : DotDims ⟨2, ![P, K]⟩ ⟨2, ![K, Q]⟩ ⟨2, ![P, Q]⟩}

/-- The host's plain `dot_general` is the product. -/
theorem dotGeneral_eq (h : IsPlain d) {φ₁ φ₂ : FTy} (sched : HostSchedule) (l : FVec Ideal ⟨2, ![P, K]⟩ φ₁)
    (r : FVec Ideal ⟨2, ![K, Q]⟩ φ₂) :
    FloatOps.dotGeneral d none sched l r = matProd l r := by
  funext i
  obtain ⟨p, q, rfl⟩ : ∃ (p : Fin P) (q : Fin Q), i = ix2 p q := ⟨i 0, i 1, eq_ix2 i⟩
  exact dotGeneral_apply h sched l r p q

/-- A product of arrays of real numbers holds real numbers. -/
theorem matProd_isReal (x : (⟨2, ![P, K]⟩ : Shape).Idx → EReal) (w : (⟨2, ![K, Q]⟩ : Shape).Idx → EReal)
    (hx : ∀ i, IsReal (x i)) (hw : ∀ i, IsReal (w i)) (i : (⟨2, ![P, Q]⟩ : Shape).Idx) : IsReal (matProd x w i) :=
  sum_mul_isReal _ _ (fun _ => hx _) (fun _ => hw _)

end MatProd

end
-- ==== Proof.LibSigmoidTanh.lean ====
/-
  The logistic function written through the hyperbolic tangent, on the extended reals.

  For a real number a,   1 / (1 + e^(-a)) = (1 + tanh(a/2)) / 2 :
  with u = e^(a/2) > 0 one has e^(-a/2) = 1/u and e^(-a) = 1/u², so the left side is u²/(u² + 1), and
  tanh(a/2) = (u - 1/u)/(u + 1/u) = (u² - 1)/(u² + 1), so the right side is (2u²/(u² + 1))/2, the same number.
  Adding the identity at two reals a and b gives the form in which a sum of two logistic values is
  computed with one transcendental per term:
      1/(1 + e^(-a)) + 1/(1 + e^(-b)) = 1 + (1/2)·(tanh(a/2) + tanh(b/2)).
  On the extended reals the law is stated for REAL arguments only: there every operation involved (the
  product with 1/2, the negation, the exponential, the sum with 1, the quotient by a number that is not zero, the
  hyperbolic tangent) is the real one, so the extended-real equation is the coercion of the real one.
-/
import Idealize.ShloMosaic.PureOps.Ideal
import Idealize.ShloMosaic.PureOps.Ideal.Laws
import Mathlib.Analysis.SpecialFunctions.Trigonometric.DerivHyp

noncomputable section

namespace LibSigmoidTanh

open Idealize.ShloMosaic

/-- The logistic function of a real number is half of one plus the hyperbolic tangent of half the number. -/
theorem logistic_eq_tanh (a : ℝ) : 1 / (1 + Real.exp (-a)) = (1 + Real.tanh ((1 / 2) * a)) / 2 := by
  have hpos : 0 < Real.exp ((1 / 2) * a) := Real.exp_pos _
  have hinv : Real.exp (-((1 / 2) * a)) = (Real.exp ((1 / 2) * a))⁻¹ := Real.exp_neg _
  have hsq : Real.exp (-a) = (Real.exp ((1 / 2) * a))⁻¹ * (Real.exp ((1 / 2) * a))⁻¹ := by
    rw [← hinv, ← Real.exp_add]; congr 1; ring
  rw [Real.tanh_eq_sinh_div_cosh, Real.sinh_eq, Real.cosh_eq, hinv, hsq]
  have hne : Real.exp ((1 / 2) * a) ≠ 0 := hpos.ne'
  have hden : Real.exp ((1 / 2) * a) * Real.exp ((1 / 2) * a) + 1 ≠ 0 := by positivity
  field_simp
  ring

/-- The sum of two logistic values as one plus half the sum of two hyperbolic tangents, over the reals. -/
theorem logistic_add_logistic (a b : ℝ) :
    1 / (1 + Real.exp (-a)) + 1 / (1 + Real.exp (-b))
      = 1 + (1 / 2) * (Real.tanh ((1 / 2) * a) + Real.tanh ((1 / 2) * b)) := by
  rw [logistic_eq_tanh a, logistic_eq_tanh b]; ring

/-- One plus the exponential of a real number is not zero. -/
theorem one_add_exp_ne_zero (a : ℝ) : (1 : ℝ) + Real.exp (-a) ≠ 0 := by
  have := Real.exp_pos (-a); positivity

/-- The same law on the extended reals, at real arguments: the quotient `1 / (1 + exp (-a))` of the extended reals
    (the quotient whose value at a zero divisor is an infinity) and the hyperbolic tangent of the extended reals
    (`-1` and `1` at the infinities) are the real ones there. -/
theorem ideal_logistic_add_logistic (a b : ℝ) :
    Ideal.div 1 (1 + Ideal.exp (-(a : EReal))) + Ideal.div 1 (1 + Ideal.exp (-(b : EReal)))
      = 1 + ((1 / 2 : ℝ) : EReal) * (Ideal.tanh (((1 / 2 : ℝ) : EReal) * (a : EReal))
          + Ideal.tanh (((1 / 2 : ℝ) : EReal) * (b : EReal))) := by
  have ha : (1 : EReal) + Ideal.exp (-(a : EReal)) = (((1 : ℝ) + Real.exp (-a) : ℝ) : EReal) := by
    rw [← EReal.coe_neg, Ideal.exp_coe, EReal.coe_add, EReal.coe_one]
  have hb : (1 : EReal) + Ideal.exp (-(b : EReal)) = (((1 : ℝ) + Real.exp (-b) : ℝ) : EReal) := by
    rw [← EReal.coe_neg, Ideal.exp_coe, EReal.coe_add, EReal.coe_one]
  rw [ha, hb, Ideal.div_coe (one_add_exp_ne_zero a), Ideal.div_coe (one_add_exp_ne_zero b), one_mul, one_mul,
    ← EReal.coe_mul, ← EReal.coe_mul, Ideal.tanh_coe, Ideal.tanh_coe, ← EReal.coe_add, ← EReal.coe_add, ← EReal.coe_mul,
    ← EReal.coe_one, ← EReal.coe_add, logistic_add_logistic a b]

/-- The binary32 word `0x3F000000` denotes one half. -/
theorem ofBits_half : Ideal.ofBits .f32 0x3F000000#32 = ((1 / 2 : ℝ) : EReal) := by
  simp [Ideal.ofBits, Ideal.ieee, -EReal.coe_mul]; norm_num

/-- The binary32 word `0x3F800000` denotes one. -/
theorem ofBits_one : Ideal.ofBits .f32 0x3F800000#32 = 1 := by
  simp [Ideal.ofBits, Ideal.ieee, -EReal.coe_mul]; norm_num

end LibSigmoidTanh

end
-- ==== Proof.Spec.lean ====
/-
  The autoencoder's three results as whole-array functions of the ten argument arrays, on the extended reals.

  With A the 10000 × 10000 adjacency matrix, x the 10000 × 256 features and W₁ … W₈ the layers' weights, every layer is
      support = Z · W,   Z' = max(A · support, 0)
  (the fourth layer, which produces the embedding, has no maximum). Written through the supports, the form in which a
  pipelined kernel computes them (each pass turns one support matrix into the next):
      s₁ = x · W₁,  sₖ₊₁ = max(A · sₖ, 0) · Wₖ₊₁ (k = 1, 2, 3),  Zg = A · s₄,  s₅ = Zg · W₅,
      sₖ₊₁ = max(A · sₖ, 0) · Wₖ₊₁ (k = 5, 6, 7),  Zh = max(A · s₈, 0).
  The reconstructed adjacency is  σ(Zg Zgᵀ) + σ(Zh Zhᵀ)  with σ the logistic function; `adjHatTanh` is the same number
  written with one hyperbolic tangent per term, 1 + ½·(tanh(½·Zg Zgᵀ) + tanh(½·Zh Zhᵀ)), and `adjHatLogistic` the form
  1/(1 + e^(−a)) + 1/(1 + e^(−b)); they agree wherever the two Gram entries are real numbers (`adjHat_forms`).
  Products are entry-by-entry finite sums (`MatProd.matProd`), so every intermediate array is real when the arguments are.
-/
import proofs.«155458_g54082228191885_cont_9to1c4b_454_29_alg».proof.Proof.LibMatProd
import proofs.«155458_g54082228191885_cont_9to1c4b_454_29_alg».proof.Proof.LibSigmoidTanh

noncomputable section

namespace Gae

open Idealize.ShloMosaic Idealize.ShloMosaic.ValueIdx MatProd ErealAlgebra

/-- A P × Q array of extended reals. -/
abbrev Mat (P Q : Nat) : Type := (⟨2, ![P, Q]⟩ : Shape).Idx → EReal

variable {N K Q : Nat}

/-- The rectifier, entry by entry. -/
def relu (z : Mat N K) : Mat N K := fun i => max (z i) 0

/-- One aggregation pass: from a support matrix to the next, max(A · s, 0) · W. -/
def pass (A : Mat N N) (s : Mat N K) (W : Mat K Q) : Mat N Q := matProd (relu (matProd A s)) W

/-- The Gram matrix Z Zᵀ, entry by entry. -/
def gram (z : Mat N K) : Mat N N := fun i => ∑ k : Fin K, z (ix2 (i 0) k) * z (ix2 (i 1) k)

/-- σ(a) + σ(b), entry by entry, with one hyperbolic tangent per term. -/
def adjHatTanh (zg : Mat N K) (zh : Mat N Q) : Mat N N := fun i =>
  1 + ((1 / 2 : ℝ) : EReal) * (Ideal.tanh (((1 / 2 : ℝ) : EReal) * gram zg i) + Ideal.tanh (((1 / 2 : ℝ) : EReal) * gram zh i))

/-- σ(a) + σ(b), entry by entry, as 1/(1 + e^(−a)) + 1/(1 + e^(−b)). -/
def adjHatLogistic (zg : Mat N K) (zh : Mat N Q) : Mat N N := fun i =>
  Ideal.div 1 (1 + Ideal.exp (-(gram zg i))) + Ideal.div 1 (1 + Ideal.exp (-(gram zh i)))

theorem relu_isReal (z : Mat N K) (hz : ∀ i, IsReal (z i)) (i) : IsReal (relu z i) := (hz i).max IsReal.zero

theorem pass_isReal (A : Mat N N) (s : Mat N K) (W : Mat K Q) (hA : ∀ i, IsReal (A i)) (hs : ∀ i, IsReal (s i))
    (hW : ∀ i, IsReal (W i)) (i) : IsReal (pass A s W i) :=
  matProd_isReal _ _ (relu_isReal _ (matProd_isReal _ _ hA hs)) hW i

theorem gram_isReal (z : Mat N K) (hz : ∀ i, IsReal (z i)) (i) : IsReal (gram z i) :=
  IsReal.sum _ _ fun k _ => (hz _).mul (hz _)

/-- The two spellings of σ(a) + σ(b) agree where both Gram matrices are real. -/
theorem adjHat_forms (zg : Mat N K) (zh : Mat N Q) (hg : ∀ i, IsReal (zg i)) (hh : ∀ i, IsReal (zh i)) :
    adjHatLogistic zg zh = adjHatTanh zg zh := by
  funext i
  obtain ⟨a, ha⟩ := gram_isReal zg hg i
  obtain ⟨b, hb⟩ := gram_isReal zh hh i
  unfold adjHatLogistic adjHatTanh
  rw [ha, hb]
  exact LibSigmoidTanh.ideal_logistic_add_logistic a b

/-! ## The network -/

variable (A : Mat 10000 10000) (x : Mat 10000 256) (W1 : Mat 256 256) (W2 : Mat 256 128) (W3 : Mat 128 64) (W4 : Mat 64 32)
  (W5 : Mat 32 64) (W6 : Mat 64 128) (W7 : Mat 128 256) (W8 : Mat 256 256)

def sup1 : Mat 10000 256 := matProd x W1
def sup2 : Mat 10000 128 := pass A (sup1 x W1) W2
def sup3 : Mat 10000 64 := pass A (sup2 A x W1 W2) W3
def sup4 : Mat 10000 32 := pass A (sup3 A x W1 W2 W3) W4
/-- The embedding. -/
def zGae : Mat 10000 32 := matProd A (sup4 A x W1 W2 W3 W4)
def sup5 : Mat 10000 64 := matProd (zGae A x W1 W2 W3 W4) W5
def sup6 : Mat 10000 128 := pass A (sup5 A x W1 W2 W3 W4 W5) W6
def sup7 : Mat 10000 256 := pass A (sup6 A x W1 W2 W3 W4 W5 W6) W7
def sup8 : Mat 10000 256 := pass A (sup7 A x W1 W2 W3 W4 W5 W6 W7) W8
/-- The reconstruction. -/
def zHat : Mat 10000 256 := relu (matProd A (sup8 A x W1 W2 W3 W4 W5 W6 W7 W8))

/-- Every argument array real. -/
structure RealArgs : Prop where
  hA : ∀ i, IsReal (A i)
  hx : ∀ i, IsReal (x i)
  h1 : ∀ i, IsReal (W1 i)
  h2 : ∀ i, IsReal (W2 i)
  h3 : ∀ i, IsReal (W3 i)
  h4 : ∀ i, IsReal (W4 i)
  h5 : ∀ i, IsReal (W5 i)
  h6 : ∀ i, IsReal (W6 i)
  h7 : ∀ i, IsReal (W7 i)
  h8 : ∀ i, IsReal (W8 i)

variable {A x W1 W2 W3 W4 W5 W6 W7 W8}

theorem zGae_isReal (h : RealArgs A x W1 W2 W3 W4 W5 W6 W7 W8) (i) : IsReal (zGae A x W1 W2 W3 W4 i) :=
  matProd_isReal _ _ h.hA (pass_isReal _ _ _ h.hA (pass_isReal _ _ _ h.hA (pass_isReal _ _ _ h.hA
    (matProd_isReal _ _ h.hx h.h1) h.h2) h.h3) h.h4) i

theorem zHat_isReal (h : RealArgs A x W1 W2 W3 W4 W5 W6 W7 W8) (i) : IsReal (zHat A x W1 W2 W3 W4 W5 W6 W7 W8 i) :=
  relu_isReal _ (matProd_isReal _ _ h.hA (pass_isReal _ _ _ h.hA (pass_isReal _ _ _ h.hA (pass_isReal _ _ _ h.hA
    (matProd_isReal _ _ (zGae_isReal h) h.h5) h.h6) h.h7) h.h8)) i

end Gae

end
-- ==== Proof.KernelIdeal.Value0.lean ====
/-
  Region 0 on the extended reals: the array the region leaves is the product of the two arrays it finds.

  With x the 10000 × 256 feature matrix and W the 256 × 256 weights as the region finds them, the 10000 × 256 result
  array ends holding  x · W,  entry by entry:  result (r, q) = ∑ₖ x (r, k) · W (k, q).
  At grid point t the body's block is rows 1000·t … 1000·t + 999 of that matrix: its feature block is those rows of x, its
  weight block is the whole of W, the product is an exact finite sum and the change of format is the identity. Row r lies
  in the block of point r / 1000, so the ten blocks cover the result.
-/
import proofs.«155458_g54082228191885_cont_9to1c4b_454_29_alg».proof.Proof.KernelIdeal.Region0
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.ShloMosaic.Pipeline (Dat)
open Cert.KernelIdeal Cert.KernelIdeal.Gen

theorem plain1 : PlainDot.IsPlain dot_S1000x256_S256x256_S1000x256_1_0_0_1_n_n := ⟨rfl, rfl, rfl, rfl, rfl, rfl⟩

/-- The body's payload at row p, column q: the row of the feature block against the column of the weights. -/
theorem pay_apply (x : Vec Ideal S1000x256 .f32) (w : Vec Ideal S256x256 .f32) (p : Fin 1000) (q : Fin 256) :
    k0_pay1 x w (ix2 p q) = ∑ k : Fin 256, x (ix2 p k) * w (ix2 k q) := by
  unfold k0_pay1
  rw [truncf_apply]
  exact PlainDot.matmul_zero_apply plain1 x w p q

theorem hz : (![0, 0] : Fin 2 → Nat) = fun _ => 0 := funext fun a => by fin_cases a <;> rfl

/-- The printed index maps over the grid: the feature rows' and the result's block row is the point, every other block
    index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The feature block at point t is rows 1000·t … 1000·t + 999 of the feature matrix. -/
theorem blk0_apply (c : Dev nD) (t : Fin cfg0.N) (x : S1000x256.Idx) (k : S10000x256.Idx)
    (hk0 : (k 0).val = 1000 * t.val + (x 0).val) (hk1 : (k 1).val = (x 1).val) :
    (blk V c 0 t : Vec Ideal S1000x256 .f32) x = (V c main_arg0 : S10000x256.Idx → Elt Ideal .f32) k := by
  obtain ⟨e0, e1, -⟩ := idx_facts t
  unfold blk
  rw [View.read_apply]
  show V c main_arg0 _ = V c main_arg0 _
  congr 1
  funext a
  apply Fin.ext
  match a with
  | ⟨0, _⟩ => show win0_0.index t 0 * 1000 + 1 * (x 0).val = (k 0).val; rw [e0, hk0]; omega
  | ⟨1, _⟩ => show win0_0.index t 1 * 256 + 1 * (x 1).val = (k 1).val; rw [e1, hk1]; omega

/-- The weights window's block is the whole weight matrix at every point. -/
theorem blk1_eq (c : Dev nD) (t : Fin cfg0.N) :
    (blk V c 1 t : Vec Ideal S256x256 .f32) = (V c main_arg2 : S256x256.Idx → Elt Ideal .f32) := by
  obtain ⟨-, -, e0, e1, -⟩ := idx_facts t
  funext x
  unfold blk
  rw [View.read_apply]
  show V c main_arg2 _ = V c main_arg2 _
  congr 1
  funext a
  apply Fin.ext
  match a with
  | ⟨0, _⟩ => show win0_1.index t 0 * 256 + 1 * (x 0).val = (x 0).val; rw [e0]; omega
  | ⟨1, _⟩ => show win0_1.index t 1 * 256 + 1 * (x 1).val = (x 1).val; rw [e1]; omega

/-- What the body leaves at point t, at row j₀ of the block, is row 1000·t + j₀ of the product. -/
theorem out_point (c : Dev nD) (t : Fin cfg0.N) (j : S1000x256.Idx) (i : S10000x256.Idx)
    (hi0 : (i 0).val = 1000 * t.val + (j 0).val) (hi1 : (i 1).val = (j 1).val) :
    k0_pay1 (blk V c 0 t) (blk V c 1 t) j
      = MatProd.matProd (V c main_arg0 : Gae.Mat 10000 256) (V c main_arg2 : Gae.Mat 256 256) i := by
  obtain ⟨p, q, rfl⟩ : ∃ (p : Fin 1000) (q : Fin 256), j = ix2 p q := ⟨j 0, j 1, eq_ix2 j⟩
  obtain ⟨r, q', rfl⟩ : ∃ (r : Fin 10000) (q' : Fin 256), i = ix2 r q' := ⟨i 0, i 1, eq_ix2 i⟩
  obtain rfl : q' = q := Fin.ext hi1
  rw [pay_apply, blk1_eq, MatProd.matProd_apply]
  refine Finset.sum_congr rfl fun k _ => ?_
  rw [blk0_apply V c t (ix2 p k) (ix2 r k) hi0 rfl]

/-- What point t writes back is block t of the product of the two arrays as the region finds them. -/
theorem flushed_eq (c : Dev nD) (t : Fin cfg0.N) :
    (dat (F := Ideal) V c).flushed 2 t = ((cfg0.win 2).blk t).view.read (Elt Ideal)
      (MatProd.matProd (V c main_arg0 : Gae.Mat 10000 256) (V c main_arg2 : Gae.Mat 256 256)) := by
  show (cfg0.win 2).cut (grid0.coords t) ((dat V c).after 2 t) = _
  rw [after_out]
  unfold out
  rw [View.canon_unit_zero hz]
  simp only [View.ld_unit_zero (S := S1000x256) hz, View.ld_unit_zero (S := S256x256) hz]
  obtain ⟨-, -, -, -, e0, e1⟩ := idx_facts t
  funext j
  refine out_point V c t j _ ?_ ?_
  · show win0_2.index t 0 * 1000 + 1 * (j 0).val = _; rw [e0]; omega
  · show win0_2.index t 1 * 256 + 1 * (j 1).val = _; rw [e1]; omega

/-- An index of the result is in point t's block iff each coordinate is in the block's range on its axis. -/
theorem mem_blk (t : Fin cfg0.N) (i : S10000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v0).slice (win0_2.rect t)).set ↔ _
  rw [View.set_slice_whole, Rect.mem_set_unit]
  exact Iff.rfl

/-- Row r of the result lies in the block of point r / 1000. -/
theorem rows_cover (i : S10000x256.Idx) : ∃ t : Fin cfg0.N, (cfg0.win 2).flush t = true ∧ i ∈ ((cfg0.win 2).blk t).view.set := by
  have h0 : (i 0).val < 10000 := (i 0).isLt
  have h1 : (i 1).val < 256 := (i 1).isLt
  have hN : cfg0.N = 10 := N_0
  let t : Fin cfg0.N := ⟨(i 0).val / 1000, by rw [hN]; omega⟩
  obtain ⟨-, -, -, -, e0, e1⟩ := idx_facts t
  refine ⟨t, flush0_2 t, ?_⟩
  rw [mem_blk]
  intro a
  match a with
  | ⟨0, _⟩ => show win0_2.index t 0 * 1000 ≤ (i 0).val ∧ (i 0).val < win0_2.index t 0 * 1000 + 1000; rw [e0]; show (i 0).val / 1000 * 1000 ≤ (i 0).val ∧ (i 0).val < (i 0).val / 1000 * 1000 + 1000; omega
  | ⟨1, _⟩ => show win0_2.index t 1 * 256 ≤ (i 1).val ∧ (i 1).val < win0_2.index t 1 * 256 + 256; rw [e1]; omega

/-- THE FIRST SUPPORT MATRIX after the region: the product of the features and the weights. -/
theorem value_2 (c : Dev nD) :
    (dat (F := Ideal) V c).arrAt 2 cfg0.N
      = MatProd.matProd (V c main_arg0 : Gae.Mat 10000 256) (V c main_arg2 : Gae.Mat 256 256) :=
  (dat (F := Ideal) V c).arrAt_eq_of_cover 2 _ (fun t _ => flushed_eq V c t) rows_cover

end Cert.KernelIdeal.Region0
end
-- ==== Proof.KernelIdeal.Value1.lean ====
/-
  Region 1 on the extended reals: the two arrays the region leaves are the adjacency itself and the first aggregation pass.

  With A the 10000 × 10000 adjacency matrix, s the 10000 × 256 support matrix and W the 256 × 128 weights as the region
  finds them, the 10000 × 10000 copy ends holding A (a change of format is the identity on extended reals) and the
  10000 × 128 support array ends holding  max(A · s, 0) · W,  entry by entry:
      result (r, q) = ∑ₖ max(∑ₗ A (r, l) · s (l, k), 0) · W (k, q).
  At grid point t the body's blocks are rows 400·t … 400·t + 399 of those matrices: its adjacency block is those rows of
  A, its support and weight blocks are the whole of s and W, both products are exact finite sums and the rectifier is the
  maximum with 0. Row r lies in the block of point r / 400, so the twenty-five blocks cover each result.
-/
import proofs.«155458_g54082228191885_cont_9to1c4b_454_29_alg».proof.Proof.KernelIdeal.Region1
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.ShloMosaic.Pipeline (Dat)
open Cert.KernelIdeal Cert.KernelIdeal.Gen

theorem plain1 : PlainDot.IsPlain dot_S400x10000_S10000x256_S400x256_1_0_0_1_n_n := ⟨rfl, rfl, rfl, rfl, rfl, rfl⟩
theorem plain2 : PlainDot.IsPlain dot_S400x256_S256x128_S400x128_1_0_0_1_n_n := ⟨rfl, rfl, rfl, rfl, rfl, rfl⟩

/-- The copy's payload is the adjacency block itself, entry by entry. -/
theorem payCopy_apply (a : Vec Ideal S400x10000 .f32) (x : S400x10000.Idx) : k1_pay1 a x = a x := by
  unfold k1_pay1
  rw [truncf_apply]

/-- The support payload at row p, column q: the rectified product of the adjacency rows with the support, times the weights. -/
theorem paySup_apply (a : Vec Ideal S400x10000 .f32) (s : Vec Ideal S10000x256 .bf16) (w : Vec Ideal S256x128 .f32)
    (p : Fin 400) (q : Fin 128) :
    k1_pay2 a s w (ix2 p q) = ∑ k : Fin 256, max (∑ l : Fin 10000, a (ix2 p l) * s (ix2 l k)) 0 * w (ix2 k q) := by
  unfold k1_pay2
  simp only [shapeCast_self]
  rw [truncf_apply]
  refine (PlainDot.matmul_zero_apply plain2 _ _ p q).trans ?_
  refine Finset.sum_congr rfl fun k _ => ?_
  rw [maximumf_apply, broadcast_apply, Ideal.ofBits_def, Ideal.ofBits_zero_f32]
  refine congrArg (fun z => max z 0 * w (ix2 k q)) ((PlainDot.matmul_zero_apply plain1 (k1_pay1 a) s p k).trans ?_)
  refine Finset.sum_congr rfl fun l _ => ?_
  rw [payCopy_apply]

theorem hz : (![0, 0] : Fin 2 → Nat) = fun _ => 0 := funext fun a => by fin_cases a <;> rfl

/-- The printed index maps over the grid: the adjacency rows' and the two results' block row is the point, every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The adjacency block at point t is rows 400·t … 400·t + 399 of the adjacency matrix. -/
theorem blk0_apply (c : Dev nD) (t : Fin cfg1.N) (x : S400x10000.Idx) (k : S10000x10000.Idx)
    (hk0 : (k 0).val = 400 * t.val + (x 0).val) (hk1 : (k 1).val = (x 1).val) :
    (blk V c 0 t : Vec Ideal S400x10000 .f32) x = (V c main_arg1 : S10000x10000.Idx → Elt Ideal .f32) k := by
  obtain ⟨e0, e1, -⟩ := idx_facts t
  unfold blk
  rw [View.read_apply]
  show V c main_arg1 _ = V c main_arg1 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- The support window's block is the whole support matrix at every point. -/
theorem blk1_eq (c : Dev nD) (t : Fin cfg1.N) :
    (blk V c 1 t : Vec Ideal S10000x256 .bf16) = (V c main_v0 : S10000x256.Idx → Elt Ideal .bf16) := by
  obtain ⟨-, -, e0, e1, -⟩ := idx_facts t
  funext x
  unfold blk
  rw [View.read_apply]
  show V c main_v0 _ = V c main_v0 _
  congr 1
  funext a
  apply Fin.ext
  match a with
  | ⟨0, _⟩ => show win1_1.index t 0 * 10000 + 1 * (x 0).val = (x 0).val; rw [e0]; omega
  | ⟨1, _⟩ => show win1_1.index t 1 * 256 + 1 * (x 1).val = (x 1).val; rw [e1]; omega

/-- The weights window's block is the whole weight matrix at every point. -/
theorem blk2_eq (c : Dev nD) (t : Fin cfg1.N) :
    (blk V c 2 t : Vec Ideal S256x128 .f32) = (V c main_arg3 : S256x128.Idx → Elt Ideal .f32) := by
  obtain ⟨-, -, -, -, e0, e1, -⟩ := idx_facts t
  funext x
  unfold blk
  rw [View.read_apply]
  show V c main_arg3 _ = V c main_arg3 _
  congr 1
  funext a
  apply Fin.ext
  match a with
  | ⟨0, _⟩ => show win1_2.index t 0 * 256 + 1 * (x 0).val = (x 0).val; rw [e0]; omega
  | ⟨1, _⟩ => show win1_2.index t 1 * 128 + 1 * (x 1).val = (x 1).val; rw [e1]; omega

/-- What the body leaves in the copy's block at point t, at row j₀, is row 400·t + j₀ of the adjacency. -/
theorem outCopy_point (c : Dev nD) (t : Fin cfg1.N) (j : S400x10000.Idx) (i : S10000x10000.Idx)
    (hi0 : (i 0).val = 400 * t.val + (j 0).val) (hi1 : (i 1).val = (j 1).val) :
    k1_pay1 (blk V c 0 t) j = (V c main_arg1 : Gae.Mat 10000 10000) i := by
  rw [payCopy_apply]
  exact blk0_apply V c t j i hi0 hi1

/-- What the body leaves in the support block at point t, at row j₀, is row 400·t + j₀ of the pass. -/
theorem outSup_point (c : Dev nD) (t : Fin cfg1.N) (j : S400x128.Idx) (i : S10000x128.Idx)
    (hi0 : (i 0).val = 400 * t.val + (j 0).val) (hi1 : (i 1).val = (j 1).val) :
    k1_pay2 (blk V c 0 t) (blk V c 1 t) (blk V c 2 t) j
      = Gae.pass (V c main_arg1 : Gae.Mat 10000 10000) (V c main_v0 : Gae.Mat 10000 256) (V c main_arg3 : Gae.Mat 256 128) i := by
  obtain ⟨p, q, rfl⟩ : ∃ (p : Fin 400) (q : Fin 128), j = ix2 p q := ⟨j 0, j 1, eq_ix2 j⟩
  obtain ⟨r, q', rfl⟩ : ∃ (r : Fin 10000) (q' : Fin 128), i = ix2 r q' := ⟨i 0, i 1, eq_ix2 i⟩
  obtain rfl : q' = q := Fin.ext hi1
  rw [paySup_apply, blk1_eq, blk2_eq]
  unfold Gae.pass
  rw [MatProd.matProd_apply]
  refine Finset.sum_congr rfl fun k _ => ?_
  unfold Gae.relu
  rw [MatProd.matProd_apply]
  refine congrArg (fun z => max z 0 * _) (Finset.sum_congr rfl fun l _ => ?_)
  rw [blk0_apply V c t (ix2 p l) (ix2 r l) hi0 rfl]

/-- What point t writes back to the copy is block t of the adjacency. -/
theorem flushedCopy_eq (c : Dev nD) (t : Fin cfg1.N) :
    (dat (F := Ideal) V c).flushed 3 t = ((cfg1.win 3).blk t).view.read (Elt Ideal) (V c main_arg1 : Gae.Mat 10000 10000) := by
  show (cfg1.win 3).cut (grid1.coords t) ((dat V c).after 3 t) = _
  rw [after_3]
  unfold outCopy
  rw [View.canon_unit_zero hz]
  simp only [View.ld_unit_zero (S := S400x10000) hz]
  obtain ⟨-, -, -, -, -, -, e0, e1, -⟩ := idx_facts t
  funext j
  refine outCopy_point V c t j _ ?_ ?_
  · show win1_3.index t 0 * 400 + 1 * (j 0).val = _; rw [e0]; omega
  · show win1_3.index t 1 * 10000 + 1 * (j 1).val = _; rw [e1]; omega

/-- What point t writes back to the support array is block t of the pass. -/
theorem flushedSup_eq (c : Dev nD) (t : Fin cfg1.N) :
    (dat (F := Ideal) V c).flushed 4 t = ((cfg1.win 4).blk t).view.read (Elt Ideal)
      (Gae.pass (V c main_arg1 : Gae.Mat 10000 10000) (V c main_v0 : Gae.Mat 10000 256) (V c main_arg3 : Gae.Mat 256 128)) := by
  show (cfg1.win 4).cut (grid1.coords t) ((dat V c).after 4 t) = _
  rw [after_4]
  unfold outSup
  rw [View.canon_unit_zero hz]
  simp only [View.ld_unit_zero (S := S400x10000) hz, View.ld_unit_zero (S := S10000x256) hz, View.ld_unit_zero (S := S256x128) hz]
  obtain ⟨-, -, -, -, -, -, -, -, e0, e1⟩ := idx_facts t
  funext j
  refine outSup_point V c t j _ ?_ ?_
  · show win1_4.index t 0 * 400 + 1 * (j 0).val = _; rw [e0]; omega
  · show win1_4.index t 1 * 128 + 1 * (j 1).val = _; rw [e1]; omega

/-- An index of the copy is in point t's block iff each coordinate is in the block's range on its axis. -/
theorem memCopy_blk (t : Fin cfg1.N) (i : S10000x10000.Idx) :
    i ∈ ((cfg1.win 3).blk t).view.set ↔ ∀ a : Fin 2, win1_3.index t a * S400x10000.size a ≤ (i a).val ∧ (i a).val < win1_3.index t a * S400x10000.size a + S400x10000.size a := by
  show i ∈ ((View.whole main_v1_0).slice (win1_3.rect t)).set ↔ _
  rw [View.set_slice_whole, Rect.mem_set_unit]
  exact Iff.rfl

/-- An index of the support array is in point t's block iff each coordinate is in the block's range on its axis. -/
theorem memSup_blk (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v1_1).slice (win1_4.rect t)).set ↔ _
  rw [View.set_slice_whole, Rect.mem_set_unit]
  exact Iff.rfl

/-- Row r of the copy lies in the block of point r / 400. -/
theorem rowsCopy_cover (i : S10000x10000.Idx) : ∃ t : Fin cfg1.N, (cfg1.win 3).flush t = true ∧ i ∈ ((cfg1.win 3).blk t).view.set := by
  have h0 : (i 0).val < 10000 := (i 0).isLt
  have h1 : (i 1).val < 10000 := (i 1).isLt
  have hN : cfg1.N = 25 := N_1
  let t : Fin cfg1.N := ⟨(i 0).val / 400, by rw [hN]; omega⟩
  obtain ⟨-, -, -, -, -, -, e0, e1, -⟩ := idx_facts t
  refine ⟨t, flush1_3 t, ?_⟩
  rw [memCopy_blk]
  intro a
  match a with
  | ⟨0, _⟩ => show win1_3.index t 0 * 400 ≤ (i 0).val ∧ (i 0).val < win1_3.index t 0 * 400 + 400; rw [e0]; show (i 0).val / 400 * 400 ≤ (i 0).val ∧ (i 0).val < (i 0).val / 400 * 400 + 400; omega
  | ⟨1, _⟩ => show win1_3.index t 1 * 10000 ≤ (i 1).val ∧ (i 1).val < win1_3.index t 1 * 10000 + 10000; rw [e1]; omega

/-- Row r of the support array lies in the block of point r / 400. -/
theorem rowsSup_cover (i : S10000x128.Idx) : ∃ t : Fin cfg1.N, (cfg1.win 4).flush t = true ∧ i ∈ ((cfg1.win 4).blk t).view.set := by
  have h0 : (i 0).val < 10000 := (i 0).isLt
  have h1 : (i 1).val < 128 := (i 1).isLt
  have hN : cfg1.N = 25 := N_1
  let t : Fin cfg1.N := ⟨(i 0).val / 400, by rw [hN]; omega⟩
  obtain ⟨-, -, -, -, -, -, -, -, e0, e1⟩ := idx_facts t
  refine ⟨t, flush1_4 t, ?_⟩
  rw [memSup_blk]
  intro a
  match a with
  | ⟨0, _⟩ => show win1_4.index t 0 * 400 ≤ (i 0).val ∧ (i 0).val < win1_4.index t 0 * 400 + 400; rw [e0]; show (i 0).val / 400 * 400 ≤ (i 0).val ∧ (i 0).val < (i 0).val / 400 * 400 + 400; omega
  | ⟨1, _⟩ => show win1_4.index t 1 * 128 ≤ (i 1).val ∧ (i 1).val < win1_4.index t 1 * 128 + 128; rw [e1]; omega

/-- THE ADJACENCY COPY after the region: the adjacency matrix itself. -/
theorem value_3 (c : Dev nD) :
    (dat (F := Ideal) V c).arrAt 3 cfg1.N = (V c main_arg1 : Gae.Mat 10000 10000) :=
  (dat (F := Ideal) V c).arrAt_eq_of_cover 3 _ (fun t _ => flushedCopy_eq V c t) rowsCopy_cover

/-- THE SECOND SUPPORT MATRIX after the region: the pass of the adjacency, the first support and the weights. -/
theorem value_4 (c : Dev nD) :
    (dat (F := Ideal) V c).arrAt 4 cfg1.N
      = Gae.pass (V c main_arg1 : Gae.Mat 10000 10000) (V c main_v0 : Gae.Mat 10000 256) (V c main_arg3 : Gae.Mat 256 128) :=
  (dat (F := Ideal) V c).arrAt_eq_of_cover 4 _ (fun t _ => flushedSup_eq V c t) rowsSup_cover

end Cert.KernelIdeal.Region1
end
-- ==== Proof.KernelIdeal.Value2.lean ====
/-
  Region 2 on the extended reals: the array the region leaves is one aggregation pass of the arrays it finds.

  With A the 10000 × 10000 adjacency copy, s the 10000 × 128 support matrix and W the 128 × 64 weights as the region finds
  them, the 10000 × 64 result array ends holding  max(A · s, 0) · W,  entry by entry:
      result (r, q) = ∑ₖ max(∑ₗ A (r, l) · s (l, k), 0) · W (k, q).
  At grid point t the body's block is rows 1000·t … 1000·t + 999 of that matrix: its adjacency block is those rows of A,
  its support and weight blocks are the whole of s and W, both products are exact finite sums, the rectifier is the
  maximum with 0 and the change of format is the identity. Row r lies in the block of point r / 1000, so the ten blocks
  cover the result.
-/
import proofs.«155458_g54082228191885_cont_9to1c4b_454_29_alg».proof.Proof.KernelIdeal.Region2
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.ShloMosaic.Pipeline (Dat)
open Cert.KernelIdeal Cert.KernelIdeal.Gen

theorem plain1 : PlainDot.IsPlain dot_S1000x10000_S10000x128_S1000x128_1_0_0_1_n_n := ⟨rfl, rfl, rfl, rfl, rfl, rfl⟩
theorem plain2 : PlainDot.IsPlain dot_S1000x128_S128x64_S1000x64_1_0_0_1_n_n := ⟨rfl, rfl, rfl, rfl, rfl, rfl⟩

/-- The body's payload at row p, column q: the rectified product of the adjacency rows with the support, times the weights. -/
theorem pay_apply (a : Vec Ideal S1000x10000 .bf16) (s : Vec Ideal S10000x128 .bf16) (w : Vec Ideal S128x64 .f32)
    (p : Fin 1000) (q : Fin 64) :
    k2_pay1 a s w (ix2 p q) = ∑ k : Fin 128, max (∑ l : Fin 10000, a (ix2 p l) * s (ix2 l k)) 0 * w (ix2 k q) := by
  unfold k2_pay1
  simp only [shapeCast_self]
  rw [truncf_apply]
  refine (PlainDot.matmul_zero_apply plain2 _ _ p q).trans ?_
  refine Finset.sum_congr rfl fun k _ => ?_
  rw [maximumf_apply, broadcast_apply, Ideal.ofBits_def, Ideal.ofBits_zero_f32]
  exact congrArg (fun z => max z 0 * w (ix2 k q)) (PlainDot.matmul_zero_apply plain1 a s p k)

theorem hz : (![0, 0] : Fin 2 → Nat) = fun _ => 0 := funext fun a => by fin_cases a <;> rfl

/-- The printed index maps over the grid: the adjacency rows' and the result's block row is the point, every other block
    index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- The adjacency block at point t is rows 1000·t … 1000·t + 999 of the adjacency copy. -/
theorem blk0_apply (c : Dev nD) (t : Fin cfg2.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win2_0.index t 0 * 1000 + 1 * (x 0).val = (k 0).val; rw [e0, hk0]; omega
  | ⟨1, _⟩ => show win2_0.index t 1 * 10000 + 1 * (x 1).val = (k 1).val; rw [e1, hk1]; omega

/-- The support window's block is the whole support matrix at every point. -/
theorem blk1_eq (c : Dev nD) (t : Fin cfg2.N) :
    (blk V c 1 t : Vec Ideal S10000x128 .bf16) = (V c main_v1_1 : S10000x128.Idx → Elt Ideal .bf16) := by
  obtain ⟨-, -, e0, e1, -⟩ := idx_facts t
  funext x
  unfold blk
  rw [View.read_apply]
  show V c main_v1_1 _ = V c main_v1_1 _
  congr 1
  funext a
  apply Fin.ext
  match a with
  | ⟨0, _⟩ => show win2_1.index t 0 * 10000 + 1 * (x 0).val = (x 0).val; rw [e0]; omega
  | ⟨1, _⟩ => show win2_1.index t 1 * 128 + 1 * (x 1).val = (x 1).val; rw [e1]; omega

/-- The weights window's block is the whole weight matrix at every point. -/
theorem blk2_eq (c : Dev nD) (t : Fin cfg2.N) :
    (blk V c 2 t : Vec Ideal S128x64 .f32) = (V c main_arg4 : S128x64.Idx → Elt Ideal .f32) := by
  obtain ⟨-, -, -, -, e0, e1, -⟩ := idx_facts t
  funext x
  unfold blk
  rw [View.read_apply]
  show V c main_arg4 _ = V c main_arg4 _
  congr 1
  funext a
  apply Fin.ext
  match a with
  | ⟨0, _⟩ => show win2_2.index t 0 * 128 + 1 * (x 0).val = (x 0).val; rw [e0]; omega
  | ⟨1, _⟩ => show win2_2.index t 1 * 64 + 1 * (x 1).val = (x 1).val; rw [e1]; omega

/-- What the body leaves at point t, at row j₀ of the block, is row 1000·t + j₀ of the pass. -/
theorem out_point (c : Dev nD) (t : Fin cfg2.N) (j : S1000x64.Idx) (i : S10000x64.Idx)
    (hi0 : (i 0).val = 1000 * t.val + (j 0).val) (hi1 : (i 1).val = (j 1).val) :
    k2_pay1 (blk V c 0 t) (blk V c 1 t) (blk V c 2 t) j
      = Gae.pass (V c main_v1_0 : Gae.Mat 10000 10000) (V c main_v1_1 : Gae.Mat 10000 128) (V c main_arg4 : Gae.Mat 128 64) i := by
  obtain ⟨p, q, rfl⟩ : ∃ (p : Fin 1000) (q : Fin 64), j = ix2 p q := ⟨j 0, j 1, eq_ix2 j⟩
  obtain ⟨r, q', rfl⟩ : ∃ (r : Fin 10000) (q' : Fin 64), i = ix2 r q' := ⟨i 0, i 1, eq_ix2 i⟩
  obtain rfl : q' = q := Fin.ext hi1
  rw [pay_apply, blk1_eq, blk2_eq]
  unfold Gae.pass
  rw [MatProd.matProd_apply]
  refine Finset.sum_congr rfl fun k _ => ?_
  unfold Gae.relu
  rw [MatProd.matProd_apply]
  refine congrArg (fun z => max z 0 * _) (Finset.sum_congr rfl fun l _ => ?_)
  rw [blk0_apply V c t (ix2 p l) (ix2 r l) hi0 rfl]

/-- What point t writes back is block t of the pass of the three arrays as the region finds them. -/
theorem flushed_eq (c : Dev nD) (t : Fin cfg2.N) :
    (dat (F := Ideal) V c).flushed 3 t = ((cfg2.win 3).blk t).view.read (Elt Ideal)
      (Gae.pass (V c main_v1_0 : Gae.Mat 10000 10000) (V c main_v1_1 : Gae.Mat 10000 128) (V c main_arg4 : Gae.Mat 128 64)) := by
  show (cfg2.win 3).cut (grid2.coords t) ((dat V c).after 3 t) = _
  rw [after_3]
  unfold out
  rw [View.canon_unit_zero hz]
  simp only [View.ld_unit_zero (S := S1000x10000) hz, View.ld_unit_zero (S := S10000x128) hz, View.ld_unit_zero (S := S128x64) hz]
  obtain ⟨-, -, -, -, -, -, e0, e1⟩ := idx_facts t
  funext j
  refine out_point V c t j _ ?_ ?_
  · show win2_3.index t 0 * 1000 + 1 * (j 0).val = _; rw [e0]; omega
  · show win2_3.index t 1 * 64 + 1 * (j 1).val = _; rw [e1]; omega

/-- An index of the result is in point t's block iff each coordinate is in the block's range on its axis. -/
theorem mem_blk (t : Fin cfg2.N) (i : S10000x64.Idx) :
    i ∈ ((cfg2.win 3).blk t).view.set ↔ ∀ a : Fin 2, win2_3.index t a * S1000x64.size a ≤ (i a).val ∧ (i a).val < win2_3.index t a * S1000x64.size a + S1000x64.size a := by
  show i ∈ ((View.whole main_v2).slice (win2_3.rect t)).set ↔ _
  rw [View.set_slice_whole, Rect.mem_set_unit]
  exact Iff.rfl

/-- Row r of the result lies in the block of point r / 1000. -/
theorem rows_cover (i : S10000x64.Idx) : ∃ t : Fin cfg2.N, (cfg2.win 3).flush t = true ∧ i ∈ ((cfg2.win 3).blk t).view.set := by
  have h0 : (i 0).val < 10000 := (i 0).isLt
  have h1 : (i 1).val < 64 := (i 1).isLt
  have hN : cfg2.N = 10 := N_2
  let t : Fin cfg2.N := ⟨(i 0).val / 1000, by rw [hN]; omega⟩
  obtain ⟨-, -, -, -, -, -, e0, e1⟩ := idx_facts t
  refine ⟨t, flush2_3 t, ?_⟩
  rw [mem_blk]
  intro a
  match a with
  | ⟨0, _⟩ => show win2_3.index t 0 * 1000 ≤ (i 0).val ∧ (i 0).val < win2_3.index t 0 * 1000 + 1000; rw [e0]; show (i 0).val / 1000 * 1000 ≤ (i 0).val ∧ (i 0).val < (i 0).val / 1000 * 1000 + 1000; omega
  | ⟨1, _⟩ => show win2_3.index t 1 * 64 ≤ (i 1).val ∧ (i 1).val < win2_3.index t 1 * 64 + 64; rw [e1]; omega

/-- THE NEXT SUPPORT MATRIX after the region: the pass of the adjacency copy, the support and the weights. -/
theorem value_3 (c : Dev nD) :
    (dat (F := Ideal) V c).arrAt 3 cfg2.N
      = Gae.pass (V c main_v1_0 : Gae.Mat 10000 10000) (V c main_v1_1 : Gae.Mat 10000 128) (V c main_arg4 : Gae.Mat 128 64) :=
  (dat (F := Ideal) V c).arrAt_eq_of_cover 3 _ (fun t _ => flushed_eq V c t) rows_cover

end Cert.KernelIdeal.Region2
end
-- ==== Proof.KernelIdeal.Value3.lean ====
/-
  Region 3 on the extended reals: the array the region leaves is one aggregation pass of the arrays it finds.

  With A the 10000 × 10000 adjacency copy, s the 10000 × 64 support matrix and W the 64 × 32 weights as the region finds
  them, the 10000 × 32 result array ends holding  max(A · s, 0) · W,  entry by entry:
      result (r, q) = ∑ₖ max(∑ₗ A (r, l) · s (l, k), 0) · W (k, q).
  At grid point t the body's block is rows 1000·t … 1000·t + 999 of that matrix: its adjacency block is those rows of A,
  its support and weight blocks are the whole of s and W, both products are exact finite sums, the rectifier is the
  maximum with 0 and the change of format is the identity. Row r lies in the block of point r / 1000, so the ten blocks
  cover the result.
-/
import proofs.«155458_g54082228191885_cont_9to1c4b_454_29_alg».proof.Proof.KernelIdeal.Region3
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.ShloMosaic.Pipeline (Dat)
open Cert.KernelIdeal Cert.KernelIdeal.Gen

theorem plain1 : PlainDot.IsPlain dot_S1000x10000_S10000x64_S1000x64_1_0_0_1_n_n := ⟨rfl, rfl, rfl, rfl, rfl, rfl⟩
theorem plain2 : PlainDot.IsPlain dot_S1000x64_S64x32_S1000x32_1_0_0_1_n_n := ⟨rfl, rfl, rfl, rfl, rfl, rfl⟩

/-- The body's payload at row p, column q: the rectified product of the adjacency rows with the support, times the weights. -/
theorem pay_apply (a : Vec Ideal S1000x10000 .bf16) (s : Vec Ideal S10000x64 .bf16) (w : Vec Ideal S64x32 .f32)
    (p : Fin 1000) (q : Fin 32) :
    k3_pay1 a s w (ix2 p q) = ∑ k : Fin 64, max (∑ l : Fin 10000, a (ix2 p l) * s (ix2 l k)) 0 * w (ix2 k q) := by
  unfold k3_pay1
  simp only [shapeCast_self]
  rw [truncf_apply]
  refine (PlainDot.matmul_zero_apply plain2 _ _ p q).trans ?_
  refine Finset.sum_congr rfl fun k _ => ?_
  rw [maximumf_apply, broadcast_apply, Ideal.ofBits_def, Ideal.ofBits_zero_f32]
  exact congrArg (fun z => max z 0 * w (ix2 k q)) (PlainDot.matmul_zero_apply plain1 a s p k)

theorem hz : (![0, 0] : Fin 2 → Nat) = fun _ => 0 := funext fun a => by fin_cases a <;> rfl

/-- The printed index maps over the grid: the adjacency rows' and the result's block row is the point, every other block
    index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The adjacency block at point t is rows 1000·t … 1000·t + 999 of the adjacency copy. -/
theorem blk0_apply (c : Dev nD) (t : Fin cfg3.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win3_0.index t 0 * 1000 + 1 * (x 0).val = (k 0).val; rw [e0, hk0]; omega
  | ⟨1, _⟩ => show win3_0.index t 1 * 10000 + 1 * (x 1).val = (k 1).val; rw [e1, hk1]; omega

/-- The support window's block is the whole support matrix at every point. -/
theorem blk1_eq (c : Dev nD) (t : Fin cfg3.N) :
    (blk V c 1 t : Vec Ideal S10000x64 .bf16) = (V c main_v2 : S10000x64.Idx → Elt Ideal .bf16) := by
  obtain ⟨-, -, e0, e1, -⟩ := idx_facts t
  funext x
  unfold blk
  rw [View.read_apply]
  show V c main_v2 _ = V c main_v2 _
  congr 1
  funext a
  apply Fin.ext
  match a with
  | ⟨0, _⟩ => show win3_1.index t 0 * 10000 + 1 * (x 0).val = (x 0).val; rw [e0]; omega
  | ⟨1, _⟩ => show win3_1.index t 1 * 64 + 1 * (x 1).val = (x 1).val; rw [e1]; omega

/-- The weights window's block is the whole weight matrix at every point. -/
theorem blk2_eq (c : Dev nD) (t : Fin cfg3.N) :
    (blk V c 2 t : Vec Ideal S64x32 .f32) = (V c main_arg5 : S64x32.Idx → Elt Ideal .f32) := by
  obtain ⟨-, -, -, -, e0, e1, -⟩ := idx_facts t
  funext x
  unfold blk
  rw [View.read_apply]
  show V c main_arg5 _ = V c main_arg5 _
  congr 1
  funext a
  apply Fin.ext
  match a with
  | ⟨0, _⟩ => show win3_2.index t 0 * 64 + 1 * (x 0).val = (x 0).val; rw [e0]; omega
  | ⟨1, _⟩ => show win3_2.index t 1 * 32 + 1 * (x 1).val = (x 1).val; rw [e1]; omega

/-- What the body leaves at point t, at row j₀ of the block, is row 1000·t + j₀ of the pass. -/
theorem out_point (c : Dev nD) (t : Fin cfg3.N) (j : S1000x32.Idx) (i : S10000x32.Idx)
    (hi0 : (i 0).val = 1000 * t.val + (j 0).val) (hi1 : (i 1).val = (j 1).val) :
    k3_pay1 (blk V c 0 t) (blk V c 1 t) (blk V c 2 t) j
      = Gae.pass (V c main_v1_0 : Gae.Mat 10000 10000) (V c main_v2 : Gae.Mat 10000 64) (V c main_arg5 : Gae.Mat 64 32) i := by
  obtain ⟨p, q, rfl⟩ : ∃ (p : Fin 1000) (q : Fin 32), j = ix2 p q := ⟨j 0, j 1, eq_ix2 j⟩
  obtain ⟨r, q', rfl⟩ : ∃ (r : Fin 10000) (q' : Fin 32), i = ix2 r q' := ⟨i 0, i 1, eq_ix2 i⟩
  obtain rfl : q' = q := Fin.ext hi1
  rw [pay_apply, blk1_eq, blk2_eq]
  unfold Gae.pass
  rw [MatProd.matProd_apply]
  refine Finset.sum_congr rfl fun k _ => ?_
  unfold Gae.relu
  rw [MatProd.matProd_apply]
  refine congrArg (fun z => max z 0 * _) (Finset.sum_congr rfl fun l _ => ?_)
  rw [blk0_apply V c t (ix2 p l) (ix2 r l) hi0 rfl]

/-- What point t writes back is block t of the pass of the three arrays as the region finds them. -/
theorem flushed_eq (c : Dev nD) (t : Fin cfg3.N) :
    (dat (F := Ideal) V c).flushed 3 t = ((cfg3.win 3).blk t).view.read (Elt Ideal)
      (Gae.pass (V c main_v1_0 : Gae.Mat 10000 10000) (V c main_v2 : Gae.Mat 10000 64) (V c main_arg5 : Gae.Mat 64 32)) := by
  show (cfg3.win 3).cut (grid3.coords t) ((dat V c).after 3 t) = _
  rw [after_3]
  unfold out
  rw [View.canon_unit_zero hz]
  simp only [View.ld_unit_zero (S := S1000x10000) hz, View.ld_unit_zero (S := S10000x64) hz, View.ld_unit_zero (S := S64x32) hz]
  obtain ⟨-, -, -, -, -, -, e0, e1⟩ := idx_facts t
  funext j
  refine out_point V c t j _ ?_ ?_
  · show win3_3.index t 0 * 1000 + 1 * (j 0).val = _; rw [e0]; omega
  · show win3_3.index t 1 * 32 + 1 * (j 1).val = _; rw [e1]; omega

/-- An index of the result is in point t's block iff each coordinate is in the block's range on its axis. -/
theorem mem_blk (t : Fin cfg3.N) (i : S10000x32.Idx) :
    i ∈ ((cfg3.win 3).blk t).view.set ↔ ∀ a : Fin 2, win3_3.index t a * S1000x32.size a ≤ (i a).val ∧ (i a).val < win3_3.index t a * S1000x32.size a + S1000x32.size a := by
  show i ∈ ((View.whole main_v3).slice (win3_3.rect t)).set ↔ _
  rw [View.set_slice_whole, Rect.mem_set_unit]
  exact Iff.rfl

/-- Row r of the result lies in the block of point r / 1000. -/
theorem rows_cover (i : S10000x32.Idx) : ∃ t : Fin cfg3.N, (cfg3.win 3).flush t = true ∧ i ∈ ((cfg3.win 3).blk t).view.set := by
  have h0 : (i 0).val < 10000 := (i 0).isLt
  have h1 : (i 1).val < 32 := (i 1).isLt
  have hN : cfg3.N = 10 := N_3
  let t : Fin cfg3.N := ⟨(i 0).val / 1000, by rw [hN]; omega⟩
  obtain ⟨-, -, -, -, -, -, e0, e1⟩ := idx_facts t
  refine ⟨t, flush3_3 t, ?_⟩
  rw [mem_blk]
  intro a
  match a with
  | ⟨0, _⟩ => show win3_3.index t 0 * 1000 ≤ (i 0).val ∧ (i 0).val < win3_3.index t 0 * 1000 + 1000; rw [e0]; show (i 0).val / 1000 * 1000 ≤ (i 0).val ∧ (i 0).val < (i 0).val / 1000 * 1000 + 1000; omega
  | ⟨1, _⟩ => show win3_3.index t 1 * 32 ≤ (i 1).val ∧ (i 1).val < win3_3.index t 1 * 32 + 32; rw [e1]; omega

/-- THE NEXT SUPPORT MATRIX after the region: the pass of the adjacency copy, the support and the weights. -/
theorem value_3 (c : Dev nD) :
    (dat (F := Ideal) V c).arrAt 3 cfg3.N
      = Gae.pass (V c main_v1_0 : Gae.Mat 10000 10000) (V c main_v2 : Gae.Mat 10000 64) (V c main_arg5 : Gae.Mat 64 32) :=
  (dat (F := Ideal) V c).arrAt_eq_of_cover 3 _ (fun t _ => flushed_eq V c t) rows_cover

end Cert.KernelIdeal.Region3
end
-- ==== Proof.KernelIdeal.Value4.lean ====
/-
  Region 4 on the extended reals: the two arrays the region leaves are the embedding and the next support matrix.

  With A the 10000 × 10000 adjacency copy, s the 10000 × 32 support matrix and W the 32 × 64 weights as the region finds
  them, the 10000 × 32 embedding array ends holding  A · s  and the 10000 × 64 support array  (A · s) · W,  entry by entry:
      Z (r, q) = ∑ₗ A (r, l) · s (l, q),      result (r, q) = ∑ₖ Z (r, k) · W (k, q).
  No rectifier sits between the two products. At grid point t the body's blocks are rows 1000·t … 1000·t + 999 of those
  matrices: its adjacency block is those rows of A, its support and weight blocks are the whole of s and W, both products
  are exact finite sums and the change of format is the identity. Row r lies in the block of point r / 1000, so the ten
  blocks cover each result.
-/
import proofs.«155458_g54082228191885_cont_9to1c4b_454_29_alg».proof.Proof.KernelIdeal.Region4
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region4

open Idealize.ShloMosaic Idealize.ShloMosaic.TcCoe Idealize.ShloMosaic.ValueIdx
open Idealize.ShloMosaic.Pipeline (Dat)
open Cert.KernelIdeal Cert.KernelIdeal.Gen

theorem plain1 : PlainDot.IsPlain dot_S1000x10000_S10000x32_S1000x32_1_0_0_1_n_n := ⟨rfl, rfl, rfl, rfl, rfl, rfl⟩
theorem plain2 : PlainDot.IsPlain dot_S1000x32_S32x64_S1000x64_1_0_0_1_n_n := ⟨rfl, rfl, rfl, rfl, rfl, rfl⟩

/-- The embedding payload at row p, column q: the adjacency row against the support column. -/
theorem payZ_apply (a : Vec Ideal S1000x10000 .bf16) (s : Vec Ideal S10000x32 .bf16) (p : Fin 1000) (q : Fin 32) :
    k4_pay1 a s (ix2 p q) = ∑ l : Fin 10000, a (ix2 p l) * s (ix2 l q) := by
  unfold k4_pay1
  simp only [shapeCast_self]
  exact PlainDot.matmul_zero_apply plain1 a s p q

/-- The support payload at row p, column q: the embedding row against the weight column. -/
theorem paySup_apply (a : Vec Ideal S1000x10000 .bf16) (s : Vec Ideal S10000x32 .bf16) (w : Vec Ideal S32x64 .f32)
    (p : Fin 1000) (q : Fin 64) :
    k4_pay2 a s w (ix2 p q) = ∑ k : Fin 32, (∑ l : Fin 10000, a (ix2 p l) * s (ix2 l k)) * w (ix2 k q) := by
  unfold k4_pay2
  rw [truncf_apply]
  refine (PlainDot.matmul_zero_apply plain2 _ _ p q).trans ?_
  refine Finset.sum_congr rfl fun k _ => ?_
  rw [payZ_apply]

theorem hz : (![0, 0] : Fin 2 → Nat) = fun _ => 0 := funext fun a => by fin_cases a <;> rfl

/-- The printed index maps over the grid: the adjacency rows' and the two results' block row is the point, every other
    block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

variable (V : (c : Dev nD) → (b : Ref sig .tc) → Buf (Elt Ideal) ((c : Thread nD τ).loc b))

/-- The adjacency block at point t is rows 1000·t … 1000·t + 999 of the adjacency copy. -/
theorem blk0_apply (c : Dev nD) (t : Fin cfg4.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win4_0.index t 0 * 1000 + 1 * (x 0).val = (k 0).val; rw [e0, hk0]; omega
  | ⟨1, _⟩ => show win4_0.index t 1 * 10000 + 1 * (x 1).val = (k 1).val; rw [e1, hk1]; omega

/-- The support window's block is the whole support matrix at every point. -/
theorem blk1_eq (c : Dev nD) (t : Fin cfg4.N) :
    (blk V c 1 t : Vec Ideal S10000x32 .bf16) = (V c main_v3 : S10000x32.Idx → Elt Ideal .bf16) := by
  obtain ⟨-, -, e0, e1, -⟩ := idx_facts t
  funext x
  unfold blk
  rw [View.read_apply]
  show V c main_v3 _ = V c main_v3 _
  congr 1
  funext a
  apply Fin.ext
  match a with
  | ⟨0, _⟩ => show win4_1.index t 0 * 10000 + 1 * (x 0).val = (x 0).val; rw [e0]; omega
  | ⟨1, _⟩ => show win4_1.index t 1 * 32 + 1 * (x 1).val = (x 1).val; rw [e1]; omega

/-- The weights window's block is the whole weight matrix at every point. -/
theorem blk2_eq (c : Dev nD) (t : Fin cfg4.N) :
    (blk V c 2 t : Vec Ideal S32x64 .f32) = (V c main_arg6 : S32x64.Idx → Elt Ideal .f32) := by
  obtain ⟨-, -, -, -, e0, e1, -⟩ := idx_facts t
  funext x
  unfold blk
  rw [View.read_apply]
  show V c main_arg6 _ = V c main_arg6 _
  congr 1
  funext a
  apply Fin.ext
  match a with
  | ⟨0, _⟩ => show win4_2.index t 0 * 32 + 1 * (x 0).val = (x 0).val; rw [e0]; omega
  | ⟨1, _⟩ => show win4_2.index t 1 * 64 + 1 * (x 1).val = (x 1).val; rw [e1]; omega

/-- What the body leaves in the embedding block at point t, at row j₀, is row 1000·t + j₀ of A · s. -/
theorem outZ_point (c : Dev nD) (t : Fin cfg4.N) (j : S1000x32.Idx) (i : S10000x32.Idx)
    (hi0 : (i 0).val = 1000 * t.val + (j 0).val) (hi1 : (i 1).val = (j 1).val) :
    k4_pay1 (blk V c 0 t) (blk V c 1 t) j
      = MatProd.matProd (V c main_v1_0 : Gae.Mat 10000 10000) (V c main_v3 : Gae.Mat 10000 32) i := by
  obtain ⟨p, q, rfl⟩ : ∃ (p : Fin 1000) (q : Fin 32), j = ix2 p q := ⟨j 0, j 1, eq_ix2 j⟩
  obtain ⟨r, q', rfl⟩ : ∃ (r : Fin 10000) (q' : Fin 32), i = ix2 r q' := ⟨i 0, i 1, eq_ix2 i⟩
  obtain rfl : q' = q := Fin.ext hi1
  rw [payZ_apply, blk1_eq, MatProd.matProd_apply]
  refine Finset.sum_congr rfl fun l _ => ?_
  rw [blk0_apply V c t (ix2 p l) (ix2 r l) hi0 rfl]

/-- What the body leaves in the support block at point t, at row j₀, is row 1000·t + j₀ of (A · s) · W. -/
theorem outSup_point (c : Dev nD) (t : Fin cfg4.N) (j : S1000x64.Idx) (i : S10000x64.Idx)
    (hi0 : (i 0).val = 1000 * t.val + (j 0).val) (hi1 : (i 1).val = (j 1).val) :
    k4_pay2 (blk V c 0 t) (blk V c 1 t) (blk V c 2 t) j
      = MatProd.matProd (MatProd.matProd (V c main_v1_0 : Gae.Mat 10000 10000) (V c main_v3 : Gae.Mat 10000 32))
          (V c main_arg6 : Gae.Mat 32 64) i := by
  obtain ⟨p, q, rfl⟩ : ∃ (p : Fin 1000) (q : Fin 64), j = ix2 p q := ⟨j 0, j 1, eq_ix2 j⟩
  obtain ⟨r, q', rfl⟩ : ∃ (r : Fin 10000) (q' : Fin 64), i = ix2 r q' := ⟨i 0, i 1, eq_ix2 i⟩
  obtain rfl : q' = q := Fin.ext hi1
  rw [paySup_apply, blk1_eq, blk2_eq, MatProd.matProd_apply]
  refine Finset.sum_congr rfl fun k _ => ?_
  rw [MatProd.matProd_apply]
  refine congrArg (fun z => z * _) (Finset.sum_congr rfl fun l _ => ?_)
  rw [blk0_apply V c t (ix2 p l) (ix2 r l) hi0 rfl]

/-- What point t writes back to the embedding is block t of A · s. -/
theorem flushedZ_eq (c : Dev nD) (t : Fin cfg4.N) :
    (dat (F := Ideal) V c).flushed 3 t = ((cfg4.win 3).blk t).view.read (Elt Ideal)
      (MatProd.matProd (V c main_v1_0 : Gae.Mat 10000 10000) (V c main_v3 : Gae.Mat 10000 32)) := by
  show (cfg4.win 3).cut (grid4.coords t) ((dat V c).after 3 t) = _
  rw [after_3]
  unfold outZ
  rw [View.canon_unit_zero hz]
  simp only [View.ld_unit_zero (S := S1000x10000) hz, View.ld_unit_zero (S := S10000x32) hz]
  obtain ⟨-, -, -, -, -, -, e0, e1, -⟩ := idx_facts t
  funext j
  refine outZ_point V c t j _ ?_ ?_
  · show win4_3.index t 0 * 1000 + 1 * (j 0).val = _; rw [e0]; omega
  · show win4_3.index t 1 * 32 + 1 * (j 1).val = _; rw [e1]; omega

/-- What point t writes back to the support array is block t of (A · s) · W. -/
theorem flushedSup_eq (c : Dev nD) (t : Fin cfg4.N) :
    (dat (F := Ideal) V c).flushed 4 t = ((cfg4.win 4).blk t).view.read (Elt Ideal)
      (MatProd.matProd (MatProd.matProd (V c main_v1_0 : Gae.Mat 10000 10000) (V c main_v3 : Gae.Mat 10000 32))
          (V c main_arg6 : Gae.Mat 32 64)) := by
  show (cfg4.win 4).cut (grid4.coords t) ((dat V c).after 4 t) = _
  rw [after_4]
  unfold outSup
  rw [View.canon_unit_zero hz]
  simp only [View.ld_unit_zero (S := S1000x10000) hz, View.ld_unit_zero (S := S10000x32) hz, View.ld_unit_zero (S := S32x64) hz]
  obtain ⟨-, -, -, -, -, -, -, -, e0, e1⟩ := idx_facts t
  funext j
  refine outSup_point V c t j _ ?_ ?_
  · show win4_4.index t 0 * 1000 + 1 * (j 0).val = _; rw [e0]; omega
  · show win4_4.index t 1 * 64 + 1 * (j 1).val = _; rw [e1]; omega

/-- An index of the embedding is in point t's block iff each coordinate is in the block's range on its axis. -/
theorem memZ_blk (t : Fin cfg4.N) (i : S10000x32.Idx) :
    i ∈ ((cfg4.win 3).blk t).view.set ↔ ∀ a : Fin 2, win4_3.index t a * S1000x32.size a ≤ (i a).val ∧ (i a).val < win4_3.index t a * S1000x32.size a + S1000x32.size a := by
  show i ∈ ((View.whole main_v4_0).slice (win4_3.rect t)).set ↔ _
  rw [View.set_slice_whole, Rect.mem_set_unit]
  exact Iff.rfl

/-- An index of the support array is in point t's block iff each coordinate is in the block's range on its axis. -/
theorem memSup_blk (t : Fin cfg4.N) (i : S10000x64.Idx) :
    i ∈ ((cfg4.win 4).blk t).view.set ↔ ∀ a : Fin 2, win4_4.index t a * S1000x64.size a ≤ (i a).val ∧ (i a).val < win4_4.index t a * S1000x64.size a + S1000x64.size a := by
  show i ∈ ((View.whole main_v4_1).slice (win4_4.rect t)).set ↔ _
  rw [View.set_slice_whole, Rect.mem_set_unit]
  exact Iff.rfl

/-- Row r of the embedding lies in the block of point r / 1000. -/
theorem rowsZ_cover (i : S10000x32.Idx) : ∃ t : Fin cfg4.N, (cfg4.win 3).flush t = true ∧ i ∈ ((cfg4.win 3).blk t).view.set := by
  have h0 : (i 0).val < 10000 := (i 0).isLt
  have h1 : (i 1).val < 32 := (i 1).isLt
  have hN : cfg4.N = 10 := N_4
  let t : Fin cfg4.N := ⟨(i 0).val / 1000, by rw [hN]; omega⟩
  obtain ⟨-, -, -, -, -, -, e0, e1, -⟩ := idx_facts t
  refine ⟨t, flush4_3 t, ?_⟩
  rw [memZ_blk]
  intro a
  match a with
  | ⟨0, _⟩ => show win4_3.index t 0 * 1000 ≤ (i 0).val ∧ (i 0).val < win4_3.index t 0 * 1000 + 1000; rw [e0]; show (i 0).val / 1000 * 1000 ≤ (i 0).val ∧ (i 0).val < (i 0).val / 1000 * 1000 + 1000; omega
  | ⟨1, _⟩ => show win4_3.index t 1 * 32 ≤ (i 1).val ∧ (i 1).val < win4_3.index t 1 * 32 + 32; rw [e1]; omega

/-- Row r of the support array lies in the block of point r / 1000. -/
theorem rowsSup_cover (i : S10000x64.Idx) : ∃ t : Fin cfg4.N, (cfg4.win 4).flush t = true ∧ i ∈ ((cfg4.win 4).blk t).view.set := by
  have h0 : (i 0).val < 10000 := (i 0).isLt
  have h1 : (i 1).val < 64 := (i 1).isLt
  have hN : cfg4.N = 10 := N_4
  let t : Fin cfg4.N := ⟨(i 0).val / 1000, by rw [hN]; omega⟩
  obtain ⟨-, -, -, -, -, -, -, -, e0, e1⟩ := idx_facts t
  refine ⟨t, flush4_4 t, ?_⟩
  rw [memSup_blk]
  intro a
  match a with
  | ⟨0, _⟩ => show win4_4.index t 0 * 1000 ≤ (i 0).val ∧ (i 0).val < win4_4.index t 0 * 1000 + 1000; rw [e0]; show (i 0).val / 1000 * 1000 ≤ (i 0).val ∧ (i 0).val < (i 0).val / 1000 * 1000 + 1000; omega
  | ⟨1, _⟩ => show win4_4.index t 1 * 64 ≤ (i 1).val ∧ (i 1).val < win4_4.index t 1 * 64 + 64; rw [e1]; omega

/-- THE EMBEDDING after the region: the product of the adjacency copy and the support. -/
theorem value_3 (c : Dev nD) :
    (dat (F := Ideal) V c).arrAt 3 cfg4.N
      = MatProd.matProd (V c main_v1_0 : Gae.Mat 10000 10000) (V c main_v3 : Gae.Mat 10000 32) :=
  (dat (F := Ideal) V c).arrAt_eq_of_cover 3 _ (fun t _ => flushedZ_eq V c t) rowsZ_cover

/-- THE NEXT SUPPORT MATRIX after the region: the embedding times the weights. -/
theorem value_4 (c : Dev nD) :
    (dat (F := Ideal) V c).arrAt 4 cfg4.N
      = MatProd.matProd (MatProd.matProd (V c main_v1_0 : Gae.Mat 10000 10000) (V c main_v3 : Gae.Mat 10000 32))
          (V c main_arg6 : Gae.Mat 32 64) :=
  (dat (F := Ideal) V c).arrAt_eq_of_cover 4 _ (fun t _ => flushedSup_eq V c t) rowsSup_cover

end Cert.KernelIdeal.Region4
end
-- ==== Proof.KernelIdeal.Value5.lean ====
/-
  Region 5 of the kernel program read as a value on the extended reals: an aggregation pass.

  At grid point t the body leaves max(A_blk · S, 0) · W in the output buffer, where A_blk is rows 1000·t … 1000·t + 999 of the
  adjacency copy, S the whole 10000 × 64 support matrix and W the whole 64 × 128 weights. Entry (p, q) of that block is entry
  (1000·t + p, q) of max(A · S, 0) · W, because row 1000·t + p of the pass depends on that row of A only. The ten blocks tile the
  10000 rows (row r lies in the block of point r / 1000), so after the last write-back the output array holds max(A · S, 0) · W.
-/
import proofs.«155458_g54082228191885_cont_9to1c4b_454_29_alg».proof.Proof.KernelIdeal.Region5
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

noncomputable section

namespace Cert.KernelIdeal.Region5

open Idealize.ShloMosaic Idealize.ShloMosaic.TcCoe Idealize.ShloMosaic.ValueIdx
open Idealize.ShloMosaic.Pipeline (Dat)
open Cert.KernelIdeal Cert.KernelIdeal.Gen

/-- The adjacency block times the support is a plain product: rows × contraction, contraction × columns. -/
theorem plainAS : PlainDot.IsPlain dot_S1000x10000_S10000x64_S1000x64_1_0_0_1_n_n := ⟨rfl, rfl, rfl, rfl, rfl, rfl⟩

/-- So is the rectified aggregate times the weights. -/
theorem plainRW : PlainDot.IsPlain dot_S1000x64_S64x128_S1000x128_1_0_0_1_n_n := ⟨rfl, rfl, rfl, rfl, rfl, rfl⟩

/-- The body's result at (p, q): the rectified aggregate's row p against column q of the weights. -/
theorem pay_apply (a : FVec Ideal S1000x10000 .bf16) (s : FVec Ideal S10000x64 .bf16) (w : FVec Ideal S64x128 .f32)
    (p : Fin 1000) (q : Fin 128) :
    k5_pay1 (F := Ideal) a s w (ix2 p q)
      = ∑ m : Fin 64, max (∑ k : Fin 10000, a (ix2 p k) * s (ix2 k m)) 0 * w (ix2 m q) := by
  unfold k5_pay1
  simp only [shapeCast_self]
  rw [truncf_apply]
  refine (PlainDot.matmul_zero_apply plainRW _ w p q).trans (Finset.sum_congr rfl fun m _ => ?_)
  rw [maximumf_apply, broadcast_apply]
  exact congrArg (· * w (ix2 m q)) (congrArg₂ max (PlainDot.matmul_zero_apply plainAS a s p m) Ideal.ofBits_zero_f32)

/-- A block of 1000 rows of A against the whole of S and W is those rows of the pass: if the block `a` holds rows
    1000·n … 1000·n + 999 of `A`, `s` is `S` and `w` is `W`, the body's result at `j` is max(A · S, 0) · W at the index `i`
    whose row is 1000·n + the row of `j` and whose column is that of `j`. -/
theorem pay_rows (A : Gae.Mat 10000 10000) (S : Gae.Mat 10000 64) (W : Gae.Mat 64 128) (a : FVec Ideal S1000x10000 .bf16)
    (s : FVec Ideal S10000x64 .bf16) (w : FVec Ideal S64x128 .f32) (n : Nat)
    (ha : ∀ (x : S1000x10000.Idx) (k : S10000x10000.Idx), (k 0).val = 1000 * n + (x 0).val → (k 1).val = (x 1).val → a x = A k)
    (hs : s = S) (hw : w = W) (j : S1000x128.Idx) (i : S10000x128.Idx) (hi0 : (i 0).val = 1000 * n + (j 0).val)
    (hi1 : (i 1).val = (j 1).val) :
    k5_pay1 (F := Ideal) a s w j = Gae.pass A S W i := by
  obtain ⟨p, q, rfl⟩ : ∃ (p : Fin 1000) (q : Fin 128), j = ix2 p q := ⟨j 0, j 1, eq_ix2 j⟩
  obtain ⟨r, q', rfl⟩ : ∃ (r : Fin 10000) (q' : Fin 128), i = ix2 r q' := ⟨i 0, i 1, eq_ix2 i⟩
  obtain rfl : q = q' := (Fin.ext hi1).symm
  subst hs
  subst hw
  rw [pay_apply]
  unfold Gae.pass
  rw [MatProd.matProd_apply]
  refine Finset.sum_congr rfl fun m _ => congrArg (· * w (ix2 m q)) ?_
  unfold Gae.relu
  rw [MatProd.matProd_apply]
  refine congrArg (max · 0) (Finset.sum_congr rfl fun k _ => ?_)
  rw [ha (ix2 p k) (ix2 r k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency rows and the output rows move with the point, the support and the
    weights stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The adjacency window's block at point `t` is rows 1000·t … 1000·t + 999 of the adjacency copy. -/
theorem blk0_apply (c : Dev nD) (t : Fin cfg5.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win5_0.index t 0 * 1000 + 1 * (x 0).val = (k 0).val; rw [e0, hk0]; omega
  | ⟨1, _⟩ => show win5_0.index t 1 * 10000 + 1 * (x 1).val = (k 1).val; rw [e1, hk1]; omega

/-- The support window's block at every point is the whole support matrix. -/
theorem blk1_eq (c : Dev nD) (t : Fin cfg5.N) :
    (blk V c 1 t : Vec Ideal S10000x64 .bf16) = (V c main_v4_1 : S10000x64.Idx → Elt Ideal .bf16) := by
  obtain ⟨-, -, e2, e3, -⟩ := idx_facts t
  funext x
  unfold blk
  rw [View.read_apply]
  show V c main_v4_1 _ = V c main_v4_1 _
  congr 1
  funext a
  apply Fin.ext
  match a with
  | ⟨0, _⟩ => show win5_1.index t 0 * 10000 + 1 * (x 0).val = (x 0).val; rw [e2]; omega
  | ⟨1, _⟩ => show win5_1.index t 1 * 64 + 1 * (x 1).val = (x 1).val; rw [e3]; omega

/-- The weights window's block at every point is the whole weights matrix. -/
theorem blk2_eq (c : Dev nD) (t : Fin cfg5.N) :
    (blk V c 2 t : Vec Ideal S64x128 .f32) = (V c main_arg7 : S64x128.Idx → Elt Ideal .f32) := by
  obtain ⟨-, -, -, -, e4, e5, -⟩ := idx_facts t
  funext x
  unfold blk
  rw [View.read_apply]
  show V c main_arg7 _ = V c main_arg7 _
  congr 1
  funext a
  apply Fin.ext
  match a with
  | ⟨0, _⟩ => show win5_2.index t 0 * 64 + 1 * (x 0).val = (x 0).val; rw [e4]; omega
  | ⟨1, _⟩ => show win5_2.index t 1 * 128 + 1 * (x 1).val = (x 1).val; rw [e5]; omega

/-- WHAT POINT `t` WRITES BACK is block `t` of max(A · S, 0) · W. -/
theorem flushed_eq (c : Dev nD) (t : Fin cfg5.N) :
    (dat (F := Ideal) V c).flushed 3 t = ((cfg5.win 3).blk t).view.read (Elt Ideal)
      (Gae.pass (V c main_v1_0 : Gae.Mat 10000 10000) (V c main_v4_1 : Gae.Mat 10000 64) (V c main_arg7 : Gae.Mat 64 128)) := by
  show (cfg5.win 3).cut (grid5.coords t) ((dat V c).after 3 t) = _
  rw [after_3]
  unfold out
  rw [View.canon_unit_zero hz]
  simp only [View.ld_unit_zero (S := S1000x10000) hz, View.ld_unit_zero (S := S10000x64) hz, View.ld_unit_zero (S := S64x128) hz]
  obtain ⟨-, -, -, -, -, -, e6, e7⟩ := idx_facts t
  funext j
  show k5_pay1 (F := Ideal) (blk V c 0 t) (blk V c 1 t) (blk V c 2 t) ((cfg5.win 3).xinj (grid5.coords t) j)
    = Gae.pass (V c main_v1_0 : Gae.Mat 10000 10000) (V c main_v4_1 : Gae.Mat 10000 64) (V c main_arg7 : Gae.Mat 64 128)
        (((cfg5.win 3).blk t).view.emb j)
  refine pay_rows _ _ _ _ _ _ t.val (fun x k h0 h1 => blk0_apply V c t x k h0 h1) (blk1_eq V c t) (blk2_eq V c t) _ _ ?_ ?_
  · show win5_3.index t 0 * 1000 + 1 * (j 0).val = 1000 * t.val + (j 0).val
    rw [e6]; omega
  · show win5_3.index t 1 * 128 + 1 * (j 1).val = (j 1).val
    rw [e7]; omega

/-- An index of the output array is in point `t`'s block iff each coordinate is in the block's range on its axis. -/
theorem mem_blk (t : Fin cfg5.N) (i : S10000x128.Idx) :
    i ∈ ((cfg5.win 3).blk t).view.set ↔ ∀ a : Fin 2, win5_3.index t a * S1000x128.size a ≤ (i a).val
      ∧ (i a).val < win5_3.index t a * S1000x128.size a + S1000x128.size a := by
  show i ∈ ((View.whole main_v5).slice (win5_3.rect t)).set ↔ _
  rw [View.set_slice_whole, Rect.mem_set_unit]
  exact Iff.rfl

/-- Row r lies in the block of point r / 1000. -/
theorem covered (i : S10000x128.Idx) :
    ∃ t : Fin cfg5.N, (cfg5.win 3).flush t = true ∧ i ∈ ((cfg5.win 3).blk t).view.set := by
  have h0 : (i 0).val < 10000 := (i 0).isLt
  have h1 : (i 1).val < 128 := (i 1).isLt
  have hN : cfg5.N = 10 := N_5
  have ht : (i 0).val / 1000 < cfg5.N := by rw [hN]; omega
  obtain ⟨-, -, -, -, -, -, e6, e7⟩ := idx_facts ⟨(i 0).val / 1000, ht⟩
  refine ⟨⟨(i 0).val / 1000, ht⟩, flush5_3 _, ?_⟩
  rw [mem_blk]
  intro a
  match a with
  | ⟨0, _⟩ =>
    show win5_3.index ⟨(i 0).val / 1000, ht⟩ 0 * 1000 ≤ (i 0).val ∧ (i 0).val < win5_3.index ⟨(i 0).val / 1000, ht⟩ 0 * 1000 + 1000
    rw [e6]; show (i 0).val / 1000 * 1000 ≤ (i 0).val ∧ (i 0).val < (i 0).val / 1000 * 1000 + 1000; omega
  | ⟨1, _⟩ =>
    show win5_3.index ⟨(i 0).val / 1000, ht⟩ 1 * 128 ≤ (i 1).val ∧ (i 1).val < win5_3.index ⟨(i 0).val / 1000, ht⟩ 1 * 128 + 128
    rw [e7]; omega

/-- THE ARRAY after the region: the pass max(A · S, 0) · W of the adjacency copy, the support matrix and the weights as the
    region finds them. -/
theorem value (c : Dev nD) :
    (dat (F := Ideal) V c).arrAt 3 cfg5.N
      = Gae.pass (V c main_v1_0 : Gae.Mat 10000 10000) (V c main_v4_1 : Gae.Mat 10000 64) (V c main_arg7 : Gae.Mat 64 128) :=
  (dat V c).arrAt_eq_of_cover 3 _ (fun t _ => flushed_eq V c t) covered

end Cert.KernelIdeal.Region5

end
-- ==== Proof.KernelIdeal.Value6.lean ====
/-
  Region 6 of the kernel program read as a value on the extended reals: an aggregation pass.

  At grid point t the body leaves max(A_blk · S, 0) · W in the output buffer, where A_blk is rows 1000·t … 1000·t + 999 of the
  adjacency copy, S the whole 10000 × 128 support matrix and W the whole 128 × 256 weights. Entry (p, q) of that block is entry
  (1000·t + p, q) of max(A · S, 0) · W, because row 1000·t + p of the pass depends on that row of A only. The ten blocks tile the
  10000 rows (row r lies in the block of point r / 1000), so after the last write-back the output array holds max(A · S, 0) · W.
-/
import proofs.«155458_g54082228191885_cont_9to1c4b_454_29_alg».proof.Proof.KernelIdeal.Region6
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

noncomputable section

namespace Cert.KernelIdeal.Region6

open Idealize.ShloMosaic Idealize.ShloMosaic.TcCoe Idealize.ShloMosaic.ValueIdx
open Idealize.ShloMosaic.Pipeline (Dat)
open Cert.KernelIdeal Cert.KernelIdeal.Gen

/-- The adjacency block times the support is a plain product: rows × contraction, contraction × columns. -/
theorem plainAS : PlainDot.IsPlain dot_S1000x10000_S10000x128_S1000x128_1_0_0_1_n_n := ⟨rfl, rfl, rfl, rfl, rfl, rfl⟩

/-- So is the rectified aggregate times the weights. -/
theorem plainRW : PlainDot.IsPlain dot_S1000x128_S128x256_S1000x256_1_0_0_1_n_n := ⟨rfl, rfl, rfl, rfl, rfl, rfl⟩

/-- The body's result at (p, q): the rectified aggregate's row p against column q of the weights. -/
theorem pay_apply (a : FVec Ideal S1000x10000 .bf16) (s : FVec Ideal S10000x128 .bf16) (w : FVec Ideal S128x256 .f32)
    (p : Fin 1000) (q : Fin 256) :
    k6_pay1 (F := Ideal) a s w (ix2 p q)
      = ∑ m : Fin 128, max (∑ k : Fin 10000, a (ix2 p k) * s (ix2 k m)) 0 * w (ix2 m q) := by
  unfold k6_pay1
  simp only [shapeCast_self]
  rw [truncf_apply]
  refine (PlainDot.matmul_zero_apply plainRW _ w p q).trans (Finset.sum_congr rfl fun m _ => ?_)
  rw [maximumf_apply, broadcast_apply]
  exact congrArg (· * w (ix2 m q)) (congrArg₂ max (PlainDot.matmul_zero_apply plainAS a s p m) Ideal.ofBits_zero_f32)

/-- A block of 1000 rows of A against the whole of S and W is those rows of the pass: if the block `a` holds rows
    1000·n … 1000·n + 999 of `A`, `s` is `S` and `w` is `W`, the body's result at `j` is max(A · S, 0) · W at the index `i`
    whose row is 1000·n + the row of `j` and whose column is that of `j`. -/
theorem pay_rows (A : Gae.Mat 10000 10000) (S : Gae.Mat 10000 128) (W : Gae.Mat 128 256) (a : FVec Ideal S1000x10000 .bf16)
    (s : FVec Ideal S10000x128 .bf16) (w : FVec Ideal S128x256 .f32) (n : Nat)
    (ha : ∀ (x : S1000x10000.Idx) (k : S10000x10000.Idx), (k 0).val = 1000 * n + (x 0).val → (k 1).val = (x 1).val → a x = A k)
    (hs : s = S) (hw : w = W) (j : S1000x256.Idx) (i : S10000x256.Idx) (hi0 : (i 0).val = 1000 * n + (j 0).val)
    (hi1 : (i 1).val = (j 1).val) :
    k6_pay1 (F := Ideal) a s w j = Gae.pass A S W i := by
  obtain ⟨p, q, rfl⟩ : ∃ (p : Fin 1000) (q : Fin 256), j = ix2 p q := ⟨j 0, j 1, eq_ix2 j⟩
  obtain ⟨r, q', rfl⟩ : ∃ (r : Fin 10000) (q' : Fin 256), i = ix2 r q' := ⟨i 0, i 1, eq_ix2 i⟩
  obtain rfl : q = q' := (Fin.ext hi1).symm
  subst hs
  subst hw
  rw [pay_apply]
  unfold Gae.pass
  rw [MatProd.matProd_apply]
  refine Finset.sum_congr rfl fun m _ => congrArg (· * w (ix2 m q)) ?_
  unfold Gae.relu
  rw [MatProd.matProd_apply]
  refine congrArg (max · 0) (Finset.sum_congr rfl fun k _ => ?_)
  rw [ha (ix2 p k) (ix2 r k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency rows and the output rows move with the point, the support and the
    weights stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- The adjacency window's block at point `t` is rows 1000·t … 1000·t + 999 of the adjacency copy. -/
theorem blk0_apply (c : Dev nD) (t : Fin cfg6.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win6_0.index t 0 * 1000 + 1 * (x 0).val = (k 0).val; rw [e0, hk0]; omega
  | ⟨1, _⟩ => show win6_0.index t 1 * 10000 + 1 * (x 1).val = (k 1).val; rw [e1, hk1]; omega

/-- The support window's block at every point is the whole support matrix. -/
theorem blk1_eq (c : Dev nD) (t : Fin cfg6.N) :
    (blk V c 1 t : Vec Ideal S10000x128 .bf16) = (V c main_v5 : S10000x128.Idx → Elt Ideal .bf16) := by
  obtain ⟨-, -, e2, e3, -⟩ := idx_facts t
  funext x
  unfold blk
  rw [View.read_apply]
  show V c main_v5 _ = V c main_v5 _
  congr 1
  funext a
  apply Fin.ext
  match a with
  | ⟨0, _⟩ => show win6_1.index t 0 * 10000 + 1 * (x 0).val = (x 0).val; rw [e2]; omega
  | ⟨1, _⟩ => show win6_1.index t 1 * 128 + 1 * (x 1).val = (x 1).val; rw [e3]; omega

/-- The weights window's block at every point is the whole weights matrix. -/
theorem blk2_eq (c : Dev nD) (t : Fin cfg6.N) :
    (blk V c 2 t : Vec Ideal S128x256 .f32) = (V c main_arg8 : S128x256.Idx → Elt Ideal .f32) := by
  obtain ⟨-, -, -, -, e4, e5, -⟩ := idx_facts t
  funext x
  unfold blk
  rw [View.read_apply]
  show V c main_arg8 _ = V c main_arg8 _
  congr 1
  funext a
  apply Fin.ext
  match a with
  | ⟨0, _⟩ => show win6_2.index t 0 * 128 + 1 * (x 0).val = (x 0).val; rw [e4]; omega
  | ⟨1, _⟩ => show win6_2.index t 1 * 256 + 1 * (x 1).val = (x 1).val; rw [e5]; omega

/-- WHAT POINT `t` WRITES BACK is block `t` of max(A · S, 0) · W. -/
theorem flushed_eq (c : Dev nD) (t : Fin cfg6.N) :
    (dat (F := Ideal) V c).flushed 3 t = ((cfg6.win 3).blk t).view.read (Elt Ideal)
      (Gae.pass (V c main_v1_0 : Gae.Mat 10000 10000) (V c main_v5 : Gae.Mat 10000 128) (V c main_arg8 : Gae.Mat 128 256)) := by
  show (cfg6.win 3).cut (grid6.coords t) ((dat V c).after 3 t) = _
  rw [after_3]
  unfold out
  rw [View.canon_unit_zero hz]
  simp only [View.ld_unit_zero (S := S1000x10000) hz, View.ld_unit_zero (S := S10000x128) hz, View.ld_unit_zero (S := S128x256) hz]
  obtain ⟨-, -, -, -, -, -, e6, e7⟩ := idx_facts t
  funext j
  show k6_pay1 (F := Ideal) (blk V c 0 t) (blk V c 1 t) (blk V c 2 t) ((cfg6.win 3).xinj (grid6.coords t) j)
    = Gae.pass (V c main_v1_0 : Gae.Mat 10000 10000) (V c main_v5 : Gae.Mat 10000 128) (V c main_arg8 : Gae.Mat 128 256)
        (((cfg6.win 3).blk t).view.emb j)
  refine pay_rows _ _ _ _ _ _ t.val (fun x k h0 h1 => blk0_apply V c t x k h0 h1) (blk1_eq V c t) (blk2_eq V c t) _ _ ?_ ?_
  · show win6_3.index t 0 * 1000 + 1 * (j 0).val = 1000 * t.val + (j 0).val
    rw [e6]; omega
  · show win6_3.index t 1 * 256 + 1 * (j 1).val = (j 1).val
    rw [e7]; omega

/-- An index of the output array is in point `t`'s block iff each coordinate is in the block's range on its axis. -/
theorem mem_blk (t : Fin cfg6.N) (i : S10000x256.Idx) :
    i ∈ ((cfg6.win 3).blk t).view.set ↔ ∀ a : Fin 2, win6_3.index t a * S1000x256.size a ≤ (i a).val
      ∧ (i a).val < win6_3.index t a * S1000x256.size a + S1000x256.size a := by
  show i ∈ ((View.whole main_v6).slice (win6_3.rect t)).set ↔ _
  rw [View.set_slice_whole, Rect.mem_set_unit]
  exact Iff.rfl

/-- Row r lies in the block of point r / 1000. -/
theorem covered (i : S10000x256.Idx) :
    ∃ t : Fin cfg6.N, (cfg6.win 3).flush t = true ∧ i ∈ ((cfg6.win 3).blk t).view.set := by
  have h0 : (i 0).val < 10000 := (i 0).isLt
  have h1 : (i 1).val < 256 := (i 1).isLt
  have hN : cfg6.N = 10 := N_6
  have ht : (i 0).val / 1000 < cfg6.N := by rw [hN]; omega
  obtain ⟨-, -, -, -, -, -, e6, e7⟩ := idx_facts ⟨(i 0).val / 1000, ht⟩
  refine ⟨⟨(i 0).val / 1000, ht⟩, flush6_3 _, ?_⟩
  rw [mem_blk]
  intro a
  match a with
  | ⟨0, _⟩ =>
    show win6_3.index ⟨(i 0).val / 1000, ht⟩ 0 * 1000 ≤ (i 0).val ∧ (i 0).val < win6_3.index ⟨(i 0).val / 1000, ht⟩ 0 * 1000 + 1000
    rw [e6]; show (i 0).val / 1000 * 1000 ≤ (i 0).val ∧ (i 0).val < (i 0).val / 1000 * 1000 + 1000; omega
  | ⟨1, _⟩ =>
    show win6_3.index ⟨(i 0).val / 1000, ht⟩ 1 * 256 ≤ (i 1).val ∧ (i 1).val < win6_3.index ⟨(i 0).val / 1000, ht⟩ 1 * 256 + 256
    rw [e7]; omega

/-- THE ARRAY after the region: the pass max(A · S, 0) · W of the adjacency copy, the support matrix and the weights as the
    region finds them. -/
theorem value (c : Dev nD) :
    (dat (F := Ideal) V c).arrAt 3 cfg6.N
      = Gae.pass (V c main_v1_0 : Gae.Mat 10000 10000) (V c main_v5 : Gae.Mat 10000 128) (V c main_arg8 : Gae.Mat 128 256) :=
  (dat V c).arrAt_eq_of_cover 3 _ (fun t _ => flushed_eq V c t) covered

end Cert.KernelIdeal.Region6

end
-- ==== Proof.KernelIdeal.Value7.lean ====
/-
  Region 7 of the kernel program read as a value on the extended reals: an aggregation pass.

  At grid point t the body leaves max(A_blk · S, 0) · W in the output buffer, where A_blk is rows 1000·t … 1000·t + 999 of the
  adjacency copy, S the whole 10000 × 256 support matrix and W the whole 256 × 256 weights. Entry (p, q) of that block is entry
  (1000·t + p, q) of max(A · S, 0) · W, because row 1000·t + p of the pass depends on that row of A only. The ten blocks tile the
  10000 rows (row r lies in the block of point r / 1000), so after the last write-back the output array holds max(A · S, 0) · W.
-/
import proofs.«155458_g54082228191885_cont_9to1c4b_454_29_alg».proof.Proof.KernelIdeal.Region7
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

noncomputable section

namespace Cert.KernelIdeal.Region7

open Idealize.ShloMosaic Idealize.ShloMosaic.TcCoe Idealize.ShloMosaic.ValueIdx
open Idealize.ShloMosaic.Pipeline (Dat)
open Cert.KernelIdeal Cert.KernelIdeal.Gen

/-- The adjacency block times the support is a plain product: rows × contraction, contraction × columns. -/
theorem plainAS : PlainDot.IsPlain dot_S1000x10000_S10000x256_S1000x256_1_0_0_1_n_n := ⟨rfl, rfl, rfl, rfl, rfl, rfl⟩

/-- So is the rectified aggregate times the weights. -/
theorem plainRW : PlainDot.IsPlain dot_S1000x256_S256x256_S1000x256_1_0_0_1_n_n := ⟨rfl, rfl, rfl, rfl, rfl, rfl⟩

/-- The body's result at (p, q): the rectified aggregate's row p against column q of the weights. -/
theorem pay_apply (a : FVec Ideal S1000x10000 .bf16) (s : FVec Ideal S10000x256 .bf16) (w : FVec Ideal S256x256 .f32)
    (p : Fin 1000) (q : Fin 256) :
    k7_pay1 (F := Ideal) a s w (ix2 p q)
      = ∑ m : Fin 256, max (∑ k : Fin 10000, a (ix2 p k) * s (ix2 k m)) 0 * w (ix2 m q) := by
  unfold k7_pay1
  simp only [shapeCast_self]
  rw [truncf_apply]
  refine (PlainDot.matmul_zero_apply plainRW _ w p q).trans (Finset.sum_congr rfl fun m _ => ?_)
  rw [maximumf_apply, broadcast_apply]
  exact congrArg (· * w (ix2 m q)) (congrArg₂ max (PlainDot.matmul_zero_apply plainAS a s p m) Ideal.ofBits_zero_f32)

/-- A block of 1000 rows of A against the whole of S and W is those rows of the pass: if the block `a` holds rows
    1000·n … 1000·n + 999 of `A`, `s` is `S` and `w` is `W`, the body's result at `j` is max(A · S, 0) · W at the index `i`
    whose row is 1000·n + the row of `j` and whose column is that of `j`. -/
theorem pay_rows (A : Gae.Mat 10000 10000) (S : Gae.Mat 10000 256) (W : Gae.Mat 256 256) (a : FVec Ideal S1000x10000 .bf16)
    (s : FVec Ideal S10000x256 .bf16) (w : FVec Ideal S256x256 .f32) (n : Nat)
    (ha : ∀ (x : S1000x10000.Idx) (k : S10000x10000.Idx), (k 0).val = 1000 * n + (x 0).val → (k 1).val = (x 1).val → a x = A k)
    (hs : s = S) (hw : w = W) (j : S1000x256.Idx) (i : S10000x256.Idx) (hi0 : (i 0).val = 1000 * n + (j 0).val)
    (hi1 : (i 1).val = (j 1).val) :
    k7_pay1 (F := Ideal) a s w j = Gae.pass A S W i := by
  obtain ⟨p, q, rfl⟩ : ∃ (p : Fin 1000) (q : Fin 256), j = ix2 p q := ⟨j 0, j 1, eq_ix2 j⟩
  obtain ⟨r, q', rfl⟩ : ∃ (r : Fin 10000) (q' : Fin 256), i = ix2 r q' := ⟨i 0, i 1, eq_ix2 i⟩
  obtain rfl : q = q' := (Fin.ext hi1).symm
  subst hs
  subst hw
  rw [pay_apply]
  unfold Gae.pass
  rw [MatProd.matProd_apply]
  refine Finset.sum_congr rfl fun m _ => congrArg (· * w (ix2 m q)) ?_
  unfold Gae.relu
  rw [MatProd.matProd_apply]
  refine congrArg (max · 0) (Finset.sum_congr rfl fun k _ => ?_)
  rw [ha (ix2 p k) (ix2 r k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency rows and the output rows move with the point, the support and the
    weights stay. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The adjacency window's block at point `t` is rows 1000·t … 1000·t + 999 of the adjacency copy. -/
theorem blk0_apply (c : Dev nD) (t : Fin cfg7.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win7_0.index t 0 * 1000 + 1 * (x 0).val = (k 0).val; rw [e0, hk0]; omega
  | ⟨1, _⟩ => show win7_0.index t 1 * 10000 + 1 * (x 1).val = (k 1).val; rw [e1, hk1]; omega

/-- The support window's block at every point is the whole support matrix. -/
theorem blk1_eq (c : Dev nD) (t : Fin cfg7.N) :
    (blk V c 1 t : Vec Ideal S10000x256 .bf16) = (V c main_v6 : S10000x256.Idx → Elt Ideal .bf16) := by
  obtain ⟨-, -, e2, e3, -⟩ := idx_facts t
  funext x
  unfold blk
  rw [View.read_apply]
  show V c main_v6 _ = V c main_v6 _
  congr 1
  funext a
  apply Fin.ext
  match a with
  | ⟨0, _⟩ => show win7_1.index t 0 * 10000 + 1 * (x 0).val = (x 0).val; rw [e2]; omega
  | ⟨1, _⟩ => show win7_1.index t 1 * 256 + 1 * (x 1).val = (x 1).val; rw [e3]; omega

/-- The weights window's block at every point is the whole weights matrix. -/
theorem blk2_eq (c : Dev nD) (t : Fin cfg7.N) :
    (blk V c 2 t : Vec Ideal S256x256 .f32) = (V c main_arg9 : S256x256.Idx → Elt Ideal .f32) := by
  obtain ⟨-, -, -, -, e4, e5, -⟩ := idx_facts t
  funext x
  unfold blk
  rw [View.read_apply]
  show V c main_arg9 _ = V c main_arg9 _
  congr 1
  funext a
  apply Fin.ext
  match a with
  | ⟨0, _⟩ => show win7_2.index t 0 * 256 + 1 * (x 0).val = (x 0).val; rw [e4]; omega
  | ⟨1, _⟩ => show win7_2.index t 1 * 256 + 1 * (x 1).val = (x 1).val; rw [e5]; omega

/-- WHAT POINT `t` WRITES BACK is block `t` of max(A · S, 0) · W. -/
theorem flushed_eq (c : Dev nD) (t : Fin cfg7.N) :
    (dat (F := Ideal) V c).flushed 3 t = ((cfg7.win 3).blk t).view.read (Elt Ideal)
      (Gae.pass (V c main_v1_0 : Gae.Mat 10000 10000) (V c main_v6 : Gae.Mat 10000 256) (V c main_arg9 : Gae.Mat 256 256)) := by
  show (cfg7.win 3).cut (grid7.coords t) ((dat V c).after 3 t) = _
  rw [after_3]
  unfold out
  rw [View.canon_unit_zero hz]
  simp only [View.ld_unit_zero (S := S1000x10000) hz, View.ld_unit_zero (S := S10000x256) hz, View.ld_unit_zero (S := S256x256) hz]
  obtain ⟨-, -, -, -, -, -, e6, e7⟩ := idx_facts t
  funext j
  show k7_pay1 (F := Ideal) (blk V c 0 t) (blk V c 1 t) (blk V c 2 t) ((cfg7.win 3).xinj (grid7.coords t) j)
    = Gae.pass (V c main_v1_0 : Gae.Mat 10000 10000) (V c main_v6 : Gae.Mat 10000 256) (V c main_arg9 : Gae.Mat 256 256)
        (((cfg7.win 3).blk t).view.emb j)
  refine pay_rows _ _ _ _ _ _ t.val (fun x k h0 h1 => blk0_apply V c t x k h0 h1) (blk1_eq V c t) (blk2_eq V c t) _ _ ?_ ?_
  · show win7_3.index t 0 * 1000 + 1 * (j 0).val = 1000 * t.val + (j 0).val
    rw [e6]; omega
  · show win7_3.index t 1 * 256 + 1 * (j 1).val = (j 1).val
    rw [e7]; omega

/-- An index of the output array is in point `t`'s block iff each coordinate is in the block's range on its axis. -/
theorem mem_blk (t : Fin cfg7.N) (i : S10000x256.Idx) :
    i ∈ ((cfg7.win 3).blk t).view.set ↔ ∀ a : Fin 2, win7_3.index t a * S1000x256.size a ≤ (i a).val
      ∧ (i a).val < win7_3.index t a * S1000x256.size a + S1000x256.size a := by
  show i ∈ ((View.whole main_v7).slice (win7_3.rect t)).set ↔ _
  rw [View.set_slice_whole, Rect.mem_set_unit]
  exact Iff.rfl

/-- Row r lies in the block of point r / 1000. -/
theorem covered (i : S10000x256.Idx) :
    ∃ t : Fin cfg7.N, (cfg7.win 3).flush t = true ∧ i ∈ ((cfg7.win 3).blk t).view.set := by
  have h0 : (i 0).val < 10000 := (i 0).isLt
  have h1 : (i 1).val < 256 := (i 1).isLt
  have hN : cfg7.N = 10 := N_7
  have ht : (i 0).val / 1000 < cfg7.N := by rw [hN]; omega
  obtain ⟨-, -, -, -, -, -, e6, e7⟩ := idx_facts ⟨(i 0).val / 1000, ht⟩
  refine ⟨⟨(i 0).val / 1000, ht⟩, flush7_3 _, ?_⟩
  rw [mem_blk]
  intro a
  match a with
  | ⟨0, _⟩ =>
    show win7_3.index ⟨(i 0).val / 1000, ht⟩ 0 * 1000 ≤ (i 0).val ∧ (i 0).val < win7_3.index ⟨(i 0).val / 1000, ht⟩ 0 * 1000 + 1000
    rw [e6]; show (i 0).val / 1000 * 1000 ≤ (i 0).val ∧ (i 0).val < (i 0).val / 1000 * 1000 + 1000; omega
  | ⟨1, _⟩ =>
    show win7_3.index ⟨(i 0).val / 1000, ht⟩ 1 * 256 ≤ (i 1).val ∧ (i 1).val < win7_3.index ⟨(i 0).val / 1000, ht⟩ 1 * 256 + 256
    rw [e7]; omega

/-- THE ARRAY after the region: the pass max(A · S, 0) · W of the adjacency copy, the support matrix and the weights as the
    region finds them. -/
theorem value (c : Dev nD) :
    (dat (F := Ideal) V c).arrAt 3 cfg7.N
      = Gae.pass (V c main_v1_0 : Gae.Mat 10000 10000) (V c main_v6 : Gae.Mat 10000 256) (V c main_arg9 : Gae.Mat 256 256) :=
  (dat V c).arrAt_eq_of_cover 3 _ (fun t _ => flushed_eq V c t) covered

end Cert.KernelIdeal.Region7

end
-- ==== Proof.KernelIdeal.Value8.lean ====
/-
  Region 8 of the kernel program read as a value on the extended reals: the reconstruction.

  At grid point t the body leaves max(A_blk · S, 0) in the output buffer, where A_blk is rows 1000·t … 1000·t + 999 of the
  adjacency copy and S the whole 10000 × 256 support matrix. Entry (p, q) of that block is entry (1000·t + p, q) of
  max(A · S, 0), because row 1000·t + p of A · S depends on that row of A only. The ten blocks tile the 10000 rows (row r lies
  in the block of point r / 1000), so after the last write-back the output array holds max(A · S, 0).
-/
import proofs.«155458_g54082228191885_cont_9to1c4b_454_29_alg».proof.Proof.KernelIdeal.Region8
import proofs.«155458_g54082228191885_cont_9to1c4b_454_29_alg».proof.Proof.Spec
import Idealize.ShloMosaic.Lib.Pipeline.Value
import Idealize.ShloMosaic.Lib.ValueIdx
import Idealize.ShloMosaic.PureOps.Ideal.Laws

noncomputable section

namespace Cert.KernelIdeal.Region8

open Idealize.ShloMosaic Idealize.ShloMosaic.TcCoe Idealize.ShloMosaic.ValueIdx
open Idealize.ShloMosaic.Pipeline (Dat)
open Cert.KernelIdeal Cert.KernelIdeal.Gen

/-- The adjacency block times the support is a plain product: rows × contraction, contraction × columns. -/
theorem plainAS : PlainDot.IsPlain dot_S1000x10000_S10000x256_S1000x256_1_0_0_1_n_n := ⟨rfl, rfl, rfl, rfl, rfl, rfl⟩

/-- The body's result at (p, q): the rectified sum over the contracted axis. -/
theorem pay_apply (a : FVec Ideal S1000x10000 .bf16) (s : FVec Ideal S10000x256 .bf16) (p : Fin 1000) (q : Fin 256) :
    k8_pay1 (F := Ideal) a s (ix2 p q) = max (∑ k : Fin 10000, a (ix2 p k) * s (ix2 k q)) 0 := by
  unfold k8_pay1
  simp only [shapeCast_self]
  rw [maximumf_apply, broadcast_apply]
  exact congrArg₂ max (PlainDot.matmul_zero_apply plainAS a s p q) Ideal.ofBits_zero_f32

/-- A block of 1000 rows of A against the whole of S is those rows of max(A · S, 0): if the block `a` holds rows
    1000·n … 1000·n + 999 of `A` and `s` is `S`, the body's result at `j` is max(A · S, 0) at the index `i` whose row is
    1000·n + the row of `j` and whose column is that of `j`. -/
theorem pay_rows (A : Gae.Mat 10000 10000) (S : Gae.Mat 10000 256) (a : FVec Ideal S1000x10000 .bf16)
    (s : FVec Ideal S10000x256 .bf16) (n : Nat)
    (ha : ∀ (x : S1000x10000.Idx) (k : S10000x10000.Idx), (k 0).val = 1000 * n + (x 0).val → (k 1).val = (x 1).val → a x = A k)
    (hs : s = S) (j : S1000x256.Idx) (i : S10000x256.Idx) (hi0 : (i 0).val = 1000 * n + (j 0).val) (hi1 : (i 1).val = (j 1).val) :
    k8_pay1 (F := Ideal) a s j = Gae.relu (MatProd.matProd A S) i := by
  obtain ⟨p, q, rfl⟩ : ∃ (p : Fin 1000) (q : Fin 256), j = ix2 p q := ⟨j 0, j 1, eq_ix2 j⟩
  obtain ⟨r, q', rfl⟩ : ∃ (r : Fin 10000) (q' : Fin 256), i = ix2 r q' := ⟨i 0, i 1, eq_ix2 i⟩
  obtain rfl : q' = q := Fin.ext hi1
  subst hs
  rw [pay_apply]
  unfold Gae.relu
  rw [MatProd.matProd_apply]
  refine congrArg (max · 0) (Finset.sum_congr rfl fun k _ => ?_)
  rw [ha (ix2 p k) (ix2 r k) hi0 rfl]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency rows and the output rows move with the point, the support stays. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The adjacency window's block at point `t` is rows 1000·t … 1000·t + 999 of the adjacency copy. -/
theorem blk0_apply (c : Dev nD) (t : Fin cfg8.N) (x : S1000x10000.Idx) (k : S10000x10000.Idx)
    (hk0 : (k 0).val = 1000 * t.val + (x 0).val) (hk1 : (k 1).val = (x 1).val) :
    (blk V c 0 t : Vec Ideal S1000x10000 .bf16) x = (V c main_v1_0 : S10000x10000.Idx → Elt Ideal .bf16) k := by
  obtain ⟨e0, e1, -⟩ := idx_facts t
  unfold blk
  rw [View.read_apply]
  show V c main_v1_0 _ = V c main_v1_0 _
  congr 1
  funext a
  apply Fin.ext
  match a with
  | ⟨0, _⟩ => show win8_0.index t 0 * 1000 + 1 * (x 0).val = (k 0).val; rw [e0, hk0]; omega
  | ⟨1, _⟩ => show win8_0.index t 1 * 10000 + 1 * (x 1).val = (k 1).val; rw [e1, hk1]; omega

/-- The support window's block at every point is the whole support matrix. -/
theorem blk1_eq (c : Dev nD) (t : Fin cfg8.N) :
    (blk V c 1 t : Vec Ideal S10000x256 .bf16) = (V c main_v7 : S10000x256.Idx → Elt Ideal .bf16) := by
  obtain ⟨-, -, e2, e3, -⟩ := idx_facts t
  funext x
  unfold blk
  rw [View.read_apply]
  show V c main_v7 _ = V c main_v7 _
  congr 1
  funext a
  apply Fin.ext
  match a with
  | ⟨0, _⟩ => show win8_1.index t 0 * 10000 + 1 * (x 0).val = (x 0).val; rw [e2]; omega
  | ⟨1, _⟩ => show win8_1.index t 1 * 256 + 1 * (x 1).val = (x 1).val; rw [e3]; omega

/-- WHAT POINT `t` WRITES BACK is block `t` of max(A · S, 0). -/
theorem flushed_eq (c : Dev nD) (t : Fin cfg8.N) :
    (dat (F := Ideal) V c).flushed 2 t = ((cfg8.win 2).blk t).view.read (Elt Ideal)
      (Gae.relu (MatProd.matProd (V c main_v1_0 : Gae.Mat 10000 10000) (V c main_v7 : Gae.Mat 10000 256))) := by
  show (cfg8.win 2).cut (grid8.coords t) ((dat V c).after 2 t) = _
  rw [after_2]
  unfold out
  rw [View.canon_unit_zero hz]
  simp only [View.ld_unit_zero (S := S1000x10000) hz, View.ld_unit_zero (S := S10000x256) hz]
  obtain ⟨-, -, -, -, e4, e5⟩ := idx_facts t
  funext j
  show k8_pay1 (F := Ideal) (blk V c 0 t) (blk V c 1 t) ((cfg8.win 2).xinj (grid8.coords t) j)
    = Gae.relu (MatProd.matProd (V c main_v1_0 : Gae.Mat 10000 10000) (V c main_v7 : Gae.Mat 10000 256))
        (((cfg8.win 2).blk t).view.emb j)
  refine pay_rows _ _ _ _ t.val (fun x k h0 h1 => blk0_apply V c t x k h0 h1) (blk1_eq V c t) _ _ ?_ ?_
  · show win8_2.index t 0 * 1000 + 1 * (j 0).val = 1000 * t.val + (j 0).val
    rw [e4]; omega
  · show win8_2.index t 1 * 256 + 1 * (j 1).val = (j 1).val
    rw [e5]; omega

/-- An index of the output array is in point `t`'s block iff each coordinate is in the block's range on its axis. -/
theorem mem_blk (t : Fin cfg8.N) (i : S10000x256.Idx) :
    i ∈ ((cfg8.win 2).blk t).view.set ↔ ∀ a : Fin 2, win8_2.index t a * S1000x256.size a ≤ (i a).val
      ∧ (i a).val < win8_2.index t a * S1000x256.size a + S1000x256.size a := by
  show i ∈ ((View.whole main_v8).slice (win8_2.rect t)).set ↔ _
  rw [View.set_slice_whole, Rect.mem_set_unit]
  exact Iff.rfl

/-- Row r lies in the block of point r / 1000. -/
theorem covered (i : S10000x256.Idx) :
    ∃ t : Fin cfg8.N, (cfg8.win 2).flush t = true ∧ i ∈ ((cfg8.win 2).blk t).view.set := by
  have h0 : (i 0).val < 10000 := (i 0).isLt
  have h1 : (i 1).val < 256 := (i 1).isLt
  have hN : cfg8.N = 10 := N_8
  have ht : (i 0).val / 1000 < cfg8.N := by rw [hN]; omega
  obtain ⟨-, -, -, -, e4, e5⟩ := idx_facts ⟨(i 0).val / 1000, ht⟩
  refine ⟨⟨(i 0).val / 1000, ht⟩, flush8_2 _, ?_⟩
  rw [mem_blk]
  intro a
  match a with
  | ⟨0, _⟩ =>
    show win8_2.index ⟨(i 0).val / 1000, ht⟩ 0 * 1000 ≤ (i 0).val ∧ (i 0).val < win8_2.index ⟨(i 0).val / 1000, ht⟩ 0 * 1000 + 1000
    rw [e4]; show (i 0).val / 1000 * 1000 ≤ (i 0).val ∧ (i 0).val < (i 0).val / 1000 * 1000 + 1000; omega
  | ⟨1, _⟩ =>
    show win8_2.index ⟨(i 0).val / 1000, ht⟩ 1 * 256 ≤ (i 1).val ∧ (i 1).val < win8_2.index ⟨(i 0).val / 1000, ht⟩ 1 * 256 + 256
    rw [e5]; omega

/-- THE ARRAY after the region: max(A · S, 0) of the adjacency copy and the last support matrix as the region finds them. -/
theorem value (c : Dev nD) :
    (dat (F := Ideal) V c).arrAt 2 cfg8.N
      = Gae.relu (MatProd.matProd (V c main_v1_0 : Gae.Mat 10000 10000) (V c main_v7 : Gae.Mat 10000 256)) :=
  (dat V c).arrAt_eq_of_cover 2 _ (fun t _ => flushed_eq V c t) covered

end Cert.KernelIdeal.Region8

end
-- ==== Proof.LibRowsDot.lean ====
/-
  A matrix product that contracts the SECOND axis of both operands — rows against rows, no batch axis — read at an index.

  For dimension numbers `d` of that kind over shapes `[P, K]`, `[N, K]`, `[P, N]`, the exact contraction
  `∑ κ, l (d.lhsIdx j κ) * r (d.rhsIdx j κ)` over the one contracted axis is the sum
  `∑ k : Fin K, l (p, k) * r (n, k)` at the result index `j = (p, n)`: the left operand is read along its row `p`, the
  right operand along its row `n`, and the contracted axis of extent `K` is re-indexed by `Fin K`.  This is the product of
  the left operand with the TRANSPOSE of the right one.
-/
import Idealize.ShloMosaic.Lib.ValueIdx
import Idealize.ShloMosaic.PureOps.Ideal.Laws

noncomputable section

namespace RowsDot

open Idealize.ShloMosaic Idealize.ShloMosaic.ValueIdx

variable {P K N : Nat}

/-- The dimension numbers of a rows-against-rows product: both operands contract their second axis; the first axes are the
    result's, the left operand's first; no batch axis. -/
structure IsRows (d : DotDims ⟨2, ![P, K]⟩ ⟨2, ![N, K]⟩ ⟨2, ![P, N]⟩) : Prop where
  lc : d.lhsContracting = [(1 : Fin 2)]
  rc : d.rhsContracting = [(1 : Fin 2)]
  ln : d.lhsNonContracting = [(0 : Fin 2)]
  rn : d.rhsNonContracting = [(0 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![N, K]⟩ ⟨2, ![P, N]⟩}

/-- The left operand's row is the result's row. -/
theorem lhs_row (h : IsRows d) (j : (⟨2, ![P, N]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's row is the result's column. -/
theorem rhs_row (h : IsRows d) (j : (⟨2, ![P, N]⟩ : Shape).Idx) (κ : d.contr.Idx) :
    (d.rhsIdx j κ (0 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsRows d) : d.contr.rank = 1 := by rw [d.rank_contr, h.lc]; rfl

theorem contr_size (h : IsRows d) : d.contr.size ⟨0, by rw [contr_rank h]; exact Nat.one_pos⟩ = K := by
  have e := d.size_contr 0 (by rw [h.lc]; exact Nat.one_pos)
  rw [e]
  simp [h.lc]

/-- THE PRODUCT AT `(p, n)`: the sum over `k : Fin K` of the left operand at `(p, k)` times the right at `(n, k)`. -/
theorem sum_eq (h : IsRows d) (l : (⟨2, ![P, K]⟩ : Shape).Idx → EReal) (r : (⟨2, ![N, K]⟩ : Shape).Idx → EReal)
    (p : Fin P) (n : Fin N) :
    ∑ κ : d.contr.Idx, l (d.lhsIdx (ix2 p n) κ) * r (d.rhsIdx (ix2 p n) κ) = ∑ k : Fin K, l (ix2 p k) * r (ix2 n k) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p n) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p n) ((contrEquiv1 d K (contr_rank h) (contr_size h)).symm k) = ix2 n k :=
    funext fun a => Fin.ext (by
      match a with
      | ⟨0, _⟩ => exact rhs_row h _ _
      | ⟨1, _⟩ => exact (d.rhsIdx_val_of_single h.rc _ _).trans hk)
  rw [el, er]

/-- A `tpu.matmul` into the zero accumulator, at the ideal instance, read at `(p, n)`. -/
theorem matmul_zero_apply (h : IsRows d) {φ₁ φ₂ : FTy} (l : FVec Ideal ⟨2, ![P, K]⟩ φ₁) (r : FVec Ideal ⟨2, ![N, K]⟩ φ₂)
    (p : Fin P) (n : Fin N) :
    FloatOps.matmul d none l r (constant ⟨2, ![P, N]⟩ .f32 0x00000000#32) (ix2 p n) = ∑ k : Fin K, l (ix2 p k) * r (ix2 n k) := by
  rw [Ideal.matmul_constant_zero_apply]
  exact sum_eq h l r p n

end RowsDot

end
-- ==== Proof.KernelIdeal.Value9.lean ====
/-
  Region 9 of the kernel program read as a value on the extended reals: the reconstructed adjacency.

  At grid point t the body leaves 1 + ½·(tanh(½·G_blk Gᵀ) + tanh(½·H_blk Hᵀ)) in the output buffer, where G_blk and H_blk are
  rows 400·t … 400·t + 399 of the embedding G (10000 × 32) and of the reconstruction H (10000 × 256), and the transposed
  factors are the whole of G and of H. Entry (p, n) of that block is entry (400·t + p, n) of
  1 + ½·(tanh(½·G Gᵀ) + tanh(½·H Hᵀ)), because row 400·t + p of a Gram matrix depends on that row of the left factor only. The
  25 blocks tile the 10000 rows (row r lies in the block of point r / 400), so after the last write-back the output array
  holds that function of G and H.
-/
import proofs.«155458_g54082228191885_cont_9to1c4b_454_29_alg».proof.Proof.KernelIdeal.Region9
import proofs.«155458_g54082228191885_cont_9to1c4b_454_29_alg».proof.Proof.Spec
import proofs.«155458_g54082228191885_cont_9to1c4b_454_29_alg».proof.Proof.LibRowsDot
import Idealize.ShloMosaic.Lib.Pipeline.Value
import Idealize.ShloMosaic.Lib.ValueIdx
import Idealize.ShloMosaic.PureOps.Ideal.Laws

noncomputable section

namespace Cert.KernelIdeal.Region9

open Idealize.ShloMosaic Idealize.ShloMosaic.TcCoe Idealize.ShloMosaic.ValueIdx
open Idealize.ShloMosaic.Pipeline (Dat)
open Cert.KernelIdeal Cert.KernelIdeal.Gen

/-- The embedding's rows against the embedding's rows: both factors contract their second axis. -/
theorem rowsG : RowsDot.IsRows dot_S400x32_S10000x32_S400x10000_1_1_0_0_n_n := ⟨rfl, rfl, rfl, rfl, rfl, rfl⟩

/-- So do the reconstruction's rows against the reconstruction's rows. -/
theorem rowsH : RowsDot.IsRows dot_S400x256_S10000x256_S400x10000_1_1_0_0_n_n := ⟨rfl, rfl, rfl, rfl, rfl, rfl⟩

/-- The hyperbolic tangent of a vector, read at an index. -/
theorem tanh_apply {s : Shape} {φ : FTy} (a : FVec Ideal s φ) (i : s.Idx) : tanh a i = Ideal.tanh (a i) := rfl

/-- The body's result at (p, n): one plus half the sum of the two hyperbolic tangents of half the two row products. -/
theorem pay_apply (g : FVec Ideal S400x32 .f32) (gw : FVec Ideal S10000x32 .f32) (h : FVec Ideal S400x256 .bf16)
    (hw : FVec Ideal S10000x256 .bf16) (p : Fin 400) (n : Fin 10000) :
    k9_pay1 (F := Ideal) g gw h hw (ix2 p n)
      = 1 + ((1 / 2 : ℝ) : EReal) * (Ideal.tanh (((1 / 2 : ℝ) : EReal) * ∑ k : Fin 32, g (ix2 p k) * gw (ix2 n k))
          + Ideal.tanh (((1 / 2 : ℝ) : EReal) * ∑ k : Fin 256, h (ix2 p k) * hw (ix2 n k))) := by
  have e1 : FloatOps.matmul dot_S400x32_S10000x32_S400x10000_1_1_0_0_n_n none (truncf .bf16 g bitsLt_bf16_f32)
      (truncf .bf16 gw bitsLt_bf16_f32) (constant S400x10000 .f32 0x00000000#32) (ix2 p n)
        = ∑ k : Fin 32, g (ix2 p k) * gw (ix2 n k) := RowsDot.matmul_zero_apply rowsG _ _ p n
  have e2 : FloatOps.matmul dot_S400x256_S10000x256_S400x10000_1_1_0_0_n_n none h hw (constant S400x10000 .f32 0x00000000#32) (ix2 p n)
        = ∑ k : Fin 256, h (ix2 p k) * hw (ix2 n k) := RowsDot.matmul_zero_apply rowsH _ _ p n
  unfold k9_pay1
  simp only [shapeCast_self]
  simp only [addf_apply, mulf_apply, broadcast_apply, tanh_apply]
  refine Eq.trans (congrArg₂ (fun x y : EReal => Ideal.ofBits .f32 0x3F800000#32 + Ideal.ofBits .f32 0x3F000000#32
    * (Ideal.tanh (Ideal.ofBits .f32 0x3F000000#32 * x) + Ideal.tanh (Ideal.ofBits .f32 0x3F000000#32 * y))) e1 e2) ?_
  simp only [LibSigmoidTanh.ofBits_half, LibSigmoidTanh.ofBits_one]

/-- A block of 400 rows of G and of H against the whole of G and H is those rows of the reconstructed adjacency: if `g` and `h`
    hold rows 400·m … 400·m + 399 of `Zg` and `Zh`, `gw` is `Zg` and `hw` is `Zh`, the body's result at `j` is
    1 + ½·(tanh(½·Zg Zgᵀ) + tanh(½·Zh Zhᵀ)) at the index `i` whose row is 400·m + the row of `j` and whose column is that of `j`. -/
theorem pay_rows (Zg : Gae.Mat 10000 32) (Zh : Gae.Mat 10000 256) (g : FVec Ideal S400x32 .f32) (gw : FVec Ideal S10000x32 .f32)
    (h : FVec Ideal S400x256 .bf16) (hw : FVec Ideal S10000x256 .bf16) (m : Nat)
    (hg : ∀ (x : S400x32.Idx) (k : S10000x32.Idx), (k 0).val = 400 * m + (x 0).val → (k 1).val = (x 1).val → g x = Zg k)
    (hh : ∀ (x : S400x256.Idx) (k : S10000x256.Idx), (k 0).val = 400 * m + (x 0).val → (k 1).val = (x 1).val → h x = Zh k)
    (hgw : gw = Zg) (hhw : hw = Zh) (j : S400x10000.Idx) (i : S10000x10000.Idx) (hi0 : (i 0).val = 400 * m + (j 0).val)
    (hi1 : (i 1).val = (j 1).val) :
    k9_pay1 (F := Ideal) g gw h hw j = Gae.adjHatTanh Zg Zh i := by
  obtain ⟨p, n, rfl⟩ : ∃ (p : Fin 400) (n : Fin 10000), j = ix2 p n := ⟨j 0, j 1, eq_ix2 j⟩
  obtain ⟨r, n', rfl⟩ : ∃ (r : Fin 10000) (n' : Fin 10000), i = ix2 r n' := ⟨i 0, i 1, eq_ix2 i⟩
  obtain rfl : n = n' := (Fin.ext hi1).symm
  subst hgw
  subst hhw
  rw [pay_apply]
  have e1 : ∑ k : Fin 32, g (ix2 p k) * gw (ix2 n k) = Gae.gram gw (ix2 r n) :=
    Finset.sum_congr rfl fun k _ => by rw [hg (ix2 p k) (ix2 r k) hi0 rfl]
  have e2 : ∑ k : Fin 256, h (ix2 p k) * hw (ix2 n k) = Gae.gram hw (ix2 r n) :=
    Finset.sum_congr rfl fun k _ => by rw [hh (ix2 p k) (ix2 r k) hi0 rfl]
  rw [e1, e2]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row blocks and the output rows move with the point, the two whole factors
    stay. -/
theorem idx_facts : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- The first window's block at point `t` is rows 400·t … 400·t + 399 of the embedding. -/
theorem blk0_apply (c : Dev nD) (t : Fin cfg9.N) (x : S400x32.Idx) (k : S10000x32.Idx)
    (hk0 : (k 0).val = 400 * t.val + (x 0).val) (hk1 : (k 1).val = (x 1).val) :
    (blk V c 0 t : Vec Ideal S400x32 .f32) x = (V c main_v4_0 : S10000x32.Idx → Elt Ideal .f32) k := by
  obtain ⟨e0, e1, -⟩ := idx_facts t
  unfold blk
  rw [View.read_apply]
  show V c main_v4_0 _ = V c main_v4_0 _
  congr 1
  funext a
  apply Fin.ext
  match a with
  | ⟨0, _⟩ => show win9_0.index t 0 * 400 + 1 * (x 0).val = (k 0).val; rw [e0, hk0]; omega
  | ⟨1, _⟩ => show win9_0.index t 1 * 32 + 1 * (x 1).val = (k 1).val; rw [e1, hk1]; omega

/-- The second window's block at point `t` is rows 400·t … 400·t + 399 of the reconstruction. -/
theorem blk1_apply (c : Dev nD) (t : Fin cfg9.N) (x : S400x256.Idx) (k : S10000x256.Idx)
    (hk0 : (k 0).val = 400 * t.val + (x 0).val) (hk1 : (k 1).val = (x 1).val) :
    (blk V c 1 t : Vec Ideal S400x256 .bf16) x = (V c main_v9 : S10000x256.Idx → Elt Ideal .bf16) k := by
  obtain ⟨-, -, e2, e3, -⟩ := idx_facts t
  unfold blk
  rw [View.read_apply]
  show V c main_v9 _ = V c main_v9 _
  congr 1
  funext a
  apply Fin.ext
  match a with
  | ⟨0, _⟩ => show win9_1.index t 0 * 400 + 1 * (x 0).val = (k 0).val; rw [e2, hk0]; omega
  | ⟨1, _⟩ => show win9_1.index t 1 * 256 + 1 * (x 1).val = (k 1).val; rw [e3, hk1]; omega

/-- The third window's block at every point is the whole embedding. -/
theorem blk2_eq (c : Dev nD) (t : Fin cfg9.N) :
    (blk V c 2 t : Vec Ideal S10000x32 .f32) = (V c main_v4_0 : S10000x32.Idx → Elt Ideal .f32) := by
  obtain ⟨-, -, -, -, e4, e5, -⟩ := idx_facts t
  funext x
  unfold blk
  rw [View.read_apply]
  show V c main_v4_0 _ = V c main_v4_0 _
  congr 1
  funext a
  apply Fin.ext
  match a with
  | ⟨0, _⟩ => show win9_2.index t 0 * 10000 + 1 * (x 0).val = (x 0).val; rw [e4]; omega
  | ⟨1, _⟩ => show win9_2.index t 1 * 32 + 1 * (x 1).val = (x 1).val; rw [e5]; omega

/-- The fourth window's block at every point is the whole reconstruction. -/
theorem blk3_eq (c : Dev nD) (t : Fin cfg9.N) :
    (blk V c 3 t : Vec Ideal S10000x256 .bf16) = (V c main_v9 : S10000x256.Idx → Elt Ideal .bf16) := by
  obtain ⟨-, -, -, -, -, -, e6, e7, -⟩ := idx_facts t
  funext x
  unfold blk
  rw [View.read_apply]
  show V c main_v9 _ = V c main_v9 _
  congr 1
  funext a
  apply Fin.ext
  match a with
  | ⟨0, _⟩ => show win9_3.index t 0 * 10000 + 1 * (x 0).val = (x 0).val; rw [e6]; omega
  | ⟨1, _⟩ => show win9_3.index t 1 * 256 + 1 * (x 1).val = (x 1).val; rw [e7]; omega

/-- WHAT POINT `t` WRITES BACK is block `t` of 1 + ½·(tanh(½·G Gᵀ) + tanh(½·H Hᵀ)). -/
theorem flushed_eq (c : Dev nD) (t : Fin cfg9.N) :
    (dat (F := Ideal) V c).flushed 4 t = ((cfg9.win 4).blk t).view.read (Elt Ideal)
      (Gae.adjHatTanh (V c main_v4_0 : Gae.Mat 10000 32) (V c main_v9 : Gae.Mat 10000 256)) := by
  show (cfg9.win 4).cut (grid9.coords t) ((dat V c).after 4 t) = _
  rw [after_4]
  unfold out
  rw [View.canon_unit_zero hz]
  simp only [View.ld_unit_zero (S := S400x32) hz, View.ld_unit_zero (S := S10000x32) hz, View.ld_unit_zero (S := S400x256) hz,
    View.ld_unit_zero (S := S10000x256) hz]
  obtain ⟨-, -, -, -, -, -, -, -, e8, e9⟩ := idx_facts t
  funext j
  show k9_pay1 (F := Ideal) (blk V c 0 t) (blk V c 2 t) (blk V c 1 t) (blk V c 3 t) ((cfg9.win 4).xinj (grid9.coords t) j)
    = Gae.adjHatTanh (V c main_v4_0 : Gae.Mat 10000 32) (V c main_v9 : Gae.Mat 10000 256) (((cfg9.win 4).blk t).view.emb j)
  refine pay_rows _ _ _ _ _ _ t.val (fun x k h0 h1 => blk0_apply V c t x k h0 h1) (fun x k h0 h1 => blk1_apply V c t x k h0 h1)
    (blk2_eq V c t) (blk3_eq V c t) _ _ ?_ ?_
  · show win9_4.index t 0 * 400 + 1 * (j 0).val = 400 * t.val + (j 0).val
    rw [e8]; omega
  · show win9_4.index t 1 * 10000 + 1 * (j 1).val = (j 1).val
    rw [e9]; omega

/-- An index of the output array is in point `t`'s block iff each coordinate is in the block's range on its axis. -/
theorem mem_blk (t : Fin cfg9.N) (i : S10000x10000.Idx) :
    i ∈ ((cfg9.win 4).blk t).view.set ↔ ∀ a : Fin 2, win9_4.index t a * S400x10000.size a ≤ (i a).val
      ∧ (i a).val < win9_4.index t a * S400x10000.size a + S400x10000.size a := by
  show i ∈ ((View.whole main_v10).slice (win9_4.rect t)).set ↔ _
  rw [View.set_slice_whole, Rect.mem_set_unit]
  exact Iff.rfl

/-- Row r lies in the block of point r / 400. -/
theorem covered (i : S10000x10000.Idx) :
    ∃ t : Fin cfg9.N, (cfg9.win 4).flush t = true ∧ i ∈ ((cfg9.win 4).blk t).view.set := by
  have h0 : (i 0).val < 10000 := (i 0).isLt
  have h1 : (i 1).val < 10000 := (i 1).isLt
  have hN : cfg9.N = 25 := N_9
  have ht : (i 0).val / 400 < cfg9.N := by rw [hN]; omega
  obtain ⟨-, -, -, -, -, -, -, -, e8, e9⟩ := idx_facts ⟨(i 0).val / 400, ht⟩
  refine ⟨⟨(i 0).val / 400, ht⟩, flush9_4 _, ?_⟩
  rw [mem_blk]
  intro a
  match a with
  | ⟨0, _⟩ =>
    show win9_4.index ⟨(i 0).val / 400, ht⟩ 0 * 400 ≤ (i 0).val ∧ (i 0).val < win9_4.index ⟨(i 0).val / 400, ht⟩ 0 * 400 + 400
    rw [e8]; show (i 0).val / 400 * 400 ≤ (i 0).val ∧ (i 0).val < (i 0).val / 400 * 400 + 400; omega
  | ⟨1, _⟩ =>
    show win9_4.index ⟨(i 0).val / 400, ht⟩ 1 * 10000 ≤ (i 1).val ∧ (i 1).val < win9_4.index ⟨(i 0).val / 400, ht⟩ 1 * 10000 + 10000
    rw [e9]; omega

/-- THE ARRAY after the region: 1 + ½·(tanh(½·G Gᵀ) + tanh(½·H Hᵀ)) of the embedding and the reconstruction as the region finds
    them. -/
theorem value (c : Dev nD) :
    (dat (F := Ideal) V c).arrAt 4 cfg9.N
      = Gae.adjHatTanh (V c main_v4_0 : Gae.Mat 10000 32) (V c main_v9 : Gae.Mat 10000 256) :=
  (dat V c).arrAt_eq_of_cover 4 _ (fun t _ => flushed_eq V c t) covered

end Cert.KernelIdeal.Region9

end
-- ==== Proof.KernelIdeal.Values.lean ====
/-
  The idealized kernel program's three results as the specification's functions of the argument arrays.

  Following the buffers' contents item by item (the run names them): region 0 leaves x · W₁; region 1 the adjacency's copy and
  the second support; regions 2 and 3 the third and fourth supports; region 4 the embedding Zg = A · s₄ and s₅ = Zg · W₅;
  regions 5, 6, 7 the next supports; region 8 the reconstruction Zh = max(A · s₈, 0); the host stretch its re-formatted copy,
  which on the extended reals is Zh itself; region 9 the rows 1 + ½·(tanh(½·Zg Zgᵀ) + tanh(½·Zh Zhᵀ)). Each step is that
  region's output array as a whole-array function of its input arrays, read at contents that are, by the previous steps,
  the specification's arrays; an array no later item writes keeps its contents.
-/
import proofs.«155458_g54082228191885_cont_9to1c4b_454_29_alg».proof.Proof.KernelIdeal.Frame
import Idealize.ShloMosaic.Lib.StableHlo.Run
import proofs.«155458_g54082228191885_cont_9to1c4b_454_29_alg».proof.Proof.KernelIdeal.Value0
import proofs.«155458_g54082228191885_cont_9to1c4b_454_29_alg».proof.Proof.KernelIdeal.Value1
import proofs.«155458_g54082228191885_cont_9to1c4b_454_29_alg».proof.Proof.KernelIdeal.Value2
import proofs.«155458_g54082228191885_cont_9to1c4b_454_29_alg».proof.Proof.KernelIdeal.Value3
import proofs.«155458_g54082228191885_cont_9to1c4b_454_29_alg».proof.Proof.KernelIdeal.Value4
import proofs.«155458_g54082228191885_cont_9to1c4b_454_29_alg».proof.Proof.KernelIdeal.Value5
import proofs.«155458_g54082228191885_cont_9to1c4b_454_29_alg».proof.Proof.KernelIdeal.Value6
import proofs.«155458_g54082228191885_cont_9to1c4b_454_29_alg».proof.Proof.KernelIdeal.Value7
import proofs.«155458_g54082228191885_cont_9to1c4b_454_29_alg».proof.Proof.KernelIdeal.Value8
import proofs.«155458_g54082228191885_cont_9to1c4b_454_29_alg».proof.Proof.KernelIdeal.Value9

set_option maxRecDepth 16384

noncomputable section

namespace Cert.KernelIdeal.Run

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD)

/-- The argument arrays of core `c` as matrices. -/
abbrev aX : Gae.Mat 10000 256 := m ((c : Thread nD τ).loc main_arg0)
abbrev aA : Gae.Mat 10000 10000 := m ((c : Thread nD τ).loc main_arg1)
abbrev aW1 : Gae.Mat 256 256 := m ((c : Thread nD τ).loc main_arg2)
abbrev aW2 : Gae.Mat 256 128 := m ((c : Thread nD τ).loc main_arg3)
abbrev aW3 : Gae.Mat 128 64 := m ((c : Thread nD τ).loc main_arg4)
abbrev aW4 : Gae.Mat 64 32 := m ((c : Thread nD τ).loc main_arg5)
abbrev aW5 : Gae.Mat 32 64 := m ((c : Thread nD τ).loc main_arg6)
abbrev aW6 : Gae.Mat 64 128 := m ((c : Thread nD τ).loc main_arg7)
abbrev aW7 : Gae.Mat 128 256 := m ((c : Thread nD τ).loc main_arg8)
abbrev aW8 : Gae.Mat 256 256 := m ((c : Thread nD τ).loc main_arg9)

/-! ## One item: the buffers it does not write keep their contents -/

theorem U1_keep (r : Ref sig .tc) (h : r ≠ main_v0) : U1 m c r = U0 m c r := by unfold U1; exact upd_ne _ _ _ h _
theorem U2_keep (r : Ref sig .tc) (h : r ≠ main_v1_0) (h' : r ≠ main_v1_1) : U2 m c r = U1 m c r := by
  unfold U2; rw [upd_ne _ _ _ h', upd_ne _ _ _ h]
theorem U3_keep (r : Ref sig .tc) (h : r ≠ main_v2) : U3 m c r = U2 m c r := by unfold U3; exact upd_ne _ _ _ h _
theorem U4_keep (r : Ref sig .tc) (h : r ≠ main_v3) : U4 m c r = U3 m c r := by unfold U4; exact upd_ne _ _ _ h _
theorem U5_keep (r : Ref sig .tc) (h : r ≠ main_v4_0) (h' : r ≠ main_v4_1) : U5 m c r = U4 m c r := by
  unfold U5; rw [upd_ne _ _ _ h', upd_ne _ _ _ h]
theorem U6_keep (r : Ref sig .tc) (h : r ≠ main_v5) : U6 m c r = U5 m c r := by unfold U6; exact upd_ne _ _ _ h _
theorem U7_keep (r : Ref sig .tc) (h : r ≠ main_v6) : U7 m c r = U6 m c r := by unfold U7; exact upd_ne _ _ _ h _
theorem U8_keep (r : Ref sig .tc) (h : r ≠ main_v7) : U8 m c r = U7 m c r := by unfold U8; exact upd_ne _ _ _ h _
theorem U9_keep (r : Ref sig .tc) (h : r ≠ main_v8) : U9 m c r = U8 m c r := by unfold U9; exact upd_ne _ _ _ h _
theorem U10_keep (r : Ref sig .tc) (h : r ∉ hostOps9_W) : U10 m c r = U9 m c r := by
  unfold U10; exact StableHlo.after_of_writes_sub hostOps9 _ hostOps9_writes h
theorem U11_keep (r : Ref sig .tc) (h : r ≠ main_v10) : U11 m c r = U10 m c r := by unfold U11; exact upd_ne _ _ _ h _

/-! ## The arguments, before every region -/

theorem U0_arg (r : Ref sig .tc) : U0 m c r = m ((c : Thread nD τ).loc r) := rfl

/-! ## The arrays the regions leave -/

theorem v0_eq : (U1 m c main_v0 : Gae.Mat 10000 256) = Gae.sup1 (aX m c) (aW1 m c) := by
  unfold U1; rw [upd_self]
  exact Region0.value_2 (rd (U0 m)) c

theorem v1_0_eq : (U2 m c main_v1_0 : Gae.Mat 10000 10000) = aA m c := by
  unfold U2; rw [upd_ne _ _ _ (by decide), upd_self]
  exact (Region1.value_3 (rd (U1 m)) c).trans (U1_keep m c main_arg1 (by decide))

theorem v1_1_eq : (U2 m c main_v1_1 : Gae.Mat 10000 128) = Gae.sup2 (aA m c) (aX m c) (aW1 m c) (aW2 m c) := by
  unfold U2; rw [upd_self]
  refine (Region1.value_4 (rd (U1 m)) c).trans ?_
  show Gae.pass (U1 m c main_arg1) (U1 m c main_v0) (U1 m c main_arg3) = _
  rw [v0_eq, U1_keep m c main_arg1 (by decide), U1_keep m c main_arg3 (by decide)]
  rfl

theorem v2_eq : (U3 m c main_v2 : Gae.Mat 10000 64) = Gae.sup3 (aA m c) (aX m c) (aW1 m c) (aW2 m c) (aW3 m c) := by
  unfold U3; rw [upd_self]
  refine (Region2.value_3 (rd (U2 m)) c).trans ?_
  show Gae.pass (U2 m c main_v1_0) (U2 m c main_v1_1) (U2 m c main_arg4) = _
  rw [v1_0_eq, v1_1_eq, U2_keep m c main_arg4 (by decide) (by decide), U1_keep m c main_arg4 (by decide)]
  rfl

/-- The adjacency's copy, once written, is read unchanged by every later region. -/
theorem adj3 : (U3 m c main_v1_0 : Gae.Mat 10000 10000) = aA m c := (U3_keep m c main_v1_0 (by decide)).trans (v1_0_eq m c)
theorem adj4 : (U4 m c main_v1_0 : Gae.Mat 10000 10000) = aA m c := (U4_keep m c main_v1_0 (by decide)).trans (adj3 m c)
theorem adj5 : (U5 m c main_v1_0 : Gae.Mat 10000 10000) = aA m c := (U5_keep m c main_v1_0 (by decide) (by decide)).trans (adj4 m c)
theorem adj6 : (U6 m c main_v1_0 : Gae.Mat 10000 10000) = aA m c := (U6_keep m c main_v1_0 (by decide)).trans (adj5 m c)
theorem adj7 : (U7 m c main_v1_0 : Gae.Mat 10000 10000) = aA m c := (U7_keep m c main_v1_0 (by decide)).trans (adj6 m c)
theorem adj8 : (U8 m c main_v1_0 : Gae.Mat 10000 10000) = aA m c := (U8_keep m c main_v1_0 (by decide)).trans (adj7 m c)

/-- An argument's buffer before each region. -/
theorem arg3 (r : Ref sig .tc) (h : ∀ x ∈ written, r ≠ x) : U3 m c r = m ((c : Thread nD τ).loc r) :=
  (U3_keep m c r (h _ (by simp [written]))).trans ((U2_keep m c r (h _ (by simp [written])) (h _ (by simp [written]))).trans
    (U1_keep m c r (h _ (by simp [written]))))
theorem arg4 (r : Ref sig .tc) (h : ∀ x ∈ written, r ≠ x) : U4 m c r = m ((c : Thread nD τ).loc r) :=
  (U4_keep m c r (h _ (by simp [written]))).trans (arg3 m c r h)
theorem arg5 (r : Ref sig .tc) (h : ∀ x ∈ written, r ≠ x) : U5 m c r = m ((c : Thread nD τ).loc r) :=
  (U5_keep m c r (h _ (by simp [written])) (h _ (by simp [written]))).trans (arg4 m c r h)
theorem arg6 (r : Ref sig .tc) (h : ∀ x ∈ written, r ≠ x) : U6 m c r = m ((c : Thread nD τ).loc r) :=
  (U6_keep m c r (h _ (by simp [written]))).trans (arg5 m c r h)
theorem arg7 (r : Ref sig .tc) (h : ∀ x ∈ written, r ≠ x) : U7 m c r = m ((c : Thread nD τ).loc r) :=
  (U7_keep m c r (h _ (by simp [written]))).trans (arg6 m c r h)

theorem v3_eq : (U4 m c main_v3 : Gae.Mat 10000 32) = Gae.sup4 (aA m c) (aX m c) (aW1 m c) (aW2 m c) (aW3 m c) (aW4 m c) := by
  unfold U4; rw [upd_self]
  refine (Region3.value_3 (rd (U3 m)) c).trans ?_
  show Gae.pass (U3 m c main_v1_0) (U3 m c main_v2) (U3 m c main_arg5) = _
  rw [adj3, v2_eq, arg3 m c main_arg5 (by decide)]
  rfl

/-- The embedding, the program's first result. -/
theorem v4_0_eq : (U5 m c main_v4_0 : Gae.Mat 10000 32) = Gae.zGae (aA m c) (aX m c) (aW1 m c) (aW2 m c) (aW3 m c) (aW4 m c) := by
  unfold U5; rw [upd_ne _ _ _ (by decide), upd_self]
  refine (Region4.value_3 (rd (U4 m)) c).trans ?_
  show MatProd.matProd (U4 m c main_v1_0) (U4 m c main_v3) = _
  rw [adj4, v3_eq]
  rfl

theorem v4_1_eq : (U5 m c main_v4_1 : Gae.Mat 10000 64)
    = Gae.sup5 (aA m c) (aX m c) (aW1 m c) (aW2 m c) (aW3 m c) (aW4 m c) (aW5 m c) := by
  unfold U5; rw [upd_self]
  refine (Region4.value_4 (rd (U4 m)) c).trans ?_
  show MatProd.matProd (MatProd.matProd (U4 m c main_v1_0) (U4 m c main_v3)) (U4 m c main_arg6) = _
  rw [adj4, v3_eq, arg4 m c main_arg6 (by decide)]
  rfl

theorem v5_eq : (U6 m c main_v5 : Gae.Mat 10000 128)
    = Gae.sup6 (aA m c) (aX m c) (aW1 m c) (aW2 m c) (aW3 m c) (aW4 m c) (aW5 m c) (aW6 m c) := by
  unfold U6; rw [upd_self]
  refine (Region5.value (rd (U5 m)) c).trans ?_
  show Gae.pass (U5 m c main_v1_0) (U5 m c main_v4_1) (U5 m c main_arg7) = _
  rw [adj5, v4_1_eq, arg5 m c main_arg7 (by decide)]
  rfl

theorem v6_eq : (U7 m c main_v6 : Gae.Mat 10000 256)
    = Gae.sup7 (aA m c) (aX m c) (aW1 m c) (aW2 m c) (aW3 m c) (aW4 m c) (aW5 m c) (aW6 m c) (aW7 m c) := by
  unfold U7; rw [upd_self]
  refine (Region6.value (rd (U6 m)) c).trans ?_
  show Gae.pass (U6 m c main_v1_0) (U6 m c main_v5) (U6 m c main_arg8) = _
  rw [adj6, v5_eq, arg6 m c main_arg8 (by decide)]
  rfl

theorem v7_eq : (U8 m c main_v7 : Gae.Mat 10000 256)
    = Gae.sup8 (aA m c) (aX m c) (aW1 m c) (aW2 m c) (aW3 m c) (aW4 m c) (aW5 m c) (aW6 m c) (aW7 m c) (aW8 m c) := by
  unfold U8; rw [upd_self]
  refine (Region7.value (rd (U7 m)) c).trans ?_
  show Gae.pass (U7 m c main_v1_0) (U7 m c main_v6) (U7 m c main_arg9) = _
  rw [adj7, v6_eq, arg7 m c main_arg9 (by decide)]
  rfl

/-- The reconstruction, the program's second result. -/
theorem v8_eq : (U9 m c main_v8 : Gae.Mat 10000 256)
    = Gae.zHat (aA m c) (aX m c) (aW1 m c) (aW2 m c) (aW3 m c) (aW4 m c) (aW5 m c) (aW6 m c) (aW7 m c) (aW8 m c) := by
  unfold U9; rw [upd_self]
  refine (Region8.value (rd (U8 m)) c).trans ?_
  show Gae.relu (MatProd.matProd (U8 m c main_v1_0) (U8 m c main_v7)) = _
  rw [adj8, v7_eq]
  rfl

/-! ## The host stretch, and what the last region reads -/

/-- The re-formatted reconstruction the host stretch writes is, on the extended reals, the reconstruction. -/
theorem v9_eq : (U10 m c main_v9 : Gae.Mat 10000 256)
    = Gae.zHat (aA m c) (aX m c) (aW1 m c) (aW2 m c) (aW3 m c) (aW4 m c) (aW5 m c) (aW6 m c) (aW7 m c) (aW8 m c) := by
  have e : (U10 m c main_v9 : Gae.Mat 10000 256) = (U9 m c main_v8 : Gae.Mat 10000 256) := by
    show StableHlo.after hostOps9 (U9 m c) (Proc.devRef .tc main_v9) = _
    after_results; rfl
  exact e.trans (v8_eq m c)

/-- The embedding is still in place when the last region reads it. -/
theorem v4_0_at10 : (U10 m c main_v4_0 : Gae.Mat 10000 32) = Gae.zGae (aA m c) (aX m c) (aW1 m c) (aW2 m c) (aW3 m c) (aW4 m c) :=
  (U10_keep m c main_v4_0 (by decide)).trans ((U9_keep m c main_v4_0 (by decide)).trans ((U8_keep m c main_v4_0 (by decide)).trans
    ((U7_keep m c main_v4_0 (by decide)).trans ((U6_keep m c main_v4_0 (by decide)).trans (v4_0_eq m c)))))

/-! ## The three results, at the end -/

theorem result_zGae : (U11 m c main_v4_0 : Gae.Mat 10000 32) = Gae.zGae (aA m c) (aX m c) (aW1 m c) (aW2 m c) (aW3 m c) (aW4 m c) :=
  (U11_keep m c main_v4_0 (by decide)).trans (v4_0_at10 m c)

theorem result_zHat : (U11 m c main_v8 : Gae.Mat 10000 256)
    = Gae.zHat (aA m c) (aX m c) (aW1 m c) (aW2 m c) (aW3 m c) (aW4 m c) (aW5 m c) (aW6 m c) (aW7 m c) (aW8 m c) :=
  (U11_keep m c main_v8 (by decide)).trans ((U10_keep m c main_v8 (by decide)).trans (v8_eq m c))

theorem result_adjHat : (U11 m c main_v10 : Gae.Mat 10000 10000)
    = Gae.adjHatTanh (Gae.zGae (aA m c) (aX m c) (aW1 m c) (aW2 m c) (aW3 m c) (aW4 m c))
        (Gae.zHat (aA m c) (aX m c) (aW1 m c) (aW2 m c) (aW3 m c) (aW4 m c) (aW5 m c) (aW6 m c) (aW7 m c) (aW8 m c)) := by
  unfold U11; rw [upd_self]
  refine (Region9.value (rd (U10 m)) c).trans ?_
  show Gae.adjHatTanh (U10 m c main_v4_0) (U10 m c main_v9) = _
  rw [v4_0_at10, v9_eq]

end Cert.KernelIdeal.Run

end
-- ==== Proof.RefValue.lean ====
/-
  The reference program's three results, read back as the specification's functions of its argument arrays.

  Every product of the reference is a plain one (rows × contraction against contraction × columns), so it is the
  whole-array matrix product; a maximum against the all-zero array is the rectifier; the product of an array with
  its transpose is the array's Gram matrix; and 1 / (1 + e^(−g)), entry by entry, is the logistic function as the
  specification spells it. Chained in program order these give the supports s₁ … s₈, the embedding, the
  reconstruction and the reconstructed adjacency.
-/
import proofs.«155458_g54082228191885_cont_9to1c4b_454_29_alg».proof.Proof.Gen.ReferenceIdeal.Run
import proofs.«155458_g54082228191885_cont_9to1c4b_454_29_alg».proof.Proof.Gen.ReferenceIdeal.Read
import proofs.«155458_g54082228191885_cont_9to1c4b_454_29_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx MatProd PlainDot Gae

/-! ## The thirteen products are plain -/

theorem plain_x_256 : IsPlain dot_S10000x256_S256x256_S10000x256_1_0_0_1_n_n := ⟨rfl, rfl, rfl, rfl, rfl, rfl⟩
theorem plain_A_256 : IsPlain dot_S10000x10000_S10000x256_S10000x256_1_0_0_1_n_n := ⟨rfl, rfl, rfl, rfl, rfl, rfl⟩
theorem plain_256_128 : IsPlain dot_S10000x256_S256x128_S10000x128_1_0_0_1_n_n := ⟨rfl, rfl, rfl, rfl, rfl, rfl⟩
theorem plain_A_128 : IsPlain dot_S10000x10000_S10000x128_S10000x128_1_0_0_1_n_n := ⟨rfl, rfl, rfl, rfl, rfl, rfl⟩
theorem plain_128_64 : IsPlain dot_S10000x128_S128x64_S10000x64_1_0_0_1_n_n := ⟨rfl, rfl, rfl, rfl, rfl, rfl⟩
theorem plain_A_64 : IsPlain dot_S10000x10000_S10000x64_S10000x64_1_0_0_1_n_n := ⟨rfl, rfl, rfl, rfl, rfl, rfl⟩
theorem plain_64_32 : IsPlain dot_S10000x64_S64x32_S10000x32_1_0_0_1_n_n := ⟨rfl, rfl, rfl, rfl, rfl, rfl⟩
theorem plain_A_32 : IsPlain dot_S10000x10000_S10000x32_S10000x32_1_0_0_1_n_n := ⟨rfl, rfl, rfl, rfl, rfl, rfl⟩
theorem plain_gram_32 : IsPlain dot_S10000x32_S32x10000_S10000x10000_1_0_0_1_n_n := ⟨rfl, rfl, rfl, rfl, rfl, rfl⟩
theorem plain_32_64 : IsPlain dot_S10000x32_S32x64_S10000x64_1_0_0_1_n_n := ⟨rfl, rfl, rfl, rfl, rfl, rfl⟩
theorem plain_64_128 : IsPlain dot_S10000x64_S64x128_S10000x128_1_0_0_1_n_n := ⟨rfl, rfl, rfl, rfl, rfl, rfl⟩
theorem plain_128_256 : IsPlain dot_S10000x128_S128x256_S10000x256_1_0_0_1_n_n := ⟨rfl, rfl, rfl, rfl, rfl, rfl⟩
theorem plain_gram_256 : IsPlain dot_S10000x256_S256x10000_S10000x10000_1_0_0_1_n_n := ⟨rfl, rfl, rfl, rfl, rfl, rfl⟩

/-! ## The four whole-array readings -/

variable {N K Q : Nat}

/-- A plain product is the matrix product. -/
theorem host_dot {d : DotDims ⟨2, ![N, K]⟩ ⟨2, ![K, Q]⟩ ⟨2, ![N, Q]⟩} (h : IsPlain d) (l : FVec Ideal ⟨2, ![N, K]⟩ .f32)
    (r : FVec Ideal ⟨2, ![K, Q]⟩ .f32) : Host.dotGeneral d none l r = matProd l r :=
  dotGeneral_eq h .single l r

/-- The maximum against the all-zero array is the rectifier. -/
theorem max_zero (z : FVec Ideal ⟨2, ![N, K]⟩ .f32) (h : S_.BroadcastsInDim ⟨2, ![N, K]⟩ (![] : Fin 0 → Fin 2)) :
    maximumf z (broadcastInDim ⟨2, ![N, K]⟩ ![] h (constant S_ .f32 0x00000000#32)) = relu z := by
  funext i
  show FloatOps.maximumf (z i) (FloatOps.ofBits .f32 0x00000000#32) = max (z i) 0
  rw [Ideal.maximumf_def, Ideal.ofBits_def, Ideal.ofBits_zero_f32]

/-- The product of an array with its transpose is its Gram matrix. -/
theorem dot_transpose (z : FVec Ideal ⟨2, ![N, K]⟩ .f32) (h : (⟨2, ![N, K]⟩ : Shape).Transposes [1, 0] ⟨2, ![K, N]⟩) :
    matProd z (transpose ⟨2, ![K, N]⟩ [1, 0] z h) = gram z := by
  funext i
  show ∑ k : Fin K, z (ix2 (i 0) k) * transpose ⟨2, ![K, N]⟩ [1, 0] z h (ix2 k (i 1))
    = ∑ k : Fin K, z (ix2 (i 0) k) * z (ix2 (i 1) k)
  refine Finset.sum_congr rfl fun k _ => ?_
  rw [transpose_apply [1, 0] z h (ix2 k (i 1)) (ix2 (i 1) k) (fun b => match b with
    | ⟨0, _⟩ => rfl
    | ⟨1, _⟩ => rfl)]

/-- The word 0x3F800000 is the number one. -/
theorem one_f32 : Ideal.ofBits .f32 0x3F800000#32 = 1 := IdealRules.sign_bit.ideal_onePat .f32

/-- 1 / (1 + e^(−g)) against the all-one array, entry by entry. -/
theorem logistic_form (g : FVec Ideal ⟨2, ![N, N]⟩ .f32) (h : S_.BroadcastsInDim ⟨2, ![N, N]⟩ (![] : Fin 0 → Fin 2)) :
    Host.divf (broadcastInDim ⟨2, ![N, N]⟩ ![] h (constant S_ .f32 0x3F800000#32))
        (addf (broadcastInDim ⟨2, ![N, N]⟩ ![] h (constant S_ .f32 0x3F800000#32)) (Host.exp (Host.negf g)))
      = fun i => Ideal.div 1 (1 + Ideal.exp (-(g i))) := by
  funext i
  show FloatOps.hostDivf (FloatOps.ofBits .f32 0x3F800000#32)
      (FloatOps.addf (FloatOps.ofBits .f32 0x3F800000#32) (FloatOps.hostUnary .exp (FloatOps.hostNegf (g i)))) = _
  rw [Ideal.hostDivf_def, Ideal.addf_def, Ideal.hostUnary_exp_def, Ideal.hostNegf_def, Ideal.negf_def, Ideal.ofBits_def,
    one_f32]

/-! ## The program, operation by operation -/

variable (A : FVec Ideal S10000x10000 .f32) (x : FVec Ideal S10000x256 .f32) (W1 : FVec Ideal S256x256 .f32)
  (W2 : FVec Ideal S256x128 .f32) (W3 : FVec Ideal S128x64 .f32) (W4 : FVec Ideal S64x32 .f32) (W5 : FVec Ideal S32x64 .f32)
  (W6 : FVec Ideal S64x128 .f32) (W7 : FVec Ideal S128x256 .f32) (W8 : FVec Ideal S256x256 .f32)

theorem v0 : val_main_v0 (F := Ideal) x W1 = sup1 x W1 := host_dot plain_x_256 x W1

theorem v3 : val_main_v3 (F := Ideal) x A W1 W2 = sup2 A x W1 W2 := by
  unfold val_main_v3 val_main_v2 val_main_v1 val_main_call0_v0 val_main_call0_cst
  rw [v0, host_dot plain_A_256, max_zero, host_dot plain_256_128]
  rfl

theorem v6 : val_main_v6 (F := Ideal) x A W1 W2 W3 = sup3 A x W1 W2 W3 := by
  unfold val_main_v6 val_main_v5 val_main_v4 val_main_call1_v0 val_main_call1_cst
  rw [v3, host_dot plain_A_128, max_zero, host_dot plain_128_64]
  rfl

theorem v9 : val_main_v9 (F := Ideal) x A W1 W2 W3 W4 = sup4 A x W1 W2 W3 W4 := by
  unfold val_main_v9 val_main_v8 val_main_v7 val_main_call2_v0 val_main_call2_cst
  rw [v6, host_dot plain_A_64, max_zero, host_dot plain_64_32]
  rfl

/-- The embedding. -/
theorem v10 : val_main_v10 (F := Ideal) x A W1 W2 W3 W4 = zGae A x W1 W2 W3 W4 := by
  unfold val_main_v10
  rw [v9, host_dot plain_A_32]
  rfl

theorem v19 : val_main_v19 (F := Ideal) x A W1 W2 W3 W4 W5 = sup5 A x W1 W2 W3 W4 W5 := by
  unfold val_main_v19
  rw [v10, host_dot plain_32_64]
  rfl

theorem v22 : val_main_v22 (F := Ideal) x A W1 W2 W3 W4 W5 W6 = sup6 A x W1 W2 W3 W4 W5 W6 := by
  unfold val_main_v22 val_main_v21 val_main_v20 val_main_call3_v0 val_main_call3_cst
  rw [v19, host_dot plain_A_64, max_zero, host_dot plain_64_128]
  rfl

theorem v25 : val_main_v25 (F := Ideal) x A W1 W2 W3 W4 W5 W6 W7 = sup7 A x W1 W2 W3 W4 W5 W6 W7 := by
  unfold val_main_v25 val_main_v24 val_main_v23 val_main_call4_v0 val_main_call4_cst
  rw [v22, host_dot plain_A_128, max_zero, host_dot plain_128_256]
  rfl

theorem v28 : val_main_v28 (F := Ideal) x A W1 W2 W3 W4 W5 W6 W7 W8 = sup8 A x W1 W2 W3 W4 W5 W6 W7 W8 := by
  unfold val_main_v28 val_main_v27 val_main_v26 val_main_call5_v0 val_main_call5_cst
  rw [v25, host_dot plain_A_256, max_zero, host_dot plain_x_256]
  rfl

/-- The reconstruction. -/
theorem v30 : val_main_v30 (F := Ideal) x A W1 W2 W3 W4 W5 W6 W7 W8 = zHat A x W1 W2 W3 W4 W5 W6 W7 W8 := by
  unfold val_main_v30 val_main_v29 val_main_call6_v0 val_main_call6_cst
  rw [v28, host_dot plain_A_256, max_zero]
  rfl

/-- The logistic function of the embedding's Gram matrix. -/
theorem v18 : val_main_v18 (F := Ideal) x A W1 W2 W3 W4
    = fun i => Ideal.div 1 (1 + Ideal.exp (-(gram (zGae A x W1 W2 W3 W4) i))) := by
  unfold val_main_v18 val_main_v17 val_main_cst_0 val_main_v16 val_main_v15 val_main_cst val_main_v14 val_main_v13 val_main_v12
    val_main_v11
  rw [v10, host_dot plain_gram_32, dot_transpose, logistic_form]

/-- The logistic function of the reconstruction's Gram matrix. -/
theorem v38 : val_main_v38 (F := Ideal) x A W1 W2 W3 W4 W5 W6 W7 W8
    = fun i => Ideal.div 1 (1 + Ideal.exp (-(gram (zHat A x W1 W2 W3 W4 W5 W6 W7 W8) i))) := by
  unfold val_main_v38 val_main_v37 val_main_cst_2 val_main_v36 val_main_v35 val_main_cst_1 val_main_v34 val_main_v33 val_main_v32
    val_main_v31
  rw [v30, host_dot plain_gram_256, dot_transpose, logistic_form]

/-- The reconstructed adjacency. -/
theorem v39 : val_main_v39 (F := Ideal) x A W1 W2 W3 W4 W5 W6 W7 W8
    = adjHatLogistic (zGae A x W1 W2 W3 W4) (zHat A x W1 W2 W3 W4 W5 W6 W7 W8) := by
  unfold val_main_v39
  rw [v18, v38]
  rfl

/-! ## The run -/

/-- Every execution of the reference ends with its three results at the specification's functions of the argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = zGae (m ((c.tc : Thread nD τ).loc main_arg1)) (m ((c.tc : Thread nD τ).loc main_arg0))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v30)
        = zHat (m ((c.tc : Thread nD τ).loc main_arg1)) (m ((c.tc : Thread nD τ).loc main_arg0))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_v39)
        = adjHatLogistic
            (zGae (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5)))
            (zHat (m ((c.tc : Thread nD τ).loc main_arg1)) (m ((c.tc : Thread nD τ).loc main_arg0))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c =>
    ⟨(h c).1.trans ((val_main_v10_eq _ _ _ _ _ _).trans (v10 ..)),
      (h c).2.1.trans ((val_main_v30_eq _ _ _ _ _ _ _ _ _ _).trans (v30 ..)),
      (h c).2.2.1.trans ((val_main_v39_eq m c).trans (v39 ..)),
      (h c).2.2.2⟩)
    (Cert.ReferenceIdeal.Value.run m ρ)

end Cert.ReferenceIdeal.RefValue

end
-- ==== Proof.RefFinite.lean ====
/-
  Every entry of the ten argument arrays is a real number, read off the stated precondition.

  The precondition is the conjunction, over the ten arrays, of all(|a| < +∞). A conjunction of one-bit words that is 1
  has every conjunct 1; a whole-array "all" that is 1 has the comparison 1 at every index; and an extended real whose
  absolute value max(y, −y) lies strictly below +∞ is neither infinity, hence a real number.
-/
import proofs.«155458_g54082228191885_cont_9to1c4b_454_29_alg».proof.Proof.Gen.Pre_finite_inputs
import proofs.«155458_g54082228191885_cont_9to1c4b_454_29_alg».proof.Proof.Spec
import Idealize.ShloMosaic.Lib.ReduceAll

noncomputable section

namespace Cert.ReferenceIdeal.RefValue

open Cert.Pre_finite_inputs Idealize.ShloMosaic Idealize.ShloMosaic.ValueIdx ErealAlgebra Gae

/-- The rank-0 shape has one index. -/
theorem subsingleton_scalar_idx : Subsingleton S_.Idx := ⟨fun _ _ => funext fun d => d.elim0⟩

/-- The word 0x7F800000 is +∞. -/
theorem inf_f32 : Ideal.ofBits .f32 0x7F800000#32 = ⊤ := by simp [Ideal.ofBits, Ideal.ieee]

/-- An extended real whose absolute value is below +∞ is a real number. -/
theorem isReal_of_abs_lt_top (y : EReal) (h : max y (-y) < ⊤) : IsReal y := by
  induction y using EReal.rec with
  | bot => simp at h
  | coe r => exact ⟨r, rfl⟩
  | top => simp at h

/-- One entry of a comparison |x| < +∞ that came out true: that entry of x is a real number. -/
theorem isReal_of_cmp {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) : IsReal (x i) := by
  have e' : Ideal.cmp .olt (max (x i) (-(x i))) (Ideal.ofBits .f32 0x7F800000#32) = 1#1 := e
  rw [inf_f32] at e'
  refine isReal_of_abs_lt_top _ ?_
  by_contra hn
  simp [Ideal.cmp, hn] at e'

/-- A whole-array test all(|x| < +∞) that came out true: every entry of x is a real number. -/
theorem isReal_of_all {s : Shape} (x : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : IsReal (x i) :=
  haveI := subsingleton_scalar_idx
  isReal_of_cmp x hb i (Host.reduce_andi_all _ _ hr hu ix0 e i)

/-- Under the precondition every argument entry is a real number. -/
theorem realArgs [Facts] (a0 : FVec Ideal S10000x256 .f32) (a1 : FVec Ideal S10000x10000 .f32) (a2 : FVec Ideal S256x256 .f32)
    (a3 : FVec Ideal S256x128 .f32) (a4 : FVec Ideal S128x64 .f32) (a5 : FVec Ideal S64x32 .f32) (a6 : FVec Ideal S32x64 .f32)
    (a7 : FVec Ideal S64x128 .f32) (a8 : FVec Ideal S128x256 .f32) (a9 : FVec Ideal S256x256 .f32)
    (h : fn (F := Ideal) a0 a1 a2 a3 a4 a5 a6 a7 a8 a9 = fun _ => 1#1) : RealArgs a1 a0 a2 a3 a4 a5 a6 a7 a8 a9 := by
  have h0 := congrFun h ix0
  unfold fn fn_part1 fn_part2 at h0
  dsimp only at h0
  obtain ⟨h0, h9⟩ := IntOp.andi_eq_one.1 h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨isReal_of_all a1 _ _ _ h1, isReal_of_all a0 _ _ _ h0, isReal_of_all a2 _ _ _ h2, isReal_of_all a3 _ _ _ h3,
    isReal_of_all a4 _ _ _ h4, isReal_of_all a5 _ _ _ h5, isReal_of_all a6 _ _ _ h6, isReal_of_all a7 _ _ _ h7,
    isReal_of_all a8 _ _ _ h8, isReal_of_all a9 _ _ _ h9⟩

end Cert.ReferenceIdeal.RefValue

end
-- ==== Proof.lean ====
/-
  A graph autoencoder of eight layers, as ten pipelined kernels, against its plain formulation.

  With A the 10000 × 10000 adjacency matrix, x the features and W₁ … W₈ the weights, every layer is Z' = max(A · (Z · W), 0)
  (the fourth, which yields the embedding Zg, has no maximum); the reconstruction is Zh, and the third result is
  σ(Zg Zgᵀ) + σ(Zh Zhᵀ) with σ the logistic function. The kernel program computes the same chain: one product x · W₁, then
  eight passes over row blocks of A, each turning a support matrix Z · W into the next one (so the grouping A · (Z · W) is the
  plain formulation's own), and a last kernel that forms both Gram products block by block and writes
  1 + ½·(tanh(½·a) + tanh(½·b)) where the plain formulation has 1/(1 + e^(−a)) + 1/(1 + e^(−b)).

  On the extended reals, with exact operations and changes of format the identity:
  * Zg and Zh are, entry by entry, the same finite sums of products on both sides — no law is needed, only that a block of
    rows of a product is the product of the block of rows;
  * the third result needs the one law  1/(1 + e^(−a)) = ½·(1 + tanh(½·a)),  a law of real numbers; the two Gram entries a, b
    are real because every argument entry is (the precondition) and finite sums, products and maxima of reals are real.
  The three frames: both kernel programs run item by item through their eleven items (ten regions and one host conversion),
  every region entered from known contents of the core's buffers and left at known contents, no item writing an argument;
  the plain program is a sequence of host operations. No operation of the kernel was rewritten for the extended reals, so
  there is nothing to preserve.
-/
import proofs.«155458_g54082228191885_cont_9to1c4b_454_29_alg».proof.Defs
import proofs.«155458_g54082228191885_cont_9to1c4b_454_29_alg».proof.Proof.Gen.Kernel
import proofs.«155458_g54082228191885_cont_9to1c4b_454_29_alg».proof.Proof.Gen.KernelIdeal
import proofs.«155458_g54082228191885_cont_9to1c4b_454_29_alg».proof.Proof.Gen.ReferenceIdeal
import proofs.«155458_g54082228191885_cont_9to1c4b_454_29_alg».proof.Proof.Gen.Pre_finite_inputs
import proofs.«155458_g54082228191885_cont_9to1c4b_454_29_alg».proof.Proof.Kernel.Frame
import proofs.«155458_g54082228191885_cont_9to1c4b_454_29_alg».proof.Proof.KernelIdeal.Values
import proofs.«155458_g54082228191885_cont_9to1c4b_454_29_alg».proof.Proof.RefValue
import proofs.«155458_g54082228191885_cont_9to1c4b_454_29_alg».proof.Proof.RefFinite
import Idealize.ShloMosaic.Adequacy
import Idealize.ShloMosaic.Init

set_option maxRecDepth 16384

noncomputable section

namespace Cert.Proof

open Idealize.ShloMosaic Idealize.SL.Sem

/-- Run from memories that agree on the arguments, the two idealized programs end with the same three arrays: the embedding,
    the reconstruction, and 1 + ½·(tanh(½·Zg Zgᵀ) + tanh(½·Zh Zhᵀ)), which is σ(Zg Zgᵀ) + σ(Zh Zhᵀ) wherever the arguments are
    real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  open Cert.KernelIdeal Cert.KernelIdeal.Run in
  refine ⟨fun c => Gae.zGae (aA m c) (aX m c) (aW1 m c) (aW2 m c) (aW3 m c) (aW4 m c), fun c => Gae.zHat (aA m c) (aX m c) (aW1 m c) (aW2 m c) (aW3 m c) (aW4 m c) (aW5 m c) (aW6 m c) (aW7 m c) (aW8 m c),
    fun c => Gae.adjHatTanh (Gae.zGae (aA m c) (aX m c) (aW1 m c) (aW2 m c) (aW3 m c) (aW4 m c)) (Gae.zHat (aA m c) (aX m c) (aW1 m c) (aW2 m c) (aW3 m c) (aW4 m c) (aW5 m c) (aW6 m c) (aW7 m c) (aW8 m c)), ?_, ?_⟩
  · open Cert.KernelIdeal Cert.KernelIdeal.Run in
    refine (θ_run Cert.KernelIdeal.defs _ _).mono (fun r h c => ?_) (Cert.KernelIdeal.Run.run m ρ)
    open Cert.KernelIdeal Cert.KernelIdeal.Run in
    exact ⟨(h c _ (mem_uc main_v4_0 (by decide))).trans (result_zGae m c),
      (h c _ (mem_uc main_v8 (by decide))).trans (result_zHat m c),
      (h c _ (mem_uc main_v10 (by decide))).trans (result_adjHat m c),
      (h c _ (mem_uc main_arg0 (by decide))).trans (U11_unwritten m c main_arg0 (by decide)),
      (h c _ (mem_uc main_arg1 (by decide))).trans (U11_unwritten m c main_arg1 (by decide)),
      (h c _ (mem_uc main_arg2 (by decide))).trans (U11_unwritten m c main_arg2 (by decide)),
      (h c _ (mem_uc main_arg3 (by decide))).trans (U11_unwritten m c main_arg3 (by decide)),
      (h c _ (mem_uc main_arg4 (by decide))).trans (U11_unwritten m c main_arg4 (by decide)),
      (h c _ (mem_uc main_arg5 (by decide))).trans (U11_unwritten m c main_arg5 (by decide)),
      (h c _ (mem_uc main_arg6 (by decide))).trans (U11_unwritten m c main_arg6 (by decide)),
      (h c _ (mem_uc main_arg7 (by decide))).trans (U11_unwritten m c main_arg7 (by decide)),
      (h c _ (mem_uc main_arg8 (by decide))).trans (U11_unwritten m c main_arg8 (by decide)),
      (h c _ (mem_uc main_arg9 (by decide))).trans (U11_unwritten m c main_arg9 (by decide))⟩
  · refine (θ_run Cert.ReferenceIdeal.defs _ _).mono (fun r h c => ?_) (Cert.ReferenceIdeal.RefValue.run m' ρ')
    obtain ⟨h0, h1, h2, hargs⟩ := h c
    obtain ⟨e0, e1, e2, e3, e4, e5, e6, e7, e8, e9⟩ := hagree c
    have hreal := Cert.ReferenceIdeal.RefValue.realArgs _ _ _ _ _ _ _ _ _ _ (hpre c)
    refine ⟨h0.trans ?_, h1.trans ?_, h2.trans ?_, hargs⟩
    · rw [e0, e1, e2, e3, e4, e5]
    · rw [e0, e1, e2, e3, e4, e5, e6, e7, e8, e9]
    · rw [e0, e1, e2, e3, e4, e5, e6, e7, e8, e9]
      exact Gae.adjHat_forms _ _ (Gae.zGae_isReal hreal) (Gae.zHat_isReal hreal)

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    fun m ρ _ => (θ_run Cert.ReferenceIdeal.defs _ _).mono (fun _ h c => (h c).2.2.2) (Cert.ReferenceIdeal.RefValue.run m ρ),
    trivial,
    algebraic⟩

end Cert.Proof

end
